-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v46)) (v3 : (c : Dev Cert.KernelIdeal.nD) → Buf (Elt Ideal) ((c.tc : Thread Cert.KernelIdeal.nD Cert.KernelIdeal.τ).loc Cert.KernelIdeal.main_v44_3)) (v4 : (c : Dev Cert.KernelIdeal.nD) → Buf (Elt Ideal) ((c.tc : Thread Cert.KernelIdeal.nD Cert.KernelIdeal.τ).loc Cert.KernelIdeal.main_v44_4)) (v5 : (c : Dev Cert.KernelIdeal.nD) → Buf (Elt Ideal) ((c.tc : Thread Cert.KernelIdeal.nD Cert.KernelIdeal.τ).loc Cert.KernelIdeal.main_v44_5)) (v6 : (c : Dev Cert.KernelIdeal.nD) → Buf (Elt Ideal) ((c.tc : Thread Cert.KernelIdeal.nD Cert.KernelIdeal.τ).loc Cert.KernelIdeal.main_v44_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_v44_3) = v3 c
          ∧ r.2.mem ((c.tc : Thread Cert.KernelIdeal.nD Cert.KernelIdeal.τ).loc Cert.KernelIdeal.main_v44_4) = v4 c
          ∧ r.2.mem ((c.tc : Thread Cert.KernelIdeal.nD Cert.KernelIdeal.τ).loc Cert.KernelIdeal.main_v44_5) = v5 c
          ∧ r.2.mem ((c.tc : Thread Cert.KernelIdeal.nD Cert.KernelIdeal.τ).loc Cert.KernelIdeal.main_v44_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_v99) = v5 c
          ∧ r.2.mem ((c.tc : Thread Cert.ReferenceIdeal.nD Cert.ReferenceIdeal.τ).loc Cert.ReferenceIdeal.main_v104) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x4 : Shape := ⟨2, ![262144, 4]⟩
abbrev S262144x64 : Shape := ⟨2, ![262144, 64]⟩
abbrev S262144x8 : Shape := ⟨2, ![262144, 8]⟩
abbrev S4x64 : Shape := ⟨2, ![4, 64]⟩
abbrev S64x64 : Shape := ⟨2, ![64, 64]⟩
abbrev S64x8 : Shape := ⟨2, ![64, 8]⟩
abbrev S128 : Shape := ⟨1, ![128]⟩
abbrev S4 : Shape := ⟨1, ![4]⟩
abbrev S64 : Shape := ⟨1, ![64]⟩
abbrev S8 : Shape := ⟨1, ![8]⟩
abbrev S_ : Shape := ⟨0, ![]⟩

class Facts : Prop where
  bcast_S_S262144x4 : S_.BroadcastsInDim S262144x4 (![] : Fin 0 → Fin S262144x4.rank)
  reducesTo_S262144x4_S_d0_1 : S262144x4.ReducesTo [0, 1] S_
  h_S_ : 0 < S_.numel
  bcast_S_S262144x64 : S_.BroadcastsInDim S262144x64 (![] : Fin 0 → Fin S262144x64.rank)
  reducesTo_S262144x64_S_d0_1 : S262144x64.ReducesTo [0, 1] S_
  bcast_S_S262144x8 : S_.BroadcastsInDim S262144x8 (![] : Fin 0 → Fin S262144x8.rank)
  reducesTo_S262144x8_S_d0_1 : S262144x8.ReducesTo [0, 1] S_
  bcast_S_S4x64 : S_.BroadcastsInDim S4x64 (![] : Fin 0 → Fin S4x64.rank)
  reducesTo_S4x64_S_d0_1 : S4x64.ReducesTo [0, 1] S_
  bcast_S_S64x64 : S_.BroadcastsInDim S64x64 (![] : Fin 0 → Fin S64x64.rank)
  reducesTo_S64x64_S_d0_1 : S64x64.ReducesTo [0, 1] S_
  bcast_S_S64x8 : S_.BroadcastsInDim S64x8 (![] : Fin 0 → Fin S64x8.rank)
  reducesTo_S64x8_S_d0_1 : S64x8.ReducesTo [0, 1] S_
  bcast_S_S128 : S_.BroadcastsInDim S128 (![] : Fin 0 → Fin S128.rank)
  reducesTo_S128_S_d0 : S128.ReducesTo [0] S_
  bcast_S_S4 : S_.BroadcastsInDim S4 (![] : Fin 0 → Fin S4.rank)
  reducesTo_S4_S_d0 : S4.ReducesTo [0] S_
  bcast_S_S64 : S_.BroadcastsInDim S64 (![] : Fin 0 → Fin S64.rank)
  reducesTo_S64_S_d0 : S64.ReducesTo [0] S_
  bcast_S_S8 : S_.BroadcastsInDim S8 (![] : Fin 0 → Fin S8.rank)
  reducesTo_S8_S_d0 : S8.ReducesTo [0] S_

variable [Facts]

def fn_part4 {F : FTy → Type} [FloatOps F] (main_arg14 : FVec F S8 .f32) (main_arg15 : FVec F S8 .f32) (main_v63 : IVec S_ 1) (main_v67 : IVec S_ 1) : IVec S_ 1 :=
  let main_v68 : IVec S_ 1 := andi main_v63 main_v67
  let main_v69 : FVec F S8 .f32 := Host.absf main_arg14
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  let main_v74 : FVec F S8 .f32 := Host.absf main_arg15
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  main_v78

def fn_part3 {F : FTy → Type} [FloatOps F] (main_arg11 : FVec F S4 .f32) (main_arg12 : FVec F S64 .f32) (main_arg13 : FVec F S64 .f32) (main_arg14 : FVec F S8 .f32) (main_arg15 : FVec F S8 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S4 .f32 := Host.absf main_arg11
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_v63 main_v67

def fn_part2 {F : FTy → Type} [FloatOps F] (main_arg7 : FVec F S64x64 .f32) (main_arg8 : FVec F S64x8 .f32) (main_arg9 : FVec F S128 .f32) (main_arg10 : FVec F S4 .f32) (main_arg11 : FVec F S4 .f32) (main_arg12 : FVec F S64 .f32) (main_arg13 : FVec F S64 .f32) (main_arg14 : FVec F S8 .f32) (main_arg15 : FVec F S8 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x8 .f32 := Host.absf main_arg8
  let main_cst_14 : FVec F S_ .f32 := constant S_ .f32 0x7F800000#32
  let main_v40 : FVec F S64x8 .f32 := broadcastInDim S64x8 ![] bcast_S_S64x8 main_cst_14
  let main_v41 : IVec S64x8 1 := cmpf .olt main_v39 main_v40
  let main_c_15 : IVec S_ 1 := constantI S_ 1 1#1
  let main_v42 : IVec S_ 1 := (fun x v => Host.reduce IntOp.andi x v reducesTo_S64x8_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_arg11 main_arg12 main_arg13 main_arg14 main_arg15 main_v48 main_v49 main_v50

def fn_part1 {F : FTy → Type} [FloatOps F] (main_arg4 : FVec F S262144x8 .f32) (main_arg5 : FVec F S4x64 .f32) (main_arg6 : FVec F S64x64 .f32) (main_arg7 : FVec F S64x64 .f32) (main_arg8 : FVec F S64x8 .f32) (main_arg9 : FVec F S128 .f32) (main_arg10 : FVec F S4 .f32) (main_arg11 : FVec F S4 .f32) (main_arg12 : FVec F S64 .f32) (main_arg13 : FVec F S64 .f32) (main_arg14 : FVec F S8 .f32) (main_arg15 : FVec F S8 .f32) (main_v13 : IVec S_ 1) (main_v16 : IVec S262144x8 1) : IVec S_ 1 :=
  let main_c_5 : IVec S_ 1 := constantI S_ 1 1#1
  let main_v17 : IVec S_ 1 := (fun x v => Host.reduce IntOp.andi x v reducesTo_S262144x8_S_d0_1 h_S_) main_v16 main_c_5
  let main_v18 : IVec S_ 1 := andi main_v13 main_v17
  let main_v19 : FVec F S262144x8 .f32 := Host.absf main_arg4
  let main_cst_6 : FVec F S_ .f32 := constant S_ .f32 0x7F800000#32
  let main_v20 : FVec F S262144x8 .f32 := broadcastInDim S262144x8 ![] bcast_S_S262144x8 main_cst_6
  let main_v21 : IVec S262144x8 1 := cmpf .olt main_v19 main_v20
  let main_c_7 : IVec S_ 1 := constantI S_ 1 1#1
  let main_v22 : IVec S_ 1 := (fun x v => Host.reduce IntOp.andi x v reducesTo_S262144x8_S_d0_1 h_S_) main_v21 main_c_7
  let main_v23 : IVec S_ 1 := andi main_v18 main_v22
  let main_v24 : FVec F S4x64 .f32 := Host.absf main_arg5
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S262144x4 .f32) (main_arg1 : FVec F S262144x64 .f32) (main_arg2 : FVec F S262144x64 .f32) (main_arg3 : FVec F S262144x8 .f32) (main_arg4 : FVec F S262144x8 .f32) (main_arg5 : FVec F S4x64 .f32) (main_arg6 : FVec F S64x64 .f32) (main_arg7 : FVec F S64x64 .f32) (main_arg8 : FVec F S64x8 .f32) (main_arg9 : FVec F S128 .f32) (main_arg10 : FVec F S4 .f32) (main_arg11 : FVec F S4 .f32) (main_arg12 : FVec F S64 .f32) (main_arg13 : FVec F S64 .f32) (main_arg14 : FVec F S8 .f32) (main_arg15 : FVec F S8 .f32) (main_arg16 : IVec S128 32) (main_arg17 : IVec S128 32) : IVec S_ 1 :=
  let main_v0 : FVec F S262144x4 .f32 := Host.absf main_arg0
  let main_cst : FVec F S_ .f32 := constant S_ .f32 0x7F800000#32
  let main_v1 : FVec F S262144x4 .f32 := broadcastInDim S262144x4 ![] bcast_S_S262144x4 main_cst
  let main_v2 : IVec S262144x4 1 := cmpf .olt main_v0 main_v1
  let main_c : IVec S_ 1 := constantI S_ 1 1#1
  let main_v3 : IVec S_ 1 := (fun x v => Host.reduce IntOp.andi x v reducesTo_S262144x4_S_d0_1 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S262144x64 .f32 := Host.absf main_arg2
  let main_cst_2 : FVec F S_ .f32 := constant S_ .f32 0x7F800000#32
  let main_v10 : FVec F S262144x64 .f32 := broadcastInDim S262144x64 ![] bcast_S_S262144x64 main_cst_2
  let main_v11 : IVec S262144x64 1 := cmpf .olt main_v9 main_v10
  let main_c_3 : IVec S_ 1 := constantI S_ 1 1#1
  let main_v12 : IVec S_ 1 := (fun x v => Host.reduce IntOp.andi x v reducesTo_S262144x64_S_d0_1 h_S_) main_v11 main_c_3
  let main_v13 : IVec S_ 1 := andi main_v8 main_v12
  let main_v14 : FVec F S262144x8 .f32 := Host.absf main_arg3
  let main_cst_4 : FVec F S_ .f32 := constant S_ .f32 0x7F800000#32
  let main_v15 : FVec F S262144x8 .f32 := broadcastInDim S262144x8 ![] bcast_S_S262144x8 main_cst_4
  let main_v16 : IVec S262144x8 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S262144x4 : Shape := ⟨2, ![262144, 4]⟩
abbrev S262144x64 : Shape := ⟨2, ![262144, 64]⟩
abbrev S262144x8 : Shape := ⟨2, ![262144, 8]⟩
abbrev S4x64 : Shape := ⟨2, ![4, 64]⟩
abbrev S64x64 : Shape := ⟨2, ![64, 64]⟩
abbrev S64x8 : Shape := ⟨2, ![64, 8]⟩
abbrev S128 : Shape := ⟨1, ![128]⟩
abbrev S4 : Shape := ⟨1, ![4]⟩
abbrev S64 : Shape := ⟨1, ![64]⟩
abbrev S8 : Shape := ⟨1, ![8]⟩
abbrev S_ : Shape := ⟨0, ![]⟩
abbrev S128x1 : Shape := ⟨2, ![128, 1]⟩
abbrev S128x2 : Shape := ⟨2, ![128, 2]⟩
abbrev S1x64 : Shape := ⟨2, ![1, 64]⟩
abbrev S1x8 : Shape := ⟨2, ![1, 8]⟩
abbrev S8192x128 : Shape := ⟨2, ![8192, 128]⟩
abbrev S1x4 : Shape := ⟨2, ![1, 4]⟩
abbrev S32x4 : Shape := ⟨2, ![32, 4]⟩
abbrev S1x128 : Shape := ⟨2, ![1, 128]⟩
abbrev S2048x4 : Shape := ⟨2, ![2048, 4]⟩
abbrev S64x128 : Shape := ⟨2, ![64, 128]⟩
abbrev S2048x64 : Shape := ⟨2, ![2048, 64]⟩
abbrev S2048x8 : Shape := ⟨2, ![2048, 8]⟩

abbrev nBuf : Space → Nat
  | .hbm => 144
  | .vmem => 34
  | .smem => 0
  | _ => 0

abbrev hbmTy0_0 (i : Nat) : BufTy := match i % 128 with
  | 0 => ⟨S262144x4, .f32⟩
  | 1 => ⟨S262144x64, .f32⟩
  | 2 => ⟨S262144x64, .f32⟩
  | 3 => ⟨S262144x8, .f32⟩
  | 4 => ⟨S262144x8, .f32⟩
  | 5 => ⟨S4x64, .f32⟩
  | 6 => ⟨S64x64, .f32⟩
  | 7 => ⟨S64x64, .f32⟩
  | 8 => ⟨S64x8, .f32⟩
  | 9 => ⟨S128, .f32⟩
  | 10 => ⟨S4, .f32⟩
  | 11 => ⟨S4, .f32⟩
  | 12 => ⟨S64, .f32⟩
  | 13 => ⟨S64, .f32⟩
  | 14 => ⟨S8, .f32⟩
  | 15 => ⟨S8, .f32⟩
  | 16 => ⟨S128, .i32⟩
  | 17 => ⟨S128, .i32⟩
  | 18 => ⟨S_, .f32⟩
  | 19 => ⟨S4x64, .f32⟩
  | 20 => ⟨S4x64, .f32⟩
  | 21 => ⟨S4x64, .f32⟩
  | 22 => ⟨S4x64, .f32⟩
  | 23 => ⟨S4x64, .i1⟩
  | 24 => ⟨S4x64, .f32⟩
  | 25 => ⟨S4x64, .f32⟩
  | 26 => ⟨S4x64, .f32⟩
  | 27 => ⟨S4x64, .f32⟩
  | 28 => ⟨S4x64, .f32⟩
  | 29 => ⟨S4x64, .f32⟩
  | 30 => ⟨S4x64, .f32⟩
  | 31 => ⟨S4x64, .f32⟩
  | 32 => ⟨S_, .f32⟩
  | 33 => ⟨S64x64, .f32⟩
  | 34 => ⟨S64x64, .f32⟩
  | 35 => ⟨S64x64, .f32⟩
  | 36 => ⟨S64x64, .f32⟩
  | 37 => ⟨S64x64, .i1⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S_, .f32⟩
  | 47 => ⟨S64x64, .f32⟩
  | 48 => ⟨S64x64, .f32⟩
  | 49 => ⟨S64x64, .f32⟩
  | 50 => ⟨S64x64, .f32⟩
  | 51 => ⟨S64x64, .i1⟩
  | 52 => ⟨S64x64, .f32⟩
  | 53 => ⟨S64x64, .f32⟩
  | 54 => ⟨S64x64, .f32⟩
  | 55 => ⟨S64x64, .f32⟩
  | 56 => ⟨S64x64, .f32⟩
  | 57 => ⟨S64x64, .f32⟩
  | 58 => ⟨S64x64, .f32⟩
  | 59 => ⟨S64x64, .f32⟩
  | 60 => ⟨S64x64, .f32⟩
  | 61 => ⟨S_, .f32⟩
  | 62 => ⟨S128, .f32⟩
  | 63 => ⟨S128, .f32⟩
  | 64 => ⟨S128, .f32⟩
  | 65 => ⟨S128, .f32⟩
  | 66 => ⟨S128, .i1⟩
  | 67 => ⟨S128, .f32⟩
  | 68 => ⟨S128, .f32⟩
  | 69 => ⟨S128, .f32⟩
  | 70 => ⟨S128, .f32⟩
  | 71 => ⟨S128, .f32⟩
  | 72 => ⟨S128, .f32⟩
  | 73 => ⟨S128, .f32⟩
  | 74 => ⟨S128, .f32⟩
  | 75 => ⟨S_, .f32⟩
  | 76 => ⟨S4x64, .f32⟩
  | 77 => ⟨S_, .i32⟩
  | 78 => ⟨S128, .i32⟩
  | 79 => ⟨S128, .i1⟩
  | 80 => ⟨S_, .i32⟩
  | 81 => ⟨S128, .i32⟩
  | 82 => ⟨S128, .i32⟩
  | 83 => ⟨S128, .i32⟩
  | 84 => ⟨S_, .i32⟩
  | 85 => ⟨S128, .i32⟩
  | 86 => ⟨S128, .i1⟩
  | 87 => ⟨S_, .i32⟩
  | 88 => ⟨S128, .i32⟩
  | 89 => ⟨S128, .i32⟩
  | 90 => ⟨S128, .i32⟩
  | 91 => ⟨S128x1, .i32⟩
  | 92 => ⟨S128x1, .i32⟩
  | 93 => ⟨S128x2, .i32⟩
  | 94 => ⟨S4x64, .f32⟩
  | 95 => ⟨S_, .f32⟩
  | 96 => ⟨S64, .f32⟩
  | 97 => ⟨S_, .i32⟩
  | 98 => ⟨S128, .i32⟩
  | 99 => ⟨S128, .i1⟩
  | 100 => ⟨S_, .i32⟩
  | 101 => ⟨S128, .i32⟩
  | 102 => ⟨S128, .i32⟩
  | 103 => ⟨S128, .i32⟩
  | 104 => ⟨S128x1, .i32⟩
  | 105 => ⟨S64, .f32⟩
  | 106 => ⟨S4x64, .f32⟩
  | 107 => ⟨S_, .f32⟩
  | 108 => ⟨S64x8, .f32⟩
  | 109 => ⟨S64x8, .f32⟩
  | 110 => ⟨S64x8, .f32⟩
  | 111 => ⟨S64x8, .f32⟩
  | 112 => ⟨S64x8, .i1⟩
  | 113 => ⟨S64x8, .f32⟩
  | 114 => ⟨S64x8, .f32⟩
  | 115 => ⟨S64x8, .f32⟩
  | 116 => ⟨S64x8, .f32⟩
  | 117 => ⟨S64x8, .f32⟩
  | 118 => ⟨S64x8, .f32⟩
  | 119 => ⟨S64x8, .f32⟩
  | 120 => ⟨S64x8, .f32⟩
  | 121 => ⟨S1x64, .f32⟩
  | 122 => ⟨S1x64, .f32⟩
  | 123 => ⟨S1x8, .f32⟩
  | 124 => ⟨S1x8, .f32⟩
  | 125 => ⟨S1x64, .f32⟩
  | 126 => ⟨S8192x128, .f32⟩
  | 127 => ⟨S1x4, .f32⟩
  | _ => ⟨S262144x4, .f32⟩

abbrev hbmTy0_1 (i : Nat) : BufTy := match i % 128 with
  | 0 => ⟨S32x4, .f32⟩
  | 1 => ⟨S128, .f32⟩
  | 2 => ⟨S1x128, .f32⟩
  | 3 => ⟨S1x4, .f32⟩
  | 4 => ⟨S32x4, .f32⟩
  | 5 => ⟨S128, .f32⟩
  | 6 => ⟨S1x128, .f32⟩
  | 7 => ⟨S262144x8, .f32⟩
  | 8 => ⟨S8192x128, .f32⟩
  | 9 => ⟨S8192x128, .f32⟩
  | 10 => ⟨S262144x64, .f32⟩
  | 11 => ⟨S262144x64, .f32⟩
  | 12 => ⟨S262144x8, .f32⟩
  | 13 => ⟨S262144x8, .f32⟩
  | 14 => ⟨S262144x4, .f32⟩
  | 15 => ⟨S262144x4, .f32⟩
  | _ => ⟨S262144x4, .f32⟩

abbrev hbmTy (i : Nat) : BufTy := match i / 128 with
  | 0 => hbmTy0_0 i
  | 1 => hbmTy0_1 i
  | _ => ⟨S262144x4, .f32⟩

abbrev bufTy : (tb : Table) → Fin (tcTables nBuf tb) → BufTy
  | .hbm, ⟨i, _⟩ => hbmTy i
  | .local _ .vmem, ⟨0, _⟩ => ⟨S2048x4, .f32⟩
  | .local _ .vmem, ⟨1, _⟩ => ⟨S2048x4, .f32⟩
  | .local _ .vmem, ⟨2, _⟩ => ⟨S64x128, .f32⟩
  | .local _ .vmem, ⟨3, _⟩ => ⟨S64x128, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x8, .f32⟩
  | .local _ .vmem, ⟨9, _⟩ => ⟨S2048x8, .f32⟩
  | .local _ .vmem, ⟨10, _⟩ => ⟨S4x64, .f32⟩
  | .local _ .vmem, ⟨11, _⟩ => ⟨S64x64, .f32⟩
  | .local _ .vmem, ⟨12, _⟩ => ⟨S1x64, .f32⟩
  | .local _ .vmem, ⟨13, _⟩ => ⟨S64x8, .f32⟩
  | .local _ .vmem, ⟨14, _⟩ => ⟨S1x128, .f32⟩
  | .local _ .vmem, ⟨15, _⟩ => ⟨S1x128, .f32⟩
  | .local _ .vmem, ⟨16, _⟩ => ⟨S1x64, .f32⟩
  | .local _ .vmem, ⟨17, _⟩ => ⟨S1x64, .f32⟩
  | .local _ .vmem, ⟨18, _⟩ => ⟨S1x8, .f32⟩
  | .local _ .vmem, ⟨19, _⟩ => ⟨S1x8, .f32⟩
  | .local _ .vmem, ⟨20, _⟩ => ⟨S2048x8, .f32⟩
  | .local _ .vmem, ⟨21, _⟩ => ⟨S2048x8, .f32⟩
  | .local _ .vmem, ⟨22, _⟩ => ⟨S64x128, .f32⟩
  | .local _ .vmem, ⟨23, _⟩ => ⟨S64x128, .f32⟩
  | .local _ .vmem, ⟨24, _⟩ => ⟨S64x128, .f32⟩
  | .local _ .vmem, ⟨25, _⟩ => ⟨S64x128, .f32⟩
  | .local _ .vmem, ⟨26, _⟩ => ⟨S2048x64, .f32⟩
  | .local _ .vmem, ⟨27, _⟩ => ⟨S2048x64, .f32⟩
  | .local _ .vmem, ⟨28, _⟩ => ⟨S2048x64, .f32⟩
  | .local _ .vmem, ⟨29, _⟩ => ⟨S2048x64, .f32⟩
  | .local _ .vmem, ⟨30, _⟩ => ⟨S2048x8, .f32⟩
  | .local _ .vmem, ⟨31, _⟩ => ⟨S2048x8, .f32⟩
  | .local _ .vmem, ⟨32, _⟩ => ⟨S2048x8, .f32⟩
  | .local _ .vmem, ⟨33, _⟩ => ⟨S2048x8, .f32⟩
  | _, _ => ⟨S262144x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v0 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_v1 : Ref sig .tc := ⟨.hbm, 45, rfl⟩
abbrev main_call2_cst : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_v2 : Ref sig .tc := ⟨.hbm, 59, rfl⟩
abbrev main_v3 : Ref sig .tc := ⟨.hbm, 60, rfl⟩
abbrev main_call3_cst : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_v4 : Ref sig .tc := ⟨.hbm, 74, rfl⟩
abbrev main_cst : Ref sig .tc := ⟨.hbm, 75, rfl⟩
abbrev main_v5 : Ref sig .tc := ⟨.hbm, 76, rfl⟩
abbrev main_c : Ref sig .tc := ⟨.hbm, 77, rfl⟩
abbrev main_v6 : Ref sig .tc := ⟨.hbm, 78, rfl⟩
abbrev main_v7 : Ref sig .tc := ⟨.hbm, 79, rfl⟩
abbrev main_c_0 : Ref sig .tc := ⟨.hbm, 80, rfl⟩
abbrev main_v8 : Ref sig .tc := ⟨.hbm, 81, rfl⟩
abbrev main_v9 : Ref sig .tc := ⟨.hbm, 82, rfl⟩
abbrev main_v10 : Ref sig .tc := ⟨.hbm, 83, rfl⟩
abbrev main_c_1 : Ref sig .tc := ⟨.hbm, 84, rfl⟩
abbrev main_v11 : Ref sig .tc := ⟨.hbm, 85, rfl⟩
abbrev main_v12 : Ref sig .tc := ⟨.hbm, 86, rfl⟩
abbrev main_c_2 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_cst_3 : Ref sig .tc := ⟨.hbm, 95, rfl⟩
abbrev main_v20 : Ref sig .tc := ⟨.hbm, 96, rfl⟩
abbrev main_c_4 : Ref sig .tc := ⟨.hbm, 97, rfl⟩
abbrev main_v21 : Ref sig .tc := ⟨.hbm, 98, rfl⟩
abbrev main_v22 : Ref sig .tc := ⟨.hbm, 99, rfl⟩
abbrev main_c_5 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_call4_cst : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_v5 : Ref sig .tc := ⟨.hbm, 113, rfl⟩
abbrev main_call4_v6 : Ref sig .tc := ⟨.hbm, 114, rfl⟩
abbrev main_call4_v7 : Ref sig .tc := ⟨.hbm, 115, rfl⟩
abbrev main_call4_v8 : Ref sig .tc := ⟨.hbm, 116, rfl⟩
abbrev main_call4_v9 : Ref sig .tc := ⟨.hbm, 117, rfl⟩
abbrev main_call4_v10 : Ref sig .tc := ⟨.hbm, 118, rfl⟩
abbrev main_call4_v11 : Ref sig .tc := ⟨.hbm, 119, rfl⟩
abbrev main_v29 : Ref sig .tc := ⟨.hbm, 120, rfl⟩
abbrev main_v30 : Ref sig .tc := ⟨.hbm, 121, rfl⟩
abbrev main_v31 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_v36 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_v40 : Ref sig .tc := ⟨.hbm, 131, rfl⟩
abbrev main_v41 : Ref sig .tc := ⟨.hbm, 132, rfl⟩
abbrev main_v42 : Ref sig .tc := ⟨.hbm, 133, rfl⟩
abbrev main_v43 : Ref sig .tc := ⟨.hbm, 134, rfl⟩
abbrev main_v44_0 : Ref sig .tc := ⟨.hbm, 135, rfl⟩
abbrev main_v44_1 : Ref sig .tc := ⟨.hbm, 136, rfl⟩
abbrev main_v44_2 : Ref sig .tc := ⟨.hbm, 137, rfl⟩
abbrev main_v44_3 : Ref sig .tc := ⟨.hbm, 138, rfl⟩
abbrev main_v44_4 : Ref sig .tc := ⟨.hbm, 139, rfl⟩
abbrev main_v44_5 : Ref sig .tc := ⟨.hbm, 140, rfl⟩
abbrev main_v44_6 : Ref sig .tc := ⟨.hbm, 141, rfl⟩
abbrev main_v45 : Ref sig .tc := ⟨.hbm, 142, rfl⟩
abbrev main_v46 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2048x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2048x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2048x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2048x8 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2048x8 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  bcast_S_S4x64 : S_.BroadcastsInDim S4x64 (![] : Fin 0 → Fin S4x64.rank)
  bcast_S_S64x64 : S_.BroadcastsInDim S64x64 (![] : Fin 0 → Fin S64x64.rank)
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  bcast_S_S64 : S_.BroadcastsInDim S64 (![] : Fin 0 → Fin S64.rank)
  bcast_S_S64x8 : S_.BroadcastsInDim S64x8 (![] : Fin 0 → Fin S64x8.rank)
  shapeCasts_S64_S1x64 : S64.ShapeCasts S1x64
  shapeCasts_S8_S1x8 : S8.ShapeCasts S1x8
  shapeCasts_S262144x4_S8192x128 : S262144x4.ShapeCasts S8192x128
  shapeCasts_S4_S1x4 : S4.ShapeCasts S1x4
  bcast_S1x4_S32x4_0_1 : S1x4.BroadcastsInDim S32x4 (![0, 1] : Fin 2 → Fin S32x4.rank)
  shapeCasts_S32x4_S128 : S32x4.ShapeCasts S128
  shapeCasts_S128_S1x128 : S128.ShapeCasts S1x128
  inb_S2048x4_S2048x4_0_0 : ∀ a, (![0, 0] : Fin 2 → Nat) a + S2048x4.size a ≤ S2048x4.size a
  h_S2048x4 : 0 < S2048x4.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2048x64_S2048x64_0_0 : ∀ a, (![0, 0] : Fin 2 → Nat) a + S2048x64.size a ≤ S2048x64.size a
  h_S2048x64 : 0 < S2048x64.numel
  inb_S2048x8_S2048x8_0_0 : ∀ a, (![0, 0] : Fin 2 → Nat) a + S2048x8.size a ≤ S2048x8.size a
  h_S2048x8 : 0 < S2048x8.numel
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  shapeCasts_S8192x128_S262144x4 : S8192x128.ShapeCasts S262144x4
  scatter_S4x64_S128x2_S128_n_01_01_1_wf : ScatterDims.WF S4x64 S128x2 S128 [] [0, 1] [0, 1] 1
  scatter_S64_S128x1_S128_n_0_0_1_wf : ScatterDims.WF S64 S128x1 S128 [] [0] [0] 1
  dot_S2048x4_S4x64_S2048x64_1_0_0_1_n_n_wf : DotDims.WF S2048x4 S4x64 S2048x64 [1] [0] [0] [1] [] []
  dot_S2048x64_S64x64_S2048x64_1_0_0_1_n_n_wf : DotDims.WF S2048x64 S64x64 S2048x64 [1] [0] [0] [1] [] []
  dot_S2048x64_S64x8_S2048x8_1_0_0_1_n_n_wf : DotDims.WF S2048x64 S64x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S262144x4.size a
  hwx0_0 : ∀ i : grid0.Coords, EltTy.bits .f32 = 32 ∨ (Rect.block (s := S262144x4) S2048x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S8192x128.size a
  hwx0_1 : ∀ i : grid0.Coords, EltTy.bits .f32 = 32 ∨ (Rect.block (s := S8192x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S262144x64.size a
  hwx0_2 : ∀ i : grid0.Coords, EltTy.bits .f32 = 32 ∨ (Rect.block (s := S262144x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S262144x64.size a
  hwx0_3 : ∀ i : grid0.Coords, EltTy.bits .f32 = 32 ∨ (Rect.block (s := S262144x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x8.size a ≤ S262144x8.size a
  hwx0_4 : ∀ i : grid0.Coords, EltTy.bits .f32 = 32 ∨ (Rect.block (s := S262144x8) S2048x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x64.size a ≤ S4x64.size a
  hwx0_5 : ∀ i : grid0.Coords, EltTy.bits .f32 = 32 ∨ (Rect.block (s := S4x64) S4x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x8.size a ≤ S64x8.size a
  hwx0_8 : ∀ i : grid0.Coords, EltTy.bits .f32 = 32 ∨ (Rect.block (s := S64x8) S64x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x8.size a ≤ S1x8.size a
  hwx0_13 : ∀ i : grid0.Coords, EltTy.bits .f32 = 32 ∨ (Rect.block (s := S1x8) S1x8.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x8.size a ≤ S1x8.size a
  hwx0_14 : ∀ i : grid0.Coords, EltTy.bits .f32 = 32 ∨ (Rect.block (s := S1x8) S1x8.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x8.size a ≤ S262144x8.size a
  hwx0_15 : ∀ i : grid0.Coords, EltTy.bits .f32 = 32 ∨ (Rect.block (s := S262144x8) S2048x8.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S64x128.size a ≤ S8192x128.size a
  hwx0_16 : ∀ i : grid0.Coords, EltTy.bits .f32 = 32 ∨ (Rect.block (s := S8192x128) S64x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S64x128.size a ≤ S8192x128.size a
  hwx0_17 : ∀ i : grid0.Coords, EltTy.bits .f32 = 32 ∨ (Rect.block (s := S8192x128) S64x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2048x64.size a ≤ S262144x64.size a
  hwx0_18 : ∀ i : grid0.Coords, EltTy.bits .f32 = 32 ∨ (Rect.block (s := S262144x64) S2048x64.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2048x64.size a ≤ S262144x64.size a
  hwx0_19 : ∀ i : grid0.Coords, EltTy.bits .f32 = 32 ∨ (Rect.block (s := S262144x64) S2048x64.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S2048x8.size a ≤ S262144x8.size a
  hwx0_20 : ∀ i : grid0.Coords, EltTy.bits .f32 = 32 ∨ (Rect.block (s := S262144x8) S2048x8.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S2048x8.size a ≤ S262144x8.size a
  hwx0_21 : ∀ i : grid0.Coords, EltTy.bits .f32 = 32 ∨ (Rect.block (s := S262144x8) S2048x8.size (cc0_transform_21 i) (hinb0_21 i)).WholeWords (EltTy.packing .f32)

variable [Facts₀]

def scatter_S4x64_S128x2_S128_n_01_01_1 : ScatterDims S4x64 S128x2 S128 where
  updateWindowDims := []
  insertedWindowDims := [0, 1]
  scatterDimsToOperandDims := [0, 1]
  indexVectorDim := 1
  wf := scatter_S4x64_S128x2_S128_n_01_01_1_wf
def scatter_S64_S128x1_S128_n_0_0_1 : ScatterDims S64 S128x1 S128 where
  updateWindowDims := []
  insertedWindowDims := [0]
  scatterDimsToOperandDims := [0]
  indexVectorDim := 1
  wf := scatter_S64_S128x1_S128_n_0_0_1_wf
def dot_S2048x4_S4x64_S2048x64_1_0_0_1_n_n : DotDims S2048x4 S4x64 S2048x64 where
  lhsContracting := [1]
  rhsContracting := [0]
  lhsNonContracting := [0]
  rhsNonContracting := [1]
  lhsBatch := []
  rhsBatch := []
  wf := dot_S2048x4_S4x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x8_S2048x8_1_0_0_1_n_n : DotDims S2048x64 S64x8 S2048x8 where
  lhsContracting := [1]
  rhsContracting := [0]
  lhsNonContracting := [0]
  rhsNonContracting := [1]
  lhsBatch := []
  rhsBatch := []
  wf := dot_S2048x64_S64x8_S2048x8_1_0_0_1_n_n_wf

abbrev win0_0 : Pipeline.Window sig grid0 :=
  Pipeline.Window.ofSpec (Memref.whole main_arg0) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2048x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28) S4x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S64x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v43) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v31) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v32) S1x8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v33) S1x8.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v44_0) S2048x8.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v44_1) S64x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v44_2) S64x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v44_3) S2048x64.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v44_4) S2048x64.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v44_5) S2048x8.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v44_6) S2048x8.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S262144x4 : Shape := ⟨2, ![262144, 4]⟩
abbrev S262144x64 : Shape := ⟨2, ![262144, 64]⟩
abbrev S262144x8 : Shape := ⟨2, ![262144, 8]⟩
abbrev S4x64 : Shape := ⟨2, ![4, 64]⟩
abbrev S64x64 : Shape := ⟨2, ![64, 64]⟩
abbrev S64x8 : Shape := ⟨2, ![64, 8]⟩
abbrev S128 : Shape := ⟨1, ![128]⟩
abbrev S4 : Shape := ⟨1, ![4]⟩
abbrev S64 : Shape := ⟨1, ![64]⟩
abbrev S8 : Shape := ⟨1, ![8]⟩
abbrev S1x4 : Shape := ⟨2, ![1, 4]⟩
abbrev S_ : Shape := ⟨0, ![]⟩
abbrev S128x1 : Shape := ⟨2, ![128, 1]⟩
abbrev S128x2 : Shape := ⟨2, ![128, 2]⟩
abbrev S1x64 : Shape := ⟨2, ![1, 64]⟩
abbrev S1x8 : Shape := ⟨2, ![1, 8]⟩

abbrev nBuf : Space → Nat
  | .hbm => 203
  | .vmem => 0
  | .smem => 0
  | _ => 0

abbrev hbmTy0_0 (i : Nat) : BufTy := match i % 128 with
  | 0 => ⟨S262144x4, .f32⟩
  | 1 => ⟨S262144x64, .f32⟩
  | 2 => ⟨S262144x64, .f32⟩
  | 3 => ⟨S262144x8, .f32⟩
  | 4 => ⟨S262144x8, .f32⟩
  | 5 => ⟨S4x64, .f32⟩
  | 6 => ⟨S64x64, .f32⟩
  | 7 => ⟨S64x64, .f32⟩
  | 8 => ⟨S64x8, .f32⟩
  | 9 => ⟨S128, .f32⟩
  | 10 => ⟨S4, .f32⟩
  | 11 => ⟨S4, .f32⟩
  | 12 => ⟨S64, .f32⟩
  | 13 => ⟨S64, .f32⟩
  | 14 => ⟨S8, .f32⟩
  | 15 => ⟨S8, .f32⟩
  | 16 => ⟨S128, .i32⟩
  | 17 => ⟨S128, .i32⟩
  | 18 => ⟨S1x4, .f32⟩
  | 19 => ⟨S262144x4, .f32⟩
  | 20 => ⟨S262144x4, .f32⟩
  | 21 => ⟨S1x4, .f32⟩
  | 22 => ⟨S262144x4, .f32⟩
  | 23 => ⟨S262144x4, .i1⟩
  | 24 => ⟨S_, .f32⟩
  | 25 => ⟨S262144x4, .f32⟩
  | 26 => ⟨S262144x4, .f32⟩
  | 27 => ⟨S_, .f32⟩
  | 28 => ⟨S4x64, .f32⟩
  | 29 => ⟨S4x64, .f32⟩
  | 30 => ⟨S4x64, .f32⟩
  | 31 => ⟨S4x64, .f32⟩
  | 32 => ⟨S4x64, .i1⟩
  | 33 => ⟨S4x64, .f32⟩
  | 34 => ⟨S4x64, .f32⟩
  | 35 => ⟨S4x64, .f32⟩
  | 36 => ⟨S4x64, .f32⟩
  | 37 => ⟨S4x64, .f32⟩
  | 38 => ⟨S4x64, .f32⟩
  | 39 => ⟨S4x64, .f32⟩
  | 40 => ⟨S4x64, .f32⟩
  | 41 => ⟨S262144x64, .f32⟩
  | 42 => ⟨S262144x64, .f32⟩
  | 43 => ⟨S_, .f32⟩
  | 44 => ⟨S64x64, .f32⟩
  | 45 => ⟨S64x64, .f32⟩
  | 46 => ⟨S64x64, .f32⟩
  | 47 => ⟨S64x64, .f32⟩
  | 48 => ⟨S64x64, .i1⟩
  | 49 => ⟨S64x64, .f32⟩
  | 50 => ⟨S64x64, .f32⟩
  | 51 => ⟨S64x64, .f32⟩
  | 52 => ⟨S64x64, .f32⟩
  | 53 => ⟨S64x64, .f32⟩
  | 54 => ⟨S64x64, .f32⟩
  | 55 => ⟨S64x64, .f32⟩
  | 56 => ⟨S64x64, .f32⟩
  | 57 => ⟨S_, .f32⟩
  | 58 => ⟨S64x64, .f32⟩
  | 59 => ⟨S64x64, .f32⟩
  | 60 => ⟨S64x64, .f32⟩
  | 61 => ⟨S64x64, .f32⟩
  | 62 => ⟨S64x64, .i1⟩
  | 63 => ⟨S64x64, .f32⟩
  | 64 => ⟨S64x64, .f32⟩
  | 65 => ⟨S64x64, .f32⟩
  | 66 => ⟨S64x64, .f32⟩
  | 67 => ⟨S64x64, .f32⟩
  | 68 => ⟨S64x64, .f32⟩
  | 69 => ⟨S64x64, .f32⟩
  | 70 => ⟨S64x64, .f32⟩
  | 71 => ⟨S64x64, .f32⟩
  | 72 => ⟨S262144x64, .f32⟩
  | 73 => ⟨S_, .f32⟩
  | 74 => ⟨S128, .f32⟩
  | 75 => ⟨S128, .f32⟩
  | 76 => ⟨S128, .f32⟩
  | 77 => ⟨S128, .f32⟩
  | 78 => ⟨S128, .i1⟩
  | 79 => ⟨S128, .f32⟩
  | 80 => ⟨S128, .f32⟩
  | 81 => ⟨S128, .f32⟩
  | 82 => ⟨S128, .f32⟩
  | 83 => ⟨S128, .f32⟩
  | 84 => ⟨S128, .f32⟩
  | 85 => ⟨S128, .f32⟩
  | 86 => ⟨S128, .f32⟩
  | 87 => ⟨S_, .f32⟩
  | 88 => ⟨S4x64, .f32⟩
  | 89 => ⟨S_, .i32⟩
  | 90 => ⟨S128, .i32⟩
  | 91 => ⟨S128, .i1⟩
  | 92 => ⟨S_, .i32⟩
  | 93 => ⟨S128, .i32⟩
  | 94 => ⟨S128, .i32⟩
  | 95 => ⟨S128, .i32⟩
  | 96 => ⟨S_, .i32⟩
  | 97 => ⟨S128, .i32⟩
  | 98 => ⟨S128, .i1⟩
  | 99 => ⟨S_, .i32⟩
  | 100 => ⟨S128, .i32⟩
  | 101 => ⟨S128, .i32⟩
  | 102 => ⟨S128, .i32⟩
  | 103 => ⟨S128x1, .i32⟩
  | 104 => ⟨S128x1, .i32⟩
  | 105 => ⟨S128x2, .i32⟩
  | 106 => ⟨S4x64, .f32⟩
  | 107 => ⟨S_, .f32⟩
  | 108 => ⟨S64, .f32⟩
  | 109 => ⟨S_, .i32⟩
  | 110 => ⟨S128, .i32⟩
  | 111 => ⟨S128, .i1⟩
  | 112 => ⟨S_, .i32⟩
  | 113 => ⟨S128, .i32⟩
  | 114 => ⟨S128, .i32⟩
  | 115 => ⟨S128, .i32⟩
  | 116 => ⟨S128x1, .i32⟩
  | 117 => ⟨S64, .f32⟩
  | 118 => ⟨S262144x64, .f32⟩
  | 119 => ⟨S262144x64, .f32⟩
  | 120 => ⟨S262144x64, .f32⟩
  | 121 => ⟨S1x64, .f32⟩
  | 122 => ⟨S262144x64, .f32⟩
  | 123 => ⟨S262144x64, .f32⟩
  | 124 => ⟨S262144x64, .f32⟩
  | 125 => ⟨S1x64, .f32⟩
  | 126 => ⟨S262144x64, .f32⟩
  | 127 => ⟨S262144x64, .f32⟩
  | _ => ⟨S262144x4, .f32⟩

abbrev hbmTy0_1 (i : Nat) : BufTy := match i % 128 with
  | 0 => ⟨S262144x64, .f32⟩
  | 1 => ⟨S1x64, .f32⟩
  | 2 => ⟨S262144x64, .f32⟩
  | 3 => ⟨S262144x64, .i1⟩
  | 4 => ⟨S_, .f32⟩
  | 5 => ⟨S262144x64, .f32⟩
  | 6 => ⟨S262144x64, .f32⟩
  | 7 => ⟨S1x64, .f32⟩
  | 8 => ⟨S262144x64, .f32⟩
  | 9 => ⟨S262144x64, .f32⟩
  | 10 => ⟨S262144x64, .f32⟩
  | 11 => ⟨S1x64, .f32⟩
  | 12 => ⟨S262144x64, .f32⟩
  | 13 => ⟨S262144x64, .f32⟩
  | 14 => ⟨S262144x64, .f32⟩
  | 15 => ⟨S1x64, .f32⟩
  | 16 => ⟨S262144x64, .f32⟩
  | 17 => ⟨S262144x64, .i1⟩
  | 18 => ⟨S_, .f32⟩
  | 19 => ⟨S262144x64, .f32⟩
  | 20 => ⟨S262144x64, .f32⟩
  | 21 => ⟨S1x64, .f32⟩
  | 22 => ⟨S262144x64, .f32⟩
  | 23 => ⟨S262144x64, .f32⟩
  | 24 => ⟨S262144x64, .f32⟩
  | 25 => ⟨S1x64, .f32⟩
  | 26 => ⟨S262144x64, .f32⟩
  | 27 => ⟨S262144x64, .f32⟩
  | 28 => ⟨S262144x64, .f32⟩
  | 29 => ⟨S1x64, .f32⟩
  | 30 => ⟨S262144x64, .f32⟩
  | 31 => ⟨S262144x64, .i1⟩
  | 32 => ⟨S_, .f32⟩
  | 33 => ⟨S262144x64, .f32⟩
  | 34 => ⟨S262144x64, .f32⟩
  | 35 => ⟨S1x64, .f32⟩
  | 36 => ⟨S262144x64, .f32⟩
  | 37 => ⟨S262144x64, .f32⟩
  | 38 => ⟨S262144x64, .f32⟩
  | 39 => ⟨S1x64, .f32⟩
  | 40 => ⟨S262144x64, .f32⟩
  | 41 => ⟨S262144x64, .f32⟩
  | 42 => ⟨S262144x64, .f32⟩
  | 43 => ⟨S1x64, .f32⟩
  | 44 => ⟨S262144x64, .f32⟩
  | 45 => ⟨S262144x64, .i1⟩
  | 46 => ⟨S_, .f32⟩
  | 47 => ⟨S262144x64, .f32⟩
  | 48 => ⟨S262144x64, .f32⟩
  | 49 => ⟨S_, .f32⟩
  | 50 => ⟨S64x8, .f32⟩
  | 51 => ⟨S64x8, .f32⟩
  | 52 => ⟨S64x8, .f32⟩
  | 53 => ⟨S64x8, .f32⟩
  | 54 => ⟨S64x8, .i1⟩
  | 55 => ⟨S64x8, .f32⟩
  | 56 => ⟨S64x8, .f32⟩
  | 57 => ⟨S64x8, .f32⟩
  | 58 => ⟨S64x8, .f32⟩
  | 59 => ⟨S64x8, .f32⟩
  | 60 => ⟨S64x8, .f32⟩
  | 61 => ⟨S64x8, .f32⟩
  | 62 => ⟨S64x8, .f32⟩
  | 63 => ⟨S262144x8, .f32⟩
  | 64 => ⟨S1x8, .f32⟩
  | 65 => ⟨S262144x8, .f32⟩
  | 66 => ⟨S262144x8, .f32⟩
  | 67 => ⟨S262144x8, .f32⟩
  | 68 => ⟨S1x8, .f32⟩
  | 69 => ⟨S262144x8, .f32⟩
  | 70 => ⟨S262144x8, .i1⟩
  | 71 => ⟨S_, .f32⟩
  | 72 => ⟨S262144x8, .f32⟩
  | 73 => ⟨S262144x8, .f32⟩
  | 74 => ⟨S262144x8, .f32⟩
  | _ => ⟨S262144x4, .f32⟩

abbrev hbmTy (i : Nat) : BufTy := match i / 128 with
  | 0 => hbmTy0_0 i
  | 1 => hbmTy0_1 i
  | _ => ⟨S262144x4, .f32⟩

abbrev bufTy : (tb : Table) → Fin (tcTables nBuf tb) → BufTy
  | .hbm, ⟨i, _⟩ => hbmTy i
  | _, _ => ⟨S262144x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_call2_cst : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_v11 : Ref sig .tc := ⟨.hbm, 56, rfl⟩
abbrev main_call3_cst : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_call4_cst : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_call4_v5 : Ref sig .tc := ⟨.hbm, 79, rfl⟩
abbrev main_call4_v6 : Ref sig .tc := ⟨.hbm, 80, rfl⟩
abbrev main_call4_v7 : Ref sig .tc := ⟨.hbm, 81, rfl⟩
abbrev main_call4_v8 : Ref sig .tc := ⟨.hbm, 82, rfl⟩
abbrev main_call4_v9 : Ref sig .tc := ⟨.hbm, 83, rfl⟩
abbrev main_call4_v10 : Ref sig .tc := ⟨.hbm, 84, rfl⟩
abbrev main_call4_v11 : Ref sig .tc := ⟨.hbm, 85, rfl⟩
abbrev main_v15 : Ref sig .tc := ⟨.hbm, 86, rfl⟩
abbrev main_cst_0 : Ref sig .tc := ⟨.hbm, 87, rfl⟩
abbrev main_v16 : Ref sig .tc := ⟨.hbm, 88, rfl⟩
abbrev main_c : Ref sig .tc := ⟨.hbm, 89, rfl⟩
abbrev main_v17 : Ref sig .tc := ⟨.hbm, 90, rfl⟩
abbrev main_v18 : Ref sig .tc := ⟨.hbm, 91, rfl⟩
abbrev main_c_1 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_c_2 : Ref sig .tc := ⟨.hbm, 96, rfl⟩
abbrev main_v22 : Ref sig .tc := ⟨.hbm, 97, rfl⟩
abbrev main_v23 : Ref sig .tc := ⟨.hbm, 98, rfl⟩
abbrev main_c_3 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_cst_4 : Ref sig .tc := ⟨.hbm, 107, rfl⟩
abbrev main_v31 : Ref sig .tc := ⟨.hbm, 108, rfl⟩
abbrev main_c_5 : Ref sig .tc := ⟨.hbm, 109, rfl⟩
abbrev main_v32 : Ref sig .tc := ⟨.hbm, 110, rfl⟩
abbrev main_v33 : Ref sig .tc := ⟨.hbm, 111, rfl⟩
abbrev main_c_6 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_cst_7 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_cst_8 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_cst_9 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_cst_10 : Ref sig .tc := ⟨.hbm, 174, rfl⟩
abbrev main_v92 : Ref sig .tc := ⟨.hbm, 175, rfl⟩
abbrev main_v93 : Ref sig .tc := ⟨.hbm, 176, rfl⟩
abbrev main_call9_cst : Ref sig .tc := ⟨.hbm, 177, rfl⟩
abbrev main_call9_v0 : Ref sig .tc := ⟨.hbm, 178, rfl⟩
abbrev main_call9_v1 : Ref sig .tc := ⟨.hbm, 179, rfl⟩
abbrev main_call9_v2 : Ref sig .tc := ⟨.hbm, 180, rfl⟩
abbrev main_call9_v3 : Ref sig .tc := ⟨.hbm, 181, rfl⟩
abbrev main_call9_v4 : Ref sig .tc := ⟨.hbm, 182, rfl⟩
abbrev main_call9_v5 : Ref sig .tc := ⟨.hbm, 183, rfl⟩
abbrev main_call9_v6 : Ref sig .tc := ⟨.hbm, 184, rfl⟩
abbrev main_call9_v7 : Ref sig .tc := ⟨.hbm, 185, rfl⟩
abbrev main_call9_v8 : Ref sig .tc := ⟨.hbm, 186, rfl⟩
abbrev main_call9_v9 : Ref sig .tc := ⟨.hbm, 187, rfl⟩
abbrev main_call9_v10 : Ref sig .tc := ⟨.hbm, 188, rfl⟩
abbrev main_call9_v11 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_cst_11 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩

abbrev nD : Nat := 1
abbrev τ : Topo := Topo.v7x

variable {F : FTy → Type} [FloatOps F]

class Facts₀ : Prop where
  bcast_S4_S1x4_1 : S4.BroadcastsInDim S1x4 (![1] : Fin 1 → Fin S1x4.rank)
  bcast_S1x4_S262144x4_0_1 : S1x4.BroadcastsInDim S262144x4 (![0, 1] : Fin 2 → Fin S262144x4.rank)
  bcast_S_S262144x4 : S_.BroadcastsInDim S262144x4 (![] : Fin 0 → Fin S262144x4.rank)
  bcast_S_S4x64 : S_.BroadcastsInDim S4x64 (![] : Fin 0 → Fin S4x64.rank)
  bcast_S_S64x64 : S_.BroadcastsInDim S64x64 (![] : Fin 0 → Fin S64x64.rank)
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  bcast_S_S64 : S_.BroadcastsInDim S64 (![] : Fin 0 → Fin S64.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S_S64x8 : S_.BroadcastsInDim S64x8 (![] : Fin 0 → Fin S64x8.rank)
  bcast_S8_S1x8_1 : S8.BroadcastsInDim S1x8 (![1] : Fin 1 → Fin S1x8.rank)
  bcast_S1x8_S262144x8_0_1 : S1x8.BroadcastsInDim S262144x8 (![0, 1] : Fin 2 → Fin S262144x8.rank)
  bcast_S_S262144x8 : S_.BroadcastsInDim S262144x8 (![] : Fin 0 → Fin S262144x8.rank)
  dot_S262144x4_S4x64_S262144x64_1_0_0_1_n_n_wf : DotDims.WF S262144x4 S4x64 S262144x64 [1] [0] [0] [1] [] []
  dot_S262144x64_S64x64_S262144x64_1_0_0_1_n_n_wf : DotDims.WF S262144x64 S64x64 S262144x64 [1] [0] [0] [1] [] []
  scatter_S4x64_S128x2_S128_n_01_01_1_wf : ScatterDims.WF S4x64 S128x2 S128 [] [0, 1] [0, 1] 1
  scatter_S64_S128x1_S128_n_0_0_1_wf : ScatterDims.WF S64 S128x1 S128 [] [0] [0] 1
  dot_S262144x64_S64x8_S262144x8_1_0_0_1_n_n_wf : DotDims.WF S262144x64 S64x8 S262144x8 [1] [0] [0] [1] [] []

variable [Facts₀]

def dot_S262144x4_S4x64_S262144x64_1_0_0_1_n_n : DotDims S262144x4 S4x64 S262144x64 where
  lhsContracting := [1]
  rhsContracting := [0]
  lhsNonContracting := [0]
  rhsNonContracting := [1]
  lhsBatch := []
  rhsBatch := []
  wf := dot_S262144x4_S4x64_S262144x64_1_0_0_1_n_n_wf
def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def scatter_S4x64_S128x2_S128_n_01_01_1 : ScatterDims S4x64 S128x2 S128 where
  updateWindowDims := []
  insertedWindowDims := [0, 1]
  scatterDimsToOperandDims := [0, 1]
  indexVectorDim := 1
  wf := scatter_S4x64_S128x2_S128_n_01_01_1_wf
def scatter_S64_S128x1_S128_n_0_0_1 : ScatterDims S64 S128x1 S128 where
  updateWindowDims := []
  insertedWindowDims := [0]
  scatterDimsToOperandDims := [0]
  indexVectorDim := 1
  wf := scatter_S64_S128x1_S128_n_0_0_1_wf
def dot_S262144x64_S64x8_S262144x8_1_0_0_1_n_n : DotDims S262144x64 S64x8 S262144x8 where
  lhsContracting := [1]
  rhsContracting := [0]
  lhsNonContracting := [0]
  rhsNonContracting := [1]
  lhsBatch := []
  rhsBatch := []
  wf := dot_S262144x64_S64x8_S262144x8_1_0_0_1_n_n_wf

class Facts : Prop extends Facts₀ where

variable [Facts]
-- ==== Proof.Neuron.lean ====
/-
  The mathematics of one batch row of the network, on the extended reals.

  A row carries a sensory state `x` (4 entries), a hidden state `(E, O)` (64 entries each) and an output
  state (8 entries). Every layer is a leaky threshold neuron: the internal state decays by a factor, receives a
  drive, and is passed on (`gate`) where it reaches its threshold, else zero.

  * input layer:   E_in f  = dec_in f · x f,                       O_in  = gate E_in  th_in
  * output layer:  E_out o = dec_out o · E⁰_out o + Σ_k O⁰_hid k · S k o,  O_out = gate E_out th_out,
                   action  = tanh E_out
  * hidden layer:  four steps of  E ← dec j · E j + I j − deg j · E j  with the loop-invariant drive
                   I j = (−(Σ_k x k · P k j) + Σ_k O⁰_hid k · C k j) + Σ_k x k · M k j,  O_hid = gate E th_hid.

  The same hidden layer can be arranged with the two input matrices folded into one, W = M − P, and the
  two decay factors into one, a = dec − deg: I' j = Σ_k x k · W k j + Σ_k O⁰_hid k · C k j and
  E ← a j · E j + I' j. The two arrangements agree when every quantity involved is a real number
  (`hidden_fold`): the extended reals do not distribute a product over a difference at the infinities, so
  this is where finiteness is used.
-/
import Idealize.ShloMosaic.PureOps.Ideal
import Idealize.ShloMosaic.Lib.ValueIdx

noncomputable section

open scoped BigOperators

namespace Cert.Neuron

open Idealize.ShloMosaic Idealize.ShloMosaic.ValueIdx

/-! ## Arrays by coordinates -/

/-- Row `b` of a matrix given on rank-2 indices. -/
def row2 {n0 n1 : Nat} (A : (⟨2, ![n0, n1]⟩ : Shape).Idx → EReal) (b : Fin n0) : Fin n1 → EReal :=
  fun f => A (ix2 b f)
/-- A matrix given on rank-2 indices, by its two coordinates. -/
def mat2 {n0 n1 : Nat} (A : (⟨2, ![n0, n1]⟩ : Shape).Idx → EReal) : Fin n0 → Fin n1 → EReal :=
  fun k j => A (ix2 k j)
/-- A vector given on rank-1 indices, by its coordinate. -/
def vec1 {n : Nat} (A : (⟨1, ![n]⟩ : Shape).Idx → EReal) : Fin n → EReal := fun j => A (ix1 j)

/-! ## The gate -/

/-- The zero both programs write: the real the all-zero binary32 word denotes. -/
def zero : EReal := Ideal.ofBits .f32 0x00000000#32

/-- A neuron's output: its internal state where that reaches the threshold, else zero. -/
def gate (e th : EReal) : EReal :=
  Scalar.select (FloatOps.cmpf (F := Ideal) (φ := .f32) .oge e th) e zero

/-! ## Input layer -/

def eIn (dec_in x : Fin 4 → EReal) (f : Fin 4) : EReal := dec_in f * x f
def oIn (th_in dec_in x : Fin 4 → EReal) (f : Fin 4) : EReal := gate (eIn dec_in x f) (th_in f)

/-! ## Output layer -/

def eOut (dec_out : Fin 8 → EReal) (S : Fin 64 → Fin 8 → EReal) (oE : Fin 8 → EReal) (hO : Fin 64 → EReal)
    (o : Fin 8) : EReal :=
  dec_out o * oE o + ∑ k : Fin 64, hO k * S k o
def oOut (th_out dec_out : Fin 8 → EReal) (S : Fin 64 → Fin 8 → EReal) (oE : Fin 8 → EReal) (hO : Fin 64 → EReal)
    (o : Fin 8) : EReal :=
  gate (eOut dec_out S oE hO o) (th_out o)
def action (dec_out : Fin 8 → EReal) (S : Fin 64 → Fin 8 → EReal) (oE : Fin 8 → EReal) (hO : Fin 64 → EReal)
    (o : Fin 8) : EReal :=
  Ideal.tanh (eOut dec_out S oE hO o)

/-! ## Hidden layer, with the three influences and the two decay terms kept apart -/

/-- The loop-invariant drive: inhibitory dense input, recurrent dense input, gap-junction input. -/
def drive (P M : Fin 4 → Fin 64 → EReal) (C : Fin 64 → Fin 64 → EReal) (x : Fin 4 → EReal) (hO : Fin 64 → EReal)
    (j : Fin 64) : EReal :=
  (-(∑ k : Fin 4, x k * P k j) + ∑ k : Fin 64, hO k * C k j) + ∑ k : Fin 4, x k * M k j
/-- One step of the hidden state. -/
def step (dec deg I E : Fin 64 → EReal) (j : Fin 64) : EReal := dec j * E j + I j - deg j * E j
/-- The hidden state after the four steps. -/
def eHid (dec deg : Fin 64 → EReal) (P M : Fin 4 → Fin 64 → EReal) (C : Fin 64 → Fin 64 → EReal)
    (x : Fin 4 → EReal) (hE hO : Fin 64 → EReal) : Fin 64 → EReal :=
  step dec deg (drive P M C x hO) (step dec deg (drive P M C x hO) (step dec deg (drive P M C x hO)
    (step dec deg (drive P M C x hO) hE)))
def oHid (th dec deg : Fin 64 → EReal) (P M : Fin 4 → Fin 64 → EReal) (C : Fin 64 → Fin 64 → EReal)
    (x : Fin 4 → EReal) (hE hO : Fin 64 → EReal) (j : Fin 64) : EReal :=
  gate (eHid dec deg P M C x hE hO j) (th j)

/-! ## Hidden layer, folded -/

def driveF (W : Fin 4 → Fin 64 → EReal) (C : Fin 64 → Fin 64 → EReal) (x : Fin 4 → EReal) (hO : Fin 64 → EReal)
    (j : Fin 64) : EReal :=
  ∑ k : Fin 4, x k * W k j + ∑ k : Fin 64, hO k * C k j
def stepF (a I E : Fin 64 → EReal) (j : Fin 64) : EReal := a j * E j + I j
def eHidF (a : Fin 64 → EReal) (W : Fin 4 → Fin 64 → EReal) (C : Fin 64 → Fin 64 → EReal)
    (x : Fin 4 → EReal) (hE hO : Fin 64 → EReal) : Fin 64 → EReal :=
  stepF a (driveF W C x hO) (stepF a (driveF W C x hO) (stepF a (driveF W C x hO)
    (stepF a (driveF W C x hO) hE)))
def oHidF (th a : Fin 64 → EReal) (W : Fin 4 → Fin 64 → EReal) (C : Fin 64 → Fin 64 → EReal)
    (x : Fin 4 → EReal) (hE hO : Fin 64 → EReal) (j : Fin 64) : EReal :=
  gate (eHidF a W C x hE hO j) (th j)

/-! ## Being a real number -/

/-- An extended real that is a real number. -/
def IsReal (e : EReal) : Prop := ∃ r : ℝ, e = (r : EReal)

end Cert.Neuron

end
-- ==== Proof.NeuronFold.lean ====
/-
  The two arrangements of the hidden layer agree over the reals.

  Folded:  I' j = Σ_k x k · (M k j − P k j) + Σ_k h k · C k j,   E ← (dec j − deg j) · E j + I' j.
  Apart:   I  j = (−(Σ_k x k · P k j) + Σ_k h k · C k j) + Σ_k x k · M k j,   E ← dec j · E j + I j − deg j · E j.

  When every entry is a real number each side is the image of one real expression, and the two real
  expressions are equal by distributivity; on the extended reals themselves distributivity fails at the
  infinities, which is why the statement assumes realness throughout.
-/
import proofs.«173613_j2894807958278_2_alg».proof.Proof.Neuron

noncomputable section

open scoped BigOperators

namespace Cert.Neuron

/-- The image of a finite real sum is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array of real numbers is the image of a real array. -/
theorem exists_real_fun {ι : Type*} {f : ι → EReal} (h : ∀ i, IsReal (f i)) : ∃ g : ι → ℝ, f = fun i => (g i : EReal) := by
  choose g hg using h
  exact ⟨g, funext hg⟩

theorem exists_real_fun2 {ι κ : Type*} {f : ι → κ → EReal} (h : ∀ i j, IsReal (f i j)) :
    ∃ g : ι → κ → ℝ, f = fun i j => (g i j : EReal) := by
  choose g hg using h
  exact ⟨g, funext fun i => funext fun j => hg i j⟩

/-- The drive with the influences kept apart, over real data, is the image of the real expression. -/
theorem drive_coe (P M : Fin 4 → Fin 64 → ℝ) (C : Fin 64 → Fin 64 → ℝ) (x : Fin 4 → ℝ) (h : Fin 64 → ℝ) :
    drive (fun k j => (P k j : EReal)) (fun k j => (M k j : EReal)) (fun k j => (C k j : EReal))
      (fun k => (x k : EReal)) (fun k => (h k : EReal))
    = fun j => (((-(∑ k : Fin 4, x k * P k j) + ∑ k : Fin 64, h k * C k j) + ∑ k : Fin 4, x k * M k j : ℝ) : EReal) := by
  funext j
  simp only [drive, ← EReal.coe_mul, ← coe_sum, ← EReal.coe_neg, ← EReal.coe_add]

/-- The folded drive, over real data, is the image of the SAME real expression: the product distributes over
    the difference of the two input matrices. -/
theorem driveF_coe (P M : Fin 4 → Fin 64 → ℝ) (C : Fin 64 → Fin 64 → ℝ) (x : Fin 4 → ℝ) (h : Fin 64 → ℝ) :
    driveF (fun k j => (M k j : EReal) - (P k j : EReal)) (fun k j => (C k j : EReal))
      (fun k => (x k : EReal)) (fun k => (h k : EReal))
    = fun j => (((-(∑ k : Fin 4, x k * P k j) + ∑ k : Fin 64, h k * C k j) + ∑ k : Fin 4, x k * M k j : ℝ) : EReal) := by
  funext j
  simp only [driveF, ← EReal.coe_sub, ← EReal.coe_mul, ← coe_sum, ← EReal.coe_add]
  congr 1
  simp only [mul_sub, Finset.sum_sub_distrib]
  ring

/-- One step with the two decay terms kept apart, over real data. -/
theorem step_coe (dec deg I E : Fin 64 → ℝ) :
    step (fun j => (dec j : EReal)) (fun j => (deg j : EReal)) (fun j => (I j : EReal)) (fun j => (E j : EReal))
    = fun j => ((dec j * E j + I j - deg j * E j : ℝ) : EReal) := by
  funext j
  simp only [step, ← EReal.coe_mul, ← EReal.coe_add, ← EReal.coe_sub]

/-- One folded step, over real data, is the image of the same real expression. -/
theorem stepF_coe (dec deg I E : Fin 64 → ℝ) :
    stepF (fun j => (dec j : EReal) - (deg j : EReal)) (fun j => (I j : EReal)) (fun j => (E j : EReal))
    = fun j => ((dec j * E j + I j - deg j * E j : ℝ) : EReal) := by
  funext j
  simp only [stepF, ← EReal.coe_sub, ← EReal.coe_mul, ← EReal.coe_add]
  congr 1
  ring

/-- THE LAW: over real data the folded hidden layer is the hidden layer. -/
theorem hidden_fold {dec deg : Fin 64 → EReal} {P M : Fin 4 → Fin 64 → EReal} {C : Fin 64 → Fin 64 → EReal}
    {x : Fin 4 → EReal} {hE hO : Fin 64 → EReal}
    (hdec : ∀ j, IsReal (dec j)) (hdeg : ∀ j, IsReal (deg j)) (hP : ∀ k j, IsReal (P k j)) (hM : ∀ k j, IsReal (M k j))
    (hC : ∀ k j, IsReal (C k j)) (hx : ∀ k, IsReal (x k)) (hhE : ∀ j, IsReal (hE j)) (hhO : ∀ j, IsReal (hO j)) :
    eHidF (fun j => dec j - deg j) (fun k j => M k j - P k j) C x hE hO = eHid dec deg P M C x hE hO := by
  obtain ⟨decr, rfl⟩ := exists_real_fun hdec
  obtain ⟨degr, rfl⟩ := exists_real_fun hdeg
  obtain ⟨Pr, rfl⟩ := exists_real_fun2 hP
  obtain ⟨Mr, rfl⟩ := exists_real_fun2 hM
  obtain ⟨Cr, rfl⟩ := exists_real_fun2 hC
  obtain ⟨xr, rfl⟩ := exists_real_fun hx
  obtain ⟨hEr, rfl⟩ := exists_real_fun hhE
  obtain ⟨hOr, rfl⟩ := exists_real_fun hhO
  unfold eHidF eHid
  rw [driveF_coe, drive_coe]
  simp only [stepF_coe, step_coe]

/-- The gated folded hidden layer is the gated hidden layer. -/
theorem hidden_fold_gate {th dec deg : Fin 64 → EReal} {P M : Fin 4 → Fin 64 → EReal} {C : Fin 64 → Fin 64 → EReal}
    {x : Fin 4 → EReal} {hE hO : Fin 64 → EReal}
    (hdec : ∀ j, IsReal (dec j)) (hdeg : ∀ j, IsReal (deg j)) (hP : ∀ k j, IsReal (P k j)) (hM : ∀ k j, IsReal (M k j))
    (hC : ∀ k j, IsReal (C k j)) (hx : ∀ k, IsReal (x k)) (hhE : ∀ j, IsReal (hE j)) (hhO : ∀ j, IsReal (hO j)) :
    oHidF th (fun j => dec j - deg j) (fun k j => M k j - P k j) C x hE hO = oHid th dec deg P M C x hE hO := by
  funext j
  unfold oHidF oHid
  rw [hidden_fold hdec hdeg hP hM hC hx hhE hhO]

end Cert.Neuron

end
-- ==== Proof.LibRealOps.lean ====
/-
  Real numbers among the extended reals, and the host operations that keep them.

  An extended real is a real number (`Cert.Neuron.IsReal`) when it is neither infinity. The reals are closed
  under the field operations, under maxima and under finite sums; on an array whose every entry is a real
  number, softplus (spelt `max x 0 + log (1 + exp (-|x - 0|))`, guarded by a comparison of `x - 0` with itself that
  never fires on the extended reals) has real entries, an accumulating scatter of real updates into a real
  operand has real entries, a difference of two real arrays has real entries, and so has the array of zeros.
-/
import Idealize.ShloMosaic.PureOps.Ideal
import Idealize.ShloMosaic.PureOps.Ideal.Laws
import Idealize.ShloMosaic.Lib.ValueIdx
import Idealize.ShloMosaic.Lib.ReduceAll
import proofs.«173613_j2894807958278_2_alg».proof.Proof.Neuron

noncomputable section

open scoped BigOperators

namespace Cert.Neuron

open Idealize.ShloMosaic

/-! ## Closure of the reals inside the extended reals -/

/-- A real number, read as an extended real, is a real number. -/
theorem IsReal.coe (r : ℝ) : IsReal (r : EReal) := ⟨r, rfl⟩

/-- Zero is a real number. -/
theorem IsReal.zero : IsReal (0 : EReal) := ⟨0, EReal.coe_zero.symm⟩

/-- One is a real number. -/
theorem IsReal.one : IsReal (1 : EReal) := ⟨1, EReal.coe_one.symm⟩

/-- The sum of two real numbers is a real number. -/
theorem IsReal.add {a b : EReal} (ha : IsReal a) (hb : IsReal b) : IsReal (a + b) := by
  obtain ⟨r, rfl⟩ := ha; obtain ⟨s, rfl⟩ := hb; exact ⟨r + s, (EReal.coe_add r s).symm⟩

/-- The negative of a real number is a real number. -/
theorem IsReal.neg {a : EReal} (ha : IsReal a) : IsReal (-a) := by
  obtain ⟨r, rfl⟩ := ha; exact ⟨-r, (EReal.coe_neg r).symm⟩

/-- The difference of two real numbers is a real number. -/
theorem IsReal.sub {a b : EReal} (ha : IsReal a) (hb : IsReal b) : IsReal (a - b) := by
  obtain ⟨r, rfl⟩ := ha; obtain ⟨s, rfl⟩ := hb; exact ⟨r - s, (EReal.coe_sub r s).symm⟩

/-- The product of two real numbers is a real number. -/
theorem IsReal.mul {a b : EReal} (ha : IsReal a) (hb : IsReal b) : IsReal (a * b) := by
  obtain ⟨r, rfl⟩ := ha; obtain ⟨s, rfl⟩ := hb; exact ⟨r * s, (EReal.coe_mul r s).symm⟩

/-- The larger of two real numbers is a real number. -/
theorem IsReal.max {a b : EReal} (ha : IsReal a) (hb : IsReal b) : IsReal (max a b) := by
  rcases max_choice a b with h | h <;> rw [h] <;> assumption

/-- A sum of real numbers over a finite set is a real number. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A sum of real numbers over a finite index type is a real number. -/
theorem IsReal.sum_univ {ι : Type*} [Fintype ι] (f : ι → EReal) (h : ∀ i, IsReal (f i)) : IsReal (∑ i, f i) :=
  IsReal.sum _ f fun i _ => h i

/-- A sum of real numbers over the indices that pass a test is a real number. -/
theorem IsReal.sum_filter {ι : Type*} [Fintype ι] (p : ι → Prop) [DecidablePred p] (f : ι → EReal)
    (h : ∀ i, IsReal (f i)) : IsReal (∑ i ∈ Finset.univ.filter p, f i) :=
  IsReal.sum _ f fun i _ => h i

/-! ## The accumulating scatter -/

/-- The host's accumulating scatter of real updates into a real operand has real entries: each entry is the
    operand's entry plus the sum of the updates whose index lands on it. -/
theorem scatterAdd_isReal {s si su : Shape} (d : ScatterDims s si su) {w : Nat} (x : FVec Ideal s .f32)
    (idx : IVec si w) (u : FVec Ideal su .f32) (hx : ∀ i, IsReal (x i)) (hu : ∀ j, IsReal (u j)) :
    ∀ i, IsReal (Host.scatterAdd d x idx u i) := fun i =>
  (hx i).add (IsReal.sum_filter _ u hu)

/-! ## Softplus -/

/-- The logarithm of one plus the exponential of a real number is a real number: the exponential is positive, so
    the logarithm is taken of a positive real. -/
theorem log1p_exp_isReal {a : EReal} (ha : IsReal a) : IsReal (Ideal.log1p (Ideal.exp a)) := by
  obtain ⟨t, rfl⟩ := ha
  have hpos : ¬ (1 + Real.exp t ≤ 0) := not_le.2 (by positivity)
  refine ⟨Real.log (1 + Real.exp t), ?_⟩
  rw [Ideal.log1p, Ideal.exp_coe, ← EReal.coe_one, ← EReal.coe_add, Ideal.log_coe, if_neg hpos]

/-- Softplus at a real number, as the host spells it at one element — `max a 0 + log (1 + exp (-|a - 0|))`, chosen
    by a comparison of `a - 0` with itself for inequality, which on the extended reals is never true — is a real
    number. -/
theorem softplus_scalar_isReal {a : EReal} (ha : IsReal a) :
    IsReal (Scalar.select (Ideal.cmp .une (a - 0) (a - 0)) (a + 0)
      (max a 0 + Ideal.log1p (Ideal.exp (-(max (a - 0) (-(a - 0))))))) := by
  have hc : Ideal.cmp .une (a - 0) (a - 0) = 0#1 := by simp [Ideal.cmp]
  have hs : ∀ p q : EReal, Scalar.select 0#1 p q = q := fun p q => if_neg (by decide)
  rw [hc, hs]
  have h0 := IsReal.zero
  exact (ha.max h0).add (log1p_exp_isReal ((ha.sub h0).max (ha.sub h0).neg).neg)

/-- Softplus of an array of real numbers, as the host spells it (the zero it compares with and subtracts is the
    broadcast of the all-zero binary32 word), has real entries. -/
theorem softplus_isReal {S : Shape} (hb : (⟨0, ![]⟩ : Shape).BroadcastsInDim S (![] : Fin 0 → Fin S.rank))
    (x : FVec Ideal S .f32) (hx : ∀ i, IsReal (x i)) :
    ∀ i, IsReal (select
      (cmpf .une (subf x (broadcastInDim S ![] hb (constant (F := Ideal) ⟨0, ![]⟩ .f32 0x00000000#32)))
        (subf x (broadcastInDim S ![] hb (constant (F := Ideal) ⟨0, ![]⟩ .f32 0x00000000#32))))
      (addf x (broadcastInDim S ![] hb (constant (F := Ideal) ⟨0, ![]⟩ .f32 0x00000000#32)))
      (addf (maximumf x (broadcastInDim S ![] hb (constant (F := Ideal) ⟨0, ![]⟩ .f32 0x00000000#32)))
        (Host.log1p (Host.exp (Host.negf (Host.absf
          (subf x (broadcastInDim S ![] hb (constant (F := Ideal) ⟨0, ![]⟩ .f32 0x00000000#32)))))))) i) := by
  intro i
  have h := softplus_scalar_isReal (hx i)
  rw [← Ideal.ofBits_zero_f32] at h
  exact h

/-! ## Differences and zeros -/

/-- The elementwise difference of two arrays of real numbers has real entries. -/
theorem subf_isReal {S : Shape} (x y : FVec Ideal S .f32) (hx : ∀ i, IsReal (x i)) (hy : ∀ i, IsReal (y i)) :
    ∀ i, IsReal (subf x y i) := fun i => (hx i).sub (hy i)

/-- The elementwise sum of two arrays of real numbers has real entries. -/
theorem addf_isReal {S : Shape} (x y : FVec Ideal S .f32) (hx : ∀ i, IsReal (x i)) (hy : ∀ i, IsReal (y i)) :
    ∀ i, IsReal (addf x y i) := fun i => (hx i).add (hy i)

/-- The broadcast of the all-zero binary32 word is an array of real numbers. -/
theorem zeros_isReal {S : Shape} (hb : (⟨0, ![]⟩ : Shape).BroadcastsInDim S (![] : Fin 0 → Fin S.rank)) :
    ∀ i, IsReal (broadcastInDim S ![] hb (constant (F := Ideal) ⟨0, ![]⟩ .f32 0x00000000#32) i) := fun i => by
  show IsReal (Ideal.ofBits .f32 0x00000000#32)
  rw [Ideal.ofBits_zero_f32]; exact IsReal.zero

/-! ## Reading a finiteness test back -/

/-- The binary32 word of positive infinity denotes the top extended real. -/
theorem ofBits_inf_f32 : Ideal.ofBits .f32 0x7F800000#32 = ⊤ := by simp [Ideal.ofBits, Ideal.ieee]

/-- An extended real whose absolute value is below positive infinity is a real number. -/
theorem isReal_of_abs_lt_top {a : EReal} (h : max a (-a) < ⊤) : IsReal a := by
  induction a using EReal.rec with
  | bot => exact absurd h (by simp)
  | coe r => exact ⟨r, rfl⟩
  | top => exact absurd h (by simp)

/-- A test `all (|x| < +∞)` read back: when the conjunction, over every entry of `x`, of "the entry's absolute value
    compares below the binary32 word of positive infinity" is true, every entry of `x` is a real number. -/
theorem isReal_of_all_abs_lt_inf {S : Shape} (hb : (⟨0, ![]⟩ : Shape).BroadcastsInDim S (![] : Fin 0 → Fin S.rank))
    (x : FVec Ideal S .f32) {axes : List (Fin S.rank)} (hr : S.ReducesTo axes ⟨0, ![]⟩)
    (hu : 0 < (⟨0, ![]⟩ : Shape).numel) (j : (⟨0, ![]⟩ : Shape).Idx)
    (e : Host.reduce IntOp.andi
        (cmpf .olt (Host.absf x) (broadcastInDim S ![] hb (constant (F := Ideal) ⟨0, ![]⟩ .f32 0x7F800000#32)))
        (constantI ⟨0, ![]⟩ 1 1#1) hr hu j = 1#1) :
    ∀ i, IsReal (x i) := by
  intro i
  haveI : Subsingleton (⟨0, ![]⟩ : Shape).Idx := ⟨fun a b => funext fun d => d.elim0⟩
  have h := Host.reduce_andi_all _ _ hr hu j e i
  have h' : Ideal.cmp .olt (max (x i) (-(x i))) (Ideal.ofBits .f32 0x7F800000#32) = 1#1 := h
  rw [ofBits_inf_f32] at h'
  refine isReal_of_abs_lt_top ?_
  by_contra hn
  simp [Ideal.cmp, hn] at h'

end Cert.Neuron

end
-- ==== Proof.PreReal.lean ====
/-
  The certificate's precondition, decoded: every entry of the float arguments is a real number.

  The precondition is the conjunction, over the sixteen float arguments, of `all (|x| < +∞)`; it is stated as
  "the printed test evaluates to the true word". Splitting the conjunction and reading each `all` back at an
  index gives, for each argument, that every entry's absolute value is below positive infinity, hence that the
  entry is neither infinity: a real number. The arguments the hidden layer's algebra needs (the sensory state,
  the two hidden states, the four weight arrays the host transforms, and the hidden decay) are stated one
  theorem each.
-/
import proofs.«173613_j2894807958278_2_alg».proof.Defs
import proofs.«173613_j2894807958278_2_alg».proof.Proof.Gen.Pre_finite_inputs
import proofs.«173613_j2894807958278_2_alg».proof.Proof.Gen.KernelIdeal
import proofs.«173613_j2894807958278_2_alg».proof.Proof.LibRealOps

noncomputable section

namespace Cert.PreReal

open Idealize.ShloMosaic Idealize.SL.Sem Cert.Neuron

variable [hPre_finite_inputs : Cert.Pre_finite_inputs.Facts]

/-- The precondition split: each of the sixteen float arguments has only real entries. -/
theorem real_all (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal ((m ((c.tc : Thread Cert.KernelIdeal.nD Cert.KernelIdeal.τ).loc Cert.KernelIdeal.main_arg0) : Cert.KernelIdeal.S262144x4.Idx → EReal) i)) ∧
    (∀ i, IsReal ((m ((c.tc : Thread Cert.KernelIdeal.nD Cert.KernelIdeal.τ).loc Cert.KernelIdeal.main_arg1) : Cert.KernelIdeal.S262144x64.Idx → EReal) i)) ∧
    (∀ i, IsReal ((m ((c.tc : Thread Cert.KernelIdeal.nD Cert.KernelIdeal.τ).loc Cert.KernelIdeal.main_arg2) : Cert.KernelIdeal.S262144x64.Idx → EReal) i)) ∧
    (∀ i, IsReal ((m ((c.tc : Thread Cert.KernelIdeal.nD Cert.KernelIdeal.τ).loc Cert.KernelIdeal.main_arg3) : Cert.KernelIdeal.S262144x8.Idx → EReal) i)) ∧
    (∀ i, IsReal ((m ((c.tc : Thread Cert.KernelIdeal.nD Cert.KernelIdeal.τ).loc Cert.KernelIdeal.main_arg4) : Cert.KernelIdeal.S262144x8.Idx → EReal) i)) ∧
    (∀ i, IsReal ((m ((c.tc : Thread Cert.KernelIdeal.nD Cert.KernelIdeal.τ).loc Cert.KernelIdeal.main_arg5) : Cert.KernelIdeal.S4x64.Idx → EReal) i)) ∧
    (∀ i, IsReal ((m ((c.tc : Thread Cert.KernelIdeal.nD Cert.KernelIdeal.τ).loc Cert.KernelIdeal.main_arg6) : Cert.KernelIdeal.S64x64.Idx → EReal) i)) ∧
    (∀ i, IsReal ((m ((c.tc : Thread Cert.KernelIdeal.nD Cert.KernelIdeal.τ).loc Cert.KernelIdeal.main_arg7) : Cert.KernelIdeal.S64x64.Idx → EReal) i)) ∧
    (∀ i, IsReal ((m ((c.tc : Thread Cert.KernelIdeal.nD Cert.KernelIdeal.τ).loc Cert.KernelIdeal.main_arg8) : Cert.KernelIdeal.S64x8.Idx → EReal) i)) ∧
    (∀ i, IsReal ((m ((c.tc : Thread Cert.KernelIdeal.nD Cert.KernelIdeal.τ).loc Cert.KernelIdeal.main_arg9) : Cert.KernelIdeal.S128.Idx → EReal) i)) ∧
    (∀ i, IsReal ((m ((c.tc : Thread Cert.KernelIdeal.nD Cert.KernelIdeal.τ).loc Cert.KernelIdeal.main_arg10) : Cert.KernelIdeal.S4.Idx → EReal) i)) ∧
    (∀ i, IsReal ((m ((c.tc : Thread Cert.KernelIdeal.nD Cert.KernelIdeal.τ).loc Cert.KernelIdeal.main_arg11) : Cert.KernelIdeal.S4.Idx → EReal) i)) ∧
    (∀ i, IsReal ((m ((c.tc : Thread Cert.KernelIdeal.nD Cert.KernelIdeal.τ).loc Cert.KernelIdeal.main_arg12) : Cert.KernelIdeal.S64.Idx → EReal) i)) ∧
    (∀ i, IsReal ((m ((c.tc : Thread Cert.KernelIdeal.nD Cert.KernelIdeal.τ).loc Cert.KernelIdeal.main_arg13) : Cert.KernelIdeal.S64.Idx → EReal) i)) ∧
    (∀ i, IsReal ((m ((c.tc : Thread Cert.KernelIdeal.nD Cert.KernelIdeal.τ).loc Cert.KernelIdeal.main_arg14) : Cert.KernelIdeal.S8.Idx → EReal) i)) ∧
    (∀ i, IsReal ((m ((c.tc : Thread Cert.KernelIdeal.nD Cert.KernelIdeal.τ).loc Cert.KernelIdeal.main_arg15) : Cert.KernelIdeal.S8.Idx → EReal) i)) := by
  have e := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  simp only [andi, IntOp.andi_eq_one] at e
  obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := e
  exact ⟨isReal_of_all_abs_lt_inf _ _ _ _ _ h0,
    isReal_of_all_abs_lt_inf _ _ _ _ _ h1,
    isReal_of_all_abs_lt_inf _ _ _ _ _ h2,
    isReal_of_all_abs_lt_inf _ _ _ _ _ h3,
    isReal_of_all_abs_lt_inf _ _ _ _ _ h4,
    isReal_of_all_abs_lt_inf _ _ _ _ _ h5,
    isReal_of_all_abs_lt_inf _ _ _ _ _ h6,
    isReal_of_all_abs_lt_inf _ _ _ _ _ h7,
    isReal_of_all_abs_lt_inf _ _ _ _ _ h8,
    isReal_of_all_abs_lt_inf _ _ _ _ _ h9,
    isReal_of_all_abs_lt_inf _ _ _ _ _ h10,
    isReal_of_all_abs_lt_inf _ _ _ _ _ h11,
    isReal_of_all_abs_lt_inf _ _ _ _ _ h12,
    isReal_of_all_abs_lt_inf _ _ _ _ _ h13,
    isReal_of_all_abs_lt_inf _ _ _ _ _ h14,
    isReal_of_all_abs_lt_inf _ _ _ _ _ h15⟩

/-- Every entry of argument 0 (the sensory state) is a real number. -/
theorem real_arg0 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal ((m ((c.tc : Thread Cert.KernelIdeal.nD Cert.KernelIdeal.τ).loc Cert.KernelIdeal.main_arg0) : Cert.KernelIdeal.S262144x4.Idx → EReal) i) :=
  (real_all m hpre c).1

/-- Every entry of argument 1 (the hidden internal state) is a real number. -/
theorem real_arg1 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal ((m ((c.tc : Thread Cert.KernelIdeal.nD Cert.KernelIdeal.τ).loc Cert.KernelIdeal.main_arg1) : Cert.KernelIdeal.S262144x64.Idx → EReal) i) :=
  (real_all m hpre c).2.1

/-- Every entry of argument 2 (the hidden output state) is a real number. -/
theorem real_arg2 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal ((m ((c.tc : Thread Cert.KernelIdeal.nD Cert.KernelIdeal.τ).loc Cert.KernelIdeal.main_arg2) : Cert.KernelIdeal.S262144x64.Idx → EReal) i) :=
  (real_all m hpre c).2.2.1

/-- Every entry of argument 5 (the input-to-hidden weights) is a real number. -/
theorem real_arg5 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal ((m ((c.tc : Thread Cert.KernelIdeal.nD Cert.KernelIdeal.τ).loc Cert.KernelIdeal.main_arg5) : Cert.KernelIdeal.S4x64.Idx → EReal) i) :=
  (real_all m hpre c).2.2.2.2.2.1

/-- Every entry of argument 6 (the inhibitory recurrent weights) is a real number. -/
theorem real_arg6 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal ((m ((c.tc : Thread Cert.KernelIdeal.nD Cert.KernelIdeal.τ).loc Cert.KernelIdeal.main_arg6) : Cert.KernelIdeal.S64x64.Idx → EReal) i) :=
  (real_all m hpre c).2.2.2.2.2.2.1

/-- Every entry of argument 7 (the excitatory recurrent weights) is a real number. -/
theorem real_arg7 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal ((m ((c.tc : Thread Cert.KernelIdeal.nD Cert.KernelIdeal.τ).loc Cert.KernelIdeal.main_arg7) : Cert.KernelIdeal.S64x64.Idx → EReal) i) :=
  (real_all m hpre c).2.2.2.2.2.2.2.1

/-- Every entry of argument 9 (the gap-junction weights) is a real number. -/
theorem real_arg9 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal ((m ((c.tc : Thread Cert.KernelIdeal.nD Cert.KernelIdeal.τ).loc Cert.KernelIdeal.main_arg9) : Cert.KernelIdeal.S128.Idx → EReal) i) :=
  (real_all m hpre c).2.2.2.2.2.2.2.2.2.1

/-- Every entry of argument 13 (the hidden decay) is a real number. -/
theorem real_arg13 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsReal ((m ((c.tc : Thread Cert.KernelIdeal.nD Cert.KernelIdeal.τ).loc Cert.KernelIdeal.main_arg13) : Cert.KernelIdeal.S64.Idx → EReal) i) :=
  (real_all m hpre c).2.2.2.2.2.2.2.2.2.2.2.2.2.1

end Cert.PreReal

end
-- ==== Proof.ParamsReal.lean ====
/-
  The reference's parameter arrays have real entries.

  On the host the reference builds, from the weight arguments: P = softplus of the input-to-hidden weights;
  C = softplus of the excitatory recurrent weights minus softplus of the inhibitory ones; the gap-junction
  conductances g = softplus of the gap-junction weights; M, the accumulating scatter of g into a [4,64] array of
  zeros at the (source, destination) index pairs; and deg, the accumulating scatter of g into a [64] array of zeros
  at the destination indices. Softplus of a real number is a real number, a difference of reals is a real, and
  a scatter that only adds real updates to a real operand leaves real entries, whatever the index values are.
-/
import proofs.«173613_j2894807958278_2_alg».proof.Proof.Gen.ReferenceIdeal.Read
import proofs.«173613_j2894807958278_2_alg».proof.Proof.LibRealOps

noncomputable section

namespace Cert.ReferenceIdeal.ParamsReal

open Cert.ReferenceIdeal Cert.ReferenceIdeal.Read Cert.Neuron Idealize.ShloMosaic

/-- P, softplus of the input-to-hidden weights, has real entries when the weights do. -/
theorem real_P (x5 : S4x64.Idx → EReal) (h : ∀ i, IsReal (x5 i)) : ∀ i, IsReal (val_main_v8 (F := Ideal) x5 i) :=
  softplus_isReal _ x5 h

/-- The gap-junction conductances, softplus of the gap-junction weights, are real when the weights are. -/
theorem real_g (x9 : S128.Idx → EReal) (h : ∀ i, IsReal (x9 i)) : ∀ i, IsReal (val_main_v15 (F := Ideal) x9 i) :=
  softplus_isReal _ x9 h

/-- C, softplus of the excitatory recurrent weights minus softplus of the inhibitory ones, has real entries when
    both weight arrays do. -/
theorem real_C (x6 x7 : S64x64.Idx → EReal) (h6 : ∀ i, IsReal (x6 i)) (h7 : ∀ i, IsReal (x7 i)) :
    ∀ i, IsReal (val_main_v13 (F := Ideal) x6 x7 i) :=
  subf_isReal _ _ (softplus_isReal _ x7 h7) (softplus_isReal _ x6 h6)

/-- M, the conductances scattered with accumulation into zeros at the (source, destination) pairs, has real entries
    when the gap-junction weights are real, whatever the indices. -/
theorem real_M (x9 : S128.Idx → EReal) (x16 x17 : S128.Idx → BitVec 32) (h : ∀ i, IsReal (x9 i)) :
    ∀ i, IsReal (val_main_v30 (F := Ideal) x9 x16 x17 i) :=
  scatterAdd_isReal _ _ _ _ (zeros_isReal _) (real_g x9 h)

/-- deg, the conductances scattered with accumulation into zeros at the destinations, has real entries when the
    gap-junction weights are real, whatever the indices. -/
theorem real_deg (x9 : S128.Idx → EReal) (x17 : S128.Idx → BitVec 32) (h : ∀ i, IsReal (x9 i)) :
    ∀ i, IsReal (val_main_v38 (F := Ideal) x9 x17 i) :=
  scatterAdd_isReal _ _ _ _ (zeros_isReal _) (real_g x9 h)

end Cert.ReferenceIdeal.ParamsReal

end
-- ==== Proof.KernelHost.lean ====
/-
  What the host computes before the kernel's region, for the parameter blocks the region reads whole.

  The host turns each raw weight array into a positive weight by the softplus
  `sp x = max(x, 0) + log(1 + exp(−|x − 0|))` (written with a select on `x − 0 ≠ x − 0`, which is never taken
  on the extended reals), scatters the positive gap-junction weights `sp w` into a `4 × 64` matrix at the
  positions `(src e, dst e)` and into a length-64 vector at the positions `dst e` (negative positions are
  first moved up by the extent of their axis), and hands the region
    * the input matrix    `M − sp P`,
    * the recurrent matrix `sp EX − sp IN`,
    * the degree vector, the read-out matrix `sp S`,
    * the thresholds and decays of the hidden and the output layer,
  the vectors as one-row matrices. This module names those terms and proves that they are what the region
  finds in the corresponding buffers.
-/
import proofs.«173613_j2894807958278_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal
import proofs.«173613_j2894807958278_2_alg».proof.Proof.Neuron

set_option maxRecDepth 16384

noncomputable section

namespace Cert.KernelIdeal.HostValue

open Idealize.ShloMosaic Idealize.ShloMosaic.TcCoe Idealize.ShloMosaic.ValueIdx
open Idealize.SL.Sem
open Cert.Neuron (row2 vec1)

/-! ## The terms -/

/-- The zero array of shape `S`: the zero word broadcast. -/
def zeros (S : Shape) (bc : S_.BroadcastsInDim S (![] : Fin 0 → Fin S.rank)) : FVec Ideal S .f32 :=
  broadcastInDim S ![] bc (constant (F := Ideal) S_ .f32 0x00000000#32)

/-- The softplus of every entry, as the host spells it: `max(x, 0) + log1p(exp(−|x − 0|))`, except where
    `x − 0 ≠ x − 0`, where it is `x + 0`. -/
def softplus (S : Shape) (bc : S_.BroadcastsInDim S (![] : Fin 0 → Fin S.rank)) (x : FVec Ideal S .f32) :
    FVec Ideal S .f32 :=
  select (cmpf .une (subf x (zeros S bc)) (subf x (zeros S bc))) (addf x (zeros S bc))
    (addf (maximumf x (zeros S bc))
      (Host.log1p (F := Ideal) (Host.exp (F := Ideal) (Host.negf (F := Ideal) (Host.absf (F := Ideal) (subf x (zeros S bc)))))))

/-- Softplus of a `4 × 64` matrix. -/
def spTerm4x64 (x : S4x64.Idx → EReal) : S4x64.Idx → EReal := softplus S4x64 Gen.bcast_S_S4x64 x
/-- Softplus of a `64 × 64` matrix. -/
def spTerm64x64 (x : S64x64.Idx → EReal) : S64x64.Idx → EReal := softplus S64x64 Gen.bcast_S_S64x64 x
/-- Softplus of a `64 × 8` matrix. -/
def spTerm64x8 (x : S64x8.Idx → EReal) : S64x8.Idx → EReal := softplus S64x8 Gen.bcast_S_S64x8 x
/-- Softplus of a vector of 128 entries. -/
def spTerm128 (x : S128.Idx → EReal) : S128.Idx → EReal := softplus S128 Gen.bcast_S_S128 x

/-- A vector of 128 positions on an axis of extent `n`, the negative ones counted from the end:
    `idx + n` where `idx < 0`, else `idx`. -/
def wrapIdx (n : BitVec 32) (idx : IVec S128 32) : IVec S128 32 :=
  select (cmpi .slt idx (broadcastInDim S128 ![] Gen.bcast_S_S128 (constantI S_ 32 0#32)))
    (addi idx (broadcastInDim S128 ![] Gen.bcast_S_S128 (constantI S_ 32 n))) idx

/-- A vector of 128 positions as one column. -/
def asColumn (idx : IVec S128 32) : IVec S128x1 32 := broadcastInDim S128x1 ![0] Gen.bcast_S128_S128x1_0 idx

/-- The `4 × 64` matrix of summed positive weights: entry `(p, q)` is the sum of `sp w e` over the `e` with
    `(src e, dst e) = (p, q)` (the scatter-add of `sp w` into the zero matrix at the two-column index table). -/
def mTerm (w : S128.Idx → EReal) (src dst : IVec S128 32) : S4x64.Idx → EReal :=
  Host.scatterAdd (F := Ideal) scatter_S4x64_S128x2_S128_n_01_01_1 (zeros S4x64 Gen.bcast_S_S4x64)
    (concatenate S128x2 1 [⟨S128x1, asColumn (wrapIdx 4#32 src)⟩, ⟨S128x1, asColumn (wrapIdx 64#32 dst)⟩]
      Gen.concatenates_S128x1_S128x1_S128x2_d1)
    (spTerm128 w)

/-- The vector of 64 summed positive weights: entry `q` is the sum of `sp w e` over the `e` with `dst e = q`. -/
def degTerm (w : S128.Idx → EReal) (dst : IVec S128 32) : S64.Idx → EReal :=
  Host.scatterAdd (F := Ideal) scatter_S64_S128x1_S128_n_0_0_1 (zeros S64 Gen.bcast_S_S64)
    (asColumn (wrapIdx 64#32 dst)) (spTerm128 w)

/-! ## What the region finds -/

variable (m : (ℓ : Loc nD τ sig) → Buf (Elt Ideal) ℓ) (c : Dev nD)

/-- Opens the fold of the host lines before the region at one buffer, down to the argument arrays. -/
local macro "read_host" : tactic =>
  `(tactic| (dsimp only [Gen.V, Gen.V0]
             simp only [Gen.hostOps0, Gen.hostOps0_1, Gen.hostOps0_2, Gen.hostOps0_3, Gen.hostOps0_4, Gen.hostOps0_5,
               Gen.hostOps0_6, Gen.hostOps0_7, List.flatten_cons, List.flatten_nil, List.append_nil, List.cons_append,
               List.nil_append]
             after_results_simp))

/-- The hidden thresholds as one row. -/
theorem V_v30 : (Gen.V m c main_v30 : S1x64.Idx → EReal)
    = shapeCast S1x64 (m ((c : Thread nD τ).loc main_arg12) : S64.Idx → EReal) Gen.shapeCasts_S64_S1x64 := by
  read_host; rfl
/-- The hidden decays as one row. -/
theorem V_v31 : (Gen.V m c main_v31 : S1x64.Idx → EReal)
    = shapeCast S1x64 (m ((c : Thread nD τ).loc main_arg13) : S64.Idx → EReal) Gen.shapeCasts_S64_S1x64 := by
  read_host; rfl
/-- The output thresholds as one row. -/
theorem V_v32 : (Gen.V m c main_v32 : S1x8.Idx → EReal)
    = shapeCast S1x8 (m ((c : Thread nD τ).loc main_arg14) : S8.Idx → EReal) Gen.shapeCasts_S8_S1x8 := by
  read_host; rfl
/-- The output decays as one row. -/
theorem V_v33 : (Gen.V m c main_v33 : S1x8.Idx → EReal)
    = shapeCast S1x8 (m ((c : Thread nD τ).loc main_arg15) : S8.Idx → EReal) Gen.shapeCasts_S8_S1x8 := by
  read_host; rfl

/-- Entry `j` of the hidden thresholds. -/
theorem V_th_hid (j : Fin 64) : row2 (Gen.V m c main_v30 : S1x64.Idx → EReal) 0 j
    = vec1 (m ((c : Thread nD τ).loc main_arg12) : S64.Idx → EReal) j := by
  rw [V_v30]; exact shapeCast_a_1a_apply _ _ 0 j
/-- Entry `j` of the hidden decays. -/
theorem V_dec_hid (j : Fin 64) : row2 (Gen.V m c main_v31 : S1x64.Idx → EReal) 0 j
    = vec1 (m ((c : Thread nD τ).loc main_arg13) : S64.Idx → EReal) j := by
  rw [V_v31]; exact shapeCast_a_1a_apply _ _ 0 j
/-- Entry `o` of the output thresholds. -/
theorem V_th_out (o : Fin 8) : row2 (Gen.V m c main_v32 : S1x8.Idx → EReal) 0 o
    = vec1 (m ((c : Thread nD τ).loc main_arg14) : S8.Idx → EReal) o := by
  rw [V_v32]; exact shapeCast_a_1a_apply _ _ 0 o
/-- Entry `o` of the output decays. -/
theorem V_dec_out (o : Fin 8) : row2 (Gen.V m c main_v33 : S1x8.Idx → EReal) 0 o
    = vec1 (m ((c : Thread nD τ).loc main_arg15) : S8.Idx → EReal) o := by
  rw [V_v33]; exact shapeCast_a_1a_apply _ _ 0 o

/-- The read-out matrix: the softplus of the raw one. -/
theorem V_h2o : (Gen.V m c main_v29 : S64x8.Idx → EReal)
    = spTerm64x8 (m ((c : Thread nD τ).loc main_arg8) : S64x8.Idx → EReal) := by
  read_host; rfl

/-- The recurrent matrix: excitatory minus inhibitory positive weights. -/
theorem V_comb : (Gen.V m c main_v3 : S64x64.Idx → EReal)
    = subf (F := Ideal) (s := S64x64) (φ := .f32) (spTerm64x64 (m ((c : Thread nD τ).loc main_arg7) : S64x64.Idx → EReal))
        (spTerm64x64 (m ((c : Thread nD τ).loc main_arg6) : S64x64.Idx → EReal)) := by
  read_host; rfl

/-- The input matrix: the scattered gap-junction weights minus the positive input weights. -/
theorem V_inw : (Gen.V m c main_v28 : S4x64.Idx → EReal)
    = subf (F := Ideal) (s := S4x64) (φ := .f32) (mTerm (m ((c : Thread nD τ).loc main_arg9) : S128.Idx → EReal)
          (m ((c : Thread nD τ).loc main_arg16) : IVec S128 32) (m ((c : Thread nD τ).loc main_arg17) : IVec S128 32))
        (spTerm4x64 (m ((c : Thread nD τ).loc main_arg5) : S4x64.Idx → EReal)) := by
  read_host; rfl

/-- The degree vector as one row. -/
theorem V_v34 : (Gen.V m c main_v34 : S1x64.Idx → EReal)
    = shapeCast S1x64 (degTerm (m ((c : Thread nD τ).loc main_arg9) : S128.Idx → EReal)
        (m ((c : Thread nD τ).loc main_arg17) : IVec S128 32)) Gen.shapeCasts_S64_S1x64 := by
  read_host; rfl
/-- Entry `j` of the degree vector. -/
theorem V_deg (j : Fin 64) : row2 (Gen.V m c main_v34 : S1x64.Idx → EReal) 0 j
    = vec1 (degTerm (m ((c : Thread nD τ).loc main_arg9) : S128.Idx → EReal)
        (m ((c : Thread nD τ).loc main_arg17) : IVec S128 32)) j := by
  rw [V_v34]; exact shapeCast_a_1a_apply _ _ 0 j

end Cert.KernelIdeal.HostValue

end
-- ==== Proof.HostParams.lean ====
/-
  The host's parameter terms are the reference's own stages.

  Both programs prepare the weights in the same way: the same softplus of each raw weight array, the same
  scatter-add of the positive gap-junction weights into a `4 × 64` matrix and into a length-64 vector, at the same
  (wrapped) positions. So each term of the kernel's host side is, operation for operation, the term the reference
  computes at the corresponding stage, and the buffers the region reads can be stated through the reference's stages:
  the input matrix is `M − sp P`, the recurrent matrix is the reference's `sp EX − sp IN`, the degree vector and the
  read-out matrix are the reference's.
-/
import proofs.«173613_j2894807958278_2_alg».proof.Proof.KernelHost
import proofs.«173613_j2894807958278_2_alg».proof.Proof.Gen.ReferenceIdeal.Read

set_option maxRecDepth 16384

noncomputable section

namespace Cert.KernelIdeal.HostValue

open Idealize.ShloMosaic Idealize.ShloMosaic.TcCoe Idealize.ShloMosaic.ValueIdx
open Idealize.SL.Sem
open Cert.Neuron (row2 vec1)

/-! ## Term by term -/

/-- The positive input weights. -/
theorem spTerm4x64_eq (x : S4x64.Idx → EReal) :
    spTerm4x64 x = Cert.ReferenceIdeal.Read.val_main_v8 (F := Ideal) x := rfl

/-- Excitatory minus inhibitory positive recurrent weights. -/
theorem comb_eq (x6 x7 : S64x64.Idx → EReal) :
    subf (F := Ideal) (s := S64x64) (φ := .f32) (spTerm64x64 x7) (spTerm64x64 x6)
      = Cert.ReferenceIdeal.Read.val_main_v13 (F := Ideal) x6 x7 := rfl

/-- The scattered gap-junction matrix. -/
theorem mTerm_eq (x9 : S128.Idx → EReal) (x16 x17 : IVec S128 32) :
    mTerm x9 x16 x17 = Cert.ReferenceIdeal.Read.val_main_v30 (F := Ideal) x9 x16 x17 := rfl

/-- The degree vector. -/
theorem degTerm_eq (x9 : S128.Idx → EReal) (x17 : IVec S128 32) :
    degTerm x9 x17 = Cert.ReferenceIdeal.Read.val_main_v38 (F := Ideal) x9 x17 := rfl

/-- The positive read-out weights. -/
theorem spTerm64x8_eq (x : S64x8.Idx → EReal) :
    spTerm64x8 x = Cert.ReferenceIdeal.Read.val_main_v94 (F := Ideal) x := rfl

/-! ## The region's parameter buffers through the reference's stages -/

variable (m : (ℓ : Loc nD τ sig) → Buf (Elt Ideal) ℓ) (c : Dev nD)

/-- The read-out matrix the region reads is the reference's. -/
theorem V_h2o_ref : (Gen.V m c main_v29 : S64x8.Idx → EReal)
    = Cert.ReferenceIdeal.Read.val_main_v94 (F := Ideal) (m ((c : Thread nD τ).loc main_arg8) : S64x8.Idx → EReal) := by
  rw [V_h2o, spTerm64x8_eq]

/-- The recurrent matrix the region reads is the reference's. -/
theorem V_comb_ref : (Gen.V m c main_v3 : S64x64.Idx → EReal)
    = Cert.ReferenceIdeal.Read.val_main_v13 (F := Ideal) (m ((c : Thread nD τ).loc main_arg6) : S64x64.Idx → EReal)
        (m ((c : Thread nD τ).loc main_arg7) : S64x64.Idx → EReal) := by
  rw [V_comb, comb_eq]

/-- The input matrix the region reads: the reference's scattered matrix minus its positive input weights. -/
theorem V_inw_ref : (Gen.V m c main_v28 : S4x64.Idx → EReal)
    = subf (F := Ideal) (s := S4x64) (φ := .f32)
        (Cert.ReferenceIdeal.Read.val_main_v30 (F := Ideal) (m ((c : Thread nD τ).loc main_arg9) : S128.Idx → EReal)
          (m ((c : Thread nD τ).loc main_arg16) : IVec S128 32) (m ((c : Thread nD τ).loc main_arg17) : IVec S128 32))
        (Cert.ReferenceIdeal.Read.val_main_v8 (F := Ideal) (m ((c : Thread nD τ).loc main_arg5) : S4x64.Idx → EReal)) := by
  rw [V_inw, mTerm_eq, spTerm4x64_eq]

/-- Entry `j` of the degree vector the region reads is the reference's. -/
theorem V_deg_ref (j : Fin 64) : row2 (Gen.V m c main_v34 : S1x64.Idx → EReal) 0 j
    = vec1 (Cert.ReferenceIdeal.Read.val_main_v38 (F := Ideal) (m ((c : Thread nD τ).loc main_arg9) : S128.Idx → EReal)
        (m ((c : Thread nD τ).loc main_arg17) : IVec S128 32)) j := by
  rw [V_deg, degTerm_eq]

end Cert.KernelIdeal.HostValue

end
-- ==== Proof.KernelOutPay.lean ====
/-
  The output layer's arithmetic inside one block of 2048 batch rows, read entry by entry: the internal state
  E_out = dec_out · E⁰_out + O⁰_hid · S (a [2048,64] × [64,8] product, as a sum over the 64 hidden units), the
  gated output and the action tanh E_out, each as the row-wise formula of the specification.
-/
import proofs.«173613_j2894807958278_2_alg».proof.Proof.Gen.KernelIdeal.Skeleton
import proofs.«173613_j2894807958278_2_alg».proof.Proof.Neuron
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockValue

open Cert.KernelIdeal Cert.KernelIdeal.Gen Cert.Neuron Idealize.ShloMosaic Idealize.ShloMosaic.ValueIdx

/-! ## The operand indices of the [2048,64] × [64,8] product -/

theorem lhs_out_0 (i : S2048x8.Idx) (q : dot_S2048x64_S64x8_S2048x8_1_0_0_1_n_n.contr.Idx) :
    (dot_S2048x64_S64x8_S2048x8_1_0_0_1_n_n.lhsIdx i q 0).val = (i 0).val := by
  unfold DotDims.lhsIdx
  rw [dif_neg (show ¬(0 : Fin S2048x64.rank) ∈ dot_S2048x64_S64x8_S2048x8_1_0_0_1_n_n.lhsBatch by decide), dif_pos (show (0 : Fin S2048x64.rank) ∈ dot_S2048x64_S64x8_S2048x8_1_0_0_1_n_n.lhsNonContracting by decide)]
  rfl
theorem lhs_out_1 (i : S2048x8.Idx) (q : dot_S2048x64_S64x8_S2048x8_1_0_0_1_n_n.contr.Idx) :
    (dot_S2048x64_S64x8_S2048x8_1_0_0_1_n_n.lhsIdx i q 1).val = (q ⟨0, by decide⟩).val :=
  dot_S2048x64_S64x8_S2048x8_1_0_0_1_n_n.lhsIdx_val_of_single rfl i q
theorem rhs_out_0 (i : S2048x8.Idx) (q : dot_S2048x64_S64x8_S2048x8_1_0_0_1_n_n.contr.Idx) :
    (dot_S2048x64_S64x8_S2048x8_1_0_0_1_n_n.rhsIdx i q 0).val = (q ⟨0, by decide⟩).val :=
  dot_S2048x64_S64x8_S2048x8_1_0_0_1_n_n.rhsIdx_val_of_single rfl i q
theorem rhs_out_1 (i : S2048x8.Idx) (q : dot_S2048x64_S64x8_S2048x8_1_0_0_1_n_n.contr.Idx) :
    (dot_S2048x64_S64x8_S2048x8_1_0_0_1_n_n.rhsIdx i q 1).val = (i 1).val := by
  unfold DotDims.rhsIdx
  rw [dif_neg (show ¬(1 : Fin S64x8.rank) ∈ dot_S2048x64_S64x8_S2048x8_1_0_0_1_n_n.rhsBatch by decide), dif_pos (show (1 : Fin S64x8.rank) ∈ dot_S2048x64_S64x8_S2048x8_1_0_0_1_n_n.rhsNonContracting by decide)]
  rfl

/-- The [2048,64] × [64,8] product into a zero accumulator, at row `p` and column `q`: the sum over the
    contracted axis of the row's entries times the column's. -/
theorem matmul_out_apply (l : FVec Ideal S2048x64 .f32) (r : FVec Ideal S64x8 .f32) (p : Fin 2048) (q : Fin 8) :
    FloatOps.matmul dot_S2048x64_S64x8_S2048x8_1_0_0_1_n_n (some .fp32) l r (constant (F := Ideal) S2048x8 .f32 0x00000000#32) (ix2 p q)
      = ∑ k : Fin 64, l (ix2 p k) * r (ix2 k q) := by
  rw [Ideal.matmul_constant_zero_apply, ← Equiv.sum_comp (contrEquiv1 dot_S2048x64_S64x8_S2048x8_1_0_0_1_n_n 64 rfl rfl).symm]
  refine Finset.sum_congr rfl fun k _ => ?_
  have hk := contrEquiv1_symm_val dot_S2048x64_S64x8_S2048x8_1_0_0_1_n_n 64 rfl rfl k
  have el : dot_S2048x64_S64x8_S2048x8_1_0_0_1_n_n.lhsIdx (ix2 p q) ((contrEquiv1 dot_S2048x64_S64x8_S2048x8_1_0_0_1_n_n 64 rfl rfl).symm k) = ix2 p k := funext fun a => Fin.ext (by
    match a with
    | ⟨0, _⟩ => exact lhs_out_0 _ _
    | ⟨1, _⟩ => exact (lhs_out_1 _ _).trans hk)
  have er : dot_S2048x64_S64x8_S2048x8_1_0_0_1_n_n.rhsIdx (ix2 p q) ((contrEquiv1 dot_S2048x64_S64x8_S2048x8_1_0_0_1_n_n 64 rfl rfl).symm k) = ix2 k q := funext fun a => Fin.ext (by
    match a with
    | ⟨0, _⟩ => exact (rhs_out_0 _ _).trans hk
    | ⟨1, _⟩ => exact rhs_out_1 _ _)
  rw [el, er]

/-- The output layer's internal state at row `p`, output `q` of a block: the decay factor times the old state plus
    the hidden outputs of the row weighted by the column of the output matrix. -/
theorem pay8_apply (v4 : Vec Ideal S2048x64 .f32) (v5 : Vec Ideal S2048x8 .f32) (v11 : FVec Ideal S64x8 .f32) (v48 : Vec Ideal S1x8 .f32)
    (p : Fin 2048) (q : Fin 8) :
    k0_pay8 (F := Ideal) v4 v5 v11 v48 (ix2 p q)
      = eOut (row2 v48 0) (mat2 v11) (row2 v5 p) (row2 v4 p) q := by
  unfold k0_pay8
  show (broadcastTo S2048x8 (shapeCast S1x8 v48 shapeCasts_S1x8_S1x8) broadcasts_S1x8_S2048x8 (ix2 p q)) * v5 (ix2 p q)
      + FloatOps.matmul dot_S2048x64_S64x8_S2048x8_1_0_0_1_n_n (some .fp32) v4 v11 (constant (F := Ideal) S2048x8 .f32 0x00000000#32) (ix2 p q) = _
  rw [matmul_out_apply, shapeCast_self, broadcastTo_1b_ab_apply]
  rfl

/-- The output layer's output at row `p`, output `q` of a block: the internal state where it reaches the threshold,
    else zero. -/
theorem pay9_apply (v4 : Vec Ideal S2048x64 .f32) (v5 : Vec Ideal S2048x8 .f32) (v11 : FVec Ideal S64x8 .f32) (v48 : Vec Ideal S1x8 .f32)
    (v50 : Vec Ideal S1x8 .f32) (p : Fin 2048) (q : Fin 8) :
    k0_pay9 (F := Ideal) v4 v5 v11 v48 v50 (ix2 p q)
      = oOut (row2 v50 0) (row2 v48 0) (mat2 v11) (row2 v5 p) (row2 v4 p) q := by
  unfold k0_pay9
  show Scalar.select (FloatOps.cmpf (F := Ideal) (φ := .f32) .oge (k0_pay8 (F := Ideal) v4 v5 v11 v48 (ix2 p q))
        (broadcastTo S2048x8 (shapeCast S1x8 v50 shapeCasts_S1x8_S1x8) broadcasts_S1x8_S2048x8 (ix2 p q)))
      (k0_pay8 (F := Ideal) v4 v5 v11 v48 (ix2 p q)) (Scalar.ofBits (F := Ideal) .f32 0x00000000#32) = _
  rw [pay8_apply, shapeCast_self, broadcastTo_1b_ab_apply]
  rfl

/-- The action at row `p`, output `q` of a block: the hyperbolic tangent of the internal state. -/
theorem pay10_apply (v4 : Vec Ideal S2048x64 .f32) (v5 : Vec Ideal S2048x8 .f32) (v11 : FVec Ideal S64x8 .f32) (v48 : Vec Ideal S1x8 .f32)
    (p : Fin 2048) (q : Fin 8) :
    k0_pay10 (F := Ideal) v4 v5 v11 v48 (ix2 p q)
      = action (row2 v48 0) (mat2 v11) (row2 v5 p) (row2 v4 p) q := by
  unfold k0_pay10
  show FloatOps.tanh (F := Ideal) (k0_pay8 (F := Ideal) v4 v5 v11 v48 (ix2 p q)) = _
  rw [pay8_apply, Ideal.tanh_def]
  rfl

end Cert.KernelIdeal.BlockValue

end
-- ==== Proof.KernelOutBlk.lean ====
/-
  Where the output layer's blocks sit in their arrays. The grid has 128 points; point t handles batch rows
  2048 t … 2048 t + 2047. A batch-tiled window's block at point t is those rows of its array; the windows of the
  output matrix, the decay factors and the thresholds hold their whole array at every point.
-/
import proofs.«173613_j2894807958278_2_alg».proof.Proof.Gen.KernelIdeal.Frame
import proofs.«173613_j2894807958278_2_alg».proof.Proof.Neuron
import Idealize.ShloMosaic.Lib.Pipeline.Value
import Idealize.ShloMosaic.Lib.ValueIdx
import Idealize.ShloMosaic.Lib.ValueLayout

noncomputable section

open scoped BigOperators

namespace Cert.KernelIdeal.BlockValue

open Cert.KernelIdeal Cert.KernelIdeal.Gen Cert.Neuron Idealize.ShloMosaic Idealize.ShloMosaic.ValueIdx
open Idealize.ShloMosaic.TcCoe Idealize.SL.Sem

variable (m : (ℓ : Loc nD τ sig) → Buf (Elt Ideal) ℓ)

/-- The block index of each window the output layer touches, at grid point `t`: the batch-tiled windows sit at
    block row `t`, the weight and parameter windows at block (0, 0). -/
theorem idx_out : ∀ t : Fin cfg0.N,
    (win0_3.index t (0 : Fin 2) = t.val ∧ win0_3.index t (1 : Fin 2) = 0)
    ∧ (win0_4.index t (0 : Fin 2) = t.val ∧ win0_4.index t (1 : Fin 2) = 0)
    ∧ (win0_8.index t (0 : Fin 2) = 0 ∧ win0_8.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = t.val ∧ win0_15.index t (1 : Fin 2) = 0)
    ∧ (win0_20.index t (0 : Fin 2) = t.val ∧ win0_20.index t (1 : Fin 2) = 0)
    ∧ (win0_21.index t (0 : Fin 2) = t.val ∧ win0_21.index t (1 : Fin 2) = 0) :=
  (by decide +kernel : ∀ t : Fin grid0.N, _)

/-- Row `p` of the hidden-output block at point `t` is batch row `2048 t + p` of the array. -/
theorem blk3_apply (c : Dev nD) (t : Fin cfg0.N) (p : Fin 2048) (k : Fin 64) (r : Fin 262144) (hr : r.val = 2048 * t.val + p.val) :
    (iblk m c 3 t : S2048x64.Idx → EReal) (ix2 p k) = (V m c main_arg2 : S262144x64.Idx → EReal) (ix2 r k) := by
  obtain ⟨⟨e0, e1⟩, -⟩ := idx_out t
  unfold iblk
  rw [View.read_apply]
  show (V m c main_arg2 : S262144x64.Idx → EReal) _ = _
  refine congrArg _ (funext fun a => Fin.ext ?_)
  match a with
  | ⟨0, _⟩ => show win0_3.index t (0 : Fin 2) * 2048 + 1 * p.val = r.val; omega
  | ⟨1, _⟩ => show win0_3.index t (1 : Fin 2) * 64 + 1 * k.val = k.val; omega

/-- Row `p` of the old output-state block at point `t` is batch row `2048 t + p` of the array. -/
theorem blk4_apply (c : Dev nD) (t : Fin cfg0.N) (p : Fin 2048) (o : Fin 8) (r : Fin 262144) (hr : r.val = 2048 * t.val + p.val) :
    (iblk m c 4 t : S2048x8.Idx → EReal) (ix2 p o) = (V m c main_arg3 : S262144x8.Idx → EReal) (ix2 r o) := by
  obtain ⟨-, ⟨e0, e1⟩, -⟩ := idx_out t
  unfold iblk
  rw [View.read_apply]
  show (V m c main_arg3 : S262144x8.Idx → EReal) _ = _
  refine congrArg _ (funext fun a => Fin.ext ?_)
  match a with
  | ⟨0, _⟩ => show win0_4.index t (0 : Fin 2) * 2048 + 1 * p.val = r.val; omega
  | ⟨1, _⟩ => show win0_4.index t (1 : Fin 2) * 8 + 1 * o.val = o.val; omega

/-- The output matrix's window holds the whole matrix at every point. -/
theorem blk8_eq (c : Dev nD) (t : Fin cfg0.N) :
    (iblk m c 8 t : S64x8.Idx → EReal) = (V m c main_v29 : S64x8.Idx → EReal) := by
  obtain ⟨-, -, ⟨e0, e1⟩, -⟩ := idx_out t
  funext x
  unfold iblk
  rw [View.read_apply]
  show (V m c main_v29 : S64x8.Idx → EReal) _ = _
  refine congrArg _ (funext fun a => Fin.ext ?_)
  match a with
  | ⟨0, _⟩ => show win0_8.index t (0 : Fin 2) * 64 + 1 * (x 0).val = (x 0).val; omega
  | ⟨1, _⟩ => show win0_8.index t (1 : Fin 2) * 8 + 1 * (x 1).val = (x 1).val; omega

/-- The output thresholds' window holds the whole row at every point. -/
theorem blk13_eq (c : Dev nD) (t : Fin cfg0.N) :
    (iblk m c 13 t : S1x8.Idx → EReal) = (V m c main_v32 : S1x8.Idx → EReal) := by
  obtain ⟨-, -, -, ⟨e0, e1⟩, -⟩ := idx_out t
  funext x
  unfold iblk
  rw [View.read_apply]
  show (V m c main_v32 : S1x8.Idx → EReal) _ = _
  refine congrArg _ (funext fun a => Fin.ext ?_)
  match a with
  | ⟨0, _⟩ => show win0_13.index t (0 : Fin 2) * 1 + 1 * (x 0).val = (x 0).val; omega
  | ⟨1, _⟩ => show win0_13.index t (1 : Fin 2) * 8 + 1 * (x 1).val = (x 1).val; omega

/-- The output decay factors' window holds the whole row at every point. -/
theorem blk14_eq (c : Dev nD) (t : Fin cfg0.N) :
    (iblk m c 14 t : S1x8.Idx → EReal) = (V m c main_v33 : S1x8.Idx → EReal) := by
  obtain ⟨-, -, -, -, ⟨e0, e1⟩, -⟩ := idx_out t
  funext x
  unfold iblk
  rw [View.read_apply]
  show (V m c main_v33 : S1x8.Idx → EReal) _ = _
  refine congrArg _ (funext fun a => Fin.ext ?_)
  match a with
  | ⟨0, _⟩ => show win0_14.index t (0 : Fin 2) * 1 + 1 * (x 0).val = (x 0).val; omega
  | ⟨1, _⟩ => show win0_14.index t (1 : Fin 2) * 8 + 1 * (x 1).val = (x 1).val; omega

/-- The arguments of the output layer's formulas at row `p` of point `t`'s blocks are those of batch row
    `2048 t + p` of the arrays: the output matrix whole, the old output state's and the hidden outputs' row. -/
theorem out_args (c : Dev nD) (t : Fin cfg0.N) (p : Fin 2048) (r : Fin 262144) (hr : r.val = 2048 * t.val + p.val) :
    mat2 (k0_pay2 (F := Ideal) (iblk m c 8 t)) = mat2 (V m c main_v29 : S64x8.Idx → EReal)
    ∧ row2 (iblk m c 4 t : S2048x8.Idx → EReal) p = row2 (V m c main_arg3 : S262144x8.Idx → EReal) r
    ∧ row2 (iblk m c 3 t : S2048x64.Idx → EReal) p = row2 (V m c main_arg2 : S262144x64.Idx → EReal) r := by
  refine ⟨?_, funext fun o => blk4_apply m c t p o r hr, funext fun k => blk3_apply m c t p k r hr⟩
  unfold k0_pay2
  rw [shapeCast_self, blk8_eq]

theorem hz : (![0, 0] : Fin 2 → Nat) = fun _ => 0 := funext fun a => by fin_cases a <;> rfl

end Cert.KernelIdeal.BlockValue

end
-- ==== Proof.KernelOut.lean ====
/-
  The output layer's three result arrays after the run, as whole-array formulas. At grid point t the region
  writes back, into each of the three arrays, rows 2048 t … 2048 t + 2047: the internal state
  E_out = dec_out · E⁰_out + O⁰_hid · S of each of those batch rows, its gated output, and its action tanh E_out.
  Each row of a block depends only on the same batch row of the old output state and of the hidden outputs, and on
  the whole output matrix, decay factors and thresholds. The 128 blocks tile the 262144 rows (row r lies in the
  block of point r / 2048), so each array ends holding the row-wise formula at every index.
-/
import proofs.«173613_j2894807958278_2_alg».proof.Proof.Gen.KernelIdeal.Frame
import proofs.«173613_j2894807958278_2_alg».proof.Proof.Neuron
import proofs.«173613_j2894807958278_2_alg».proof.Proof.KernelOutPay
import proofs.«173613_j2894807958278_2_alg».proof.Proof.KernelOutBlk
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockValue

open Cert.KernelIdeal Cert.KernelIdeal.Gen Cert.Neuron Idealize.ShloMosaic Idealize.ShloMosaic.ValueIdx
open Idealize.ShloMosaic.TcCoe Idealize.SL.Sem

variable (m : (ℓ : Loc nD τ sig) → Buf (Elt Ideal) ℓ)

theorem idx_20 (t : Fin cfg0.N) : win0_20.index t (0 : Fin 2) = t.val ∧ win0_20.index t (1 : Fin 2) = 0 := (idx_out t).2.2.2.2.2.2.1
theorem idx_21 (t : Fin cfg0.N) : win0_21.index t (0 : Fin 2) = t.val ∧ win0_21.index t (1 : Fin 2) = 0 := (idx_out t).2.2.2.2.2.2.2
theorem idx_15 (t : Fin cfg0.N) : win0_15.index t (0 : Fin 2) = t.val ∧ win0_15.index t (1 : Fin 2) = 0 := (idx_out t).2.2.2.2.2.1

/-! ## The internal state E_out -/

/-- The output layer's internal state of every batch row, from the arrays as the region finds them. -/
def eOutArr (c : Dev nD) : S262144x8.Idx → EReal := fun i =>
  eOut (row2 (V m c main_v33 : S1x8.Idx → EReal) 0) (mat2 (V m c main_v29 : S64x8.Idx → EReal))
      (row2 (V m c main_arg3 : S262144x8.Idx → EReal) (i 0)) (row2 (V m c main_arg2 : S262144x64.Idx → EReal) (i 0)) (i 1)

/-- Row `p`, output `q` of the internal-state block at point `t` is `eOutArr` at batch row `2048 t + p`. -/
theorem out20_apply (c : Dev nD) (t : Fin cfg0.N) (p : Fin 2048) (q : Fin 8) (i : S262144x8.Idx)
    (h0 : (i 0).val = 2048 * t.val + p.val) (h1 : (i 1).val = q.val) :
    k0_pay8 (F := Ideal) (iblk m c 3 t) (iblk m c 4 t) (k0_pay2 (iblk m c 8 t)) (iblk m c 14 t) (ix2 p q) = eOutArr m c i := by
  refine (pay8_apply (iblk m c 3 t) (iblk m c 4 t) (k0_pay2 (iblk m c 8 t)) (iblk m c 14 t) p q).trans ?_
  obtain ⟨e8, e4, e3⟩ := out_args m c t p (i 0) h0
  have eq : q = i 1 := Fin.ext h1.symm
  unfold eOutArr
  rw [e8, e4, e3, blk14_eq, eq]

/-- Block contents `X` written back at point `t` are block `t` of a whole-array function `G` as soon as row `p` of
    `X` is `G` at batch row `2048 t + p`, entry by entry. -/
theorem rows20_eq (t : Fin cfg0.N) (X : S2048x8.Idx → EReal) (G : S262144x8.Idx → EReal)
    (h : ∀ (p : Fin 2048) (q : Fin 8) (i : S262144x8.Idx), (i 0).val = 2048 * t.val + p.val → (i 1).val = q.val → X (ix2 p q) = G i) :
    (cfg0.win 20).cut (grid0.coords t) X = ((cfg0.win 20).blk t).view.read (Elt Ideal) G := by
  obtain ⟨e0, e1⟩ := idx_20 t
  funext j
  obtain ⟨p, q, rfl⟩ : ∃ (p : Fin 2048) (q : Fin 8), j = ix2 p q := ⟨j 0, j 1, eq_ix2 j⟩
  show X (ix2 p q) = G (((cfg0.win 20).blk t).view.emb (ix2 p q))
  refine h p q _ ?_ ?_
  · show win0_20.index t (0 : Fin 2) * 2048 + 1 * p.val = 2048 * t.val + p.val
    omega
  · show win0_20.index t (1 : Fin 2) * 8 + 1 * q.val = q.val
    omega

/-- What point `t` writes back to the internal-state array is block `t` of `eOutArr`. -/
theorem flushed20_eq (c : Dev nD) (t : Fin cfg0.N) :
    (dats (F := Ideal) m 0 c).flushed 20 t = ((cfg0.win 20).blk t).view.read (Elt Ideal) (eOutArr m c) := by
  show (cfg0.win 20).cut (grid0.coords t) ((dats (F := Ideal) m 0 c).after 20 t) = _
  rw [after0_20]
  unfold out0_20
  rw [View.canon_unit_zero hz]
  simp only [View.ld_unit_zero (S := S2048x64) hz, View.ld_unit_zero (S := S2048x8) hz, View.ld_unit_zero (S := S64x8) hz, View.ld_unit_zero (S := S1x8) hz]
  exact rows20_eq t (k0_pay8 (F := Ideal) (iblk m c 3 t) (iblk m c 4 t) (k0_pay2 (iblk m c 8 t)) (iblk m c 14 t)) (eOutArr m c)
    fun p q i h0 h1 => out20_apply m c t p q i h0 h1

/-- An index of the array is in point `t`'s block iff each coordinate is in the block's range on its axis. -/
theorem mem_blk20 (t : Fin cfg0.N) (i : S262144x8.Idx) :
    i ∈ ((cfg0.win 20).blk t).view.set ↔ ∀ a : Fin 2, win0_20.index t a * S2048x8.size a ≤ (i a).val ∧ (i a).val < win0_20.index t a * S2048x8.size a + S2048x8.size a := by
  show i ∈ ((View.whole main_v44_5).slice (win0_20.rect t)).set ↔ _
  rw [View.set_slice_whole, Rect.mem_set_unit]
  exact Iff.rfl

/-- Batch row `r` lies in the block of point `r / 2048`, which is written back. -/
theorem cover20 (i : S262144x8.Idx) :
    ∃ t : Fin cfg0.N, (cfg0.win 20).flush t = true ∧ i ∈ ((cfg0.win 20).blk t).view.set := by
  have hi0 : (i 0).val < 262144 := (i 0).isLt
  have hi1 : (i 1).val < 8 := (i 1).isLt
  have hN : cfg0.N = 128 := N_0
  obtain ⟨t, ht⟩ : ∃ t : Fin cfg0.N, t.val = (i 0).val / 2048 := ⟨⟨(i 0).val / 2048, by rw [hN]; omega⟩, rfl⟩
  obtain ⟨e0, e1⟩ := idx_20 t
  refine ⟨t, flush0_20 t, ?_⟩
  rw [mem_blk20]
  intro a
  match a with
  | ⟨0, _⟩ =>
    show win0_20.index t (0 : Fin 2) * 2048 ≤ (i 0).val ∧ (i 0).val < win0_20.index t (0 : Fin 2) * 2048 + 2048
    omega
  | ⟨1, _⟩ =>
    show win0_20.index t (1 : Fin 2) * 8 ≤ (i 1).val ∧ (i 1).val < win0_20.index t (1 : Fin 2) * 8 + 8
    omega

/-- The internal-state array after the run. -/
theorem arr20 (c : Dev nD) : (dats (F := Ideal) m 0 c).arrAt 20 cfg0.N = fun i : S262144x8.Idx =>
    eOut (row2 (V m c main_v33 : S1x8.Idx → EReal) 0) (mat2 (V m c main_v29 : S64x8.Idx → EReal))
      (row2 (V m c main_arg3 : S262144x8.Idx → EReal) (i 0)) (row2 (V m c main_arg2 : S262144x64.Idx → EReal) (i 0)) (i 1) :=
  (dats (F := Ideal) m 0 c).arrAt_eq_of_cover 20 (eOutArr m c) (fun t _ => flushed20_eq m c t) cover20

/-! ## The gated output O_out -/

/-- The output layer's gated output of every batch row, from the arrays as the region finds them. -/
def oOutArr (c : Dev nD) : S262144x8.Idx → EReal := fun i =>
  oOut (row2 (V m c main_v32 : S1x8.Idx → EReal) 0) (row2 (V m c main_v33 : S1x8.Idx → EReal) 0)
    (mat2 (V m c main_v29 : S64x8.Idx → EReal))
      (row2 (V m c main_arg3 : S262144x8.Idx → EReal) (i 0)) (row2 (V m c main_arg2 : S262144x64.Idx → EReal) (i 0)) (i 1)

/-- Row `p`, output `q` of the gated-output block at point `t` is `oOutArr` at batch row `2048 t + p`. -/
theorem out21_apply (c : Dev nD) (t : Fin cfg0.N) (p : Fin 2048) (q : Fin 8) (i : S262144x8.Idx)
    (h0 : (i 0).val = 2048 * t.val + p.val) (h1 : (i 1).val = q.val) :
    k0_pay9 (F := Ideal) (iblk m c 3 t) (iblk m c 4 t) (k0_pay2 (iblk m c 8 t)) (iblk m c 14 t) (iblk m c 13 t) (ix2 p q) = oOutArr m c i := by
  refine (pay9_apply (iblk m c 3 t) (iblk m c 4 t) (k0_pay2 (iblk m c 8 t)) (iblk m c 14 t) (iblk m c 13 t) p q).trans ?_
  obtain ⟨e8, e4, e3⟩ := out_args m c t p (i 0) h0
  have eq : q = i 1 := Fin.ext h1.symm
  unfold oOutArr
  rw [e8, e4, e3, blk14_eq, blk13_eq, eq]

/-- Block contents `X` written back at point `t` are block `t` of a whole-array function `G` as soon as row `p` of
    `X` is `G` at batch row `2048 t + p`, entry by entry. -/
theorem rows21_eq (t : Fin cfg0.N) (X : S2048x8.Idx → EReal) (G : S262144x8.Idx → EReal)
    (h : ∀ (p : Fin 2048) (q : Fin 8) (i : S262144x8.Idx), (i 0).val = 2048 * t.val + p.val → (i 1).val = q.val → X (ix2 p q) = G i) :
    (cfg0.win 21).cut (grid0.coords t) X = ((cfg0.win 21).blk t).view.read (Elt Ideal) G := by
  obtain ⟨e0, e1⟩ := idx_21 t
  funext j
  obtain ⟨p, q, rfl⟩ : ∃ (p : Fin 2048) (q : Fin 8), j = ix2 p q := ⟨j 0, j 1, eq_ix2 j⟩
  show X (ix2 p q) = G (((cfg0.win 21).blk t).view.emb (ix2 p q))
  refine h p q _ ?_ ?_
  · show win0_21.index t (0 : Fin 2) * 2048 + 1 * p.val = 2048 * t.val + p.val
    omega
  · show win0_21.index t (1 : Fin 2) * 8 + 1 * q.val = q.val
    omega

/-- What point `t` writes back to the gated-output array is block `t` of `oOutArr`. -/
theorem flushed21_eq (c : Dev nD) (t : Fin cfg0.N) :
    (dats (F := Ideal) m 0 c).flushed 21 t = ((cfg0.win 21).blk t).view.read (Elt Ideal) (oOutArr m c) := by
  show (cfg0.win 21).cut (grid0.coords t) ((dats (F := Ideal) m 0 c).after 21 t) = _
  rw [after0_21]
  unfold out0_21
  rw [View.canon_unit_zero hz]
  simp only [View.ld_unit_zero (S := S2048x64) hz, View.ld_unit_zero (S := S2048x8) hz, View.ld_unit_zero (S := S64x8) hz, View.ld_unit_zero (S := S1x8) hz]
  exact rows21_eq t (k0_pay9 (F := Ideal) (iblk m c 3 t) (iblk m c 4 t) (k0_pay2 (iblk m c 8 t)) (iblk m c 14 t) (iblk m c 13 t)) (oOutArr m c)
    fun p q i h0 h1 => out21_apply m c t p q i h0 h1

/-- An index of the array is in point `t`'s block iff each coordinate is in the block's range on its axis. -/
theorem mem_blk21 (t : Fin cfg0.N) (i : S262144x8.Idx) :
    i ∈ ((cfg0.win 21).blk t).view.set ↔ ∀ a : Fin 2, win0_21.index t a * S2048x8.size a ≤ (i a).val ∧ (i a).val < win0_21.index t a * S2048x8.size a + S2048x8.size a := by
  show i ∈ ((View.whole main_v44_6).slice (win0_21.rect t)).set ↔ _
  rw [View.set_slice_whole, Rect.mem_set_unit]
  exact Iff.rfl

/-- Batch row `r` lies in the block of point `r / 2048`, which is written back. -/
theorem cover21 (i : S262144x8.Idx) :
    ∃ t : Fin cfg0.N, (cfg0.win 21).flush t = true ∧ i ∈ ((cfg0.win 21).blk t).view.set := by
  have hi0 : (i 0).val < 262144 := (i 0).isLt
  have hi1 : (i 1).val < 8 := (i 1).isLt
  have hN : cfg0.N = 128 := N_0
  obtain ⟨t, ht⟩ : ∃ t : Fin cfg0.N, t.val = (i 0).val / 2048 := ⟨⟨(i 0).val / 2048, by rw [hN]; omega⟩, rfl⟩
  obtain ⟨e0, e1⟩ := idx_21 t
  refine ⟨t, flush0_21 t, ?_⟩
  rw [mem_blk21]
  intro a
  match a with
  | ⟨0, _⟩ =>
    show win0_21.index t (0 : Fin 2) * 2048 ≤ (i 0).val ∧ (i 0).val < win0_21.index t (0 : Fin 2) * 2048 + 2048
    omega
  | ⟨1, _⟩ =>
    show win0_21.index t (1 : Fin 2) * 8 ≤ (i 1).val ∧ (i 1).val < win0_21.index t (1 : Fin 2) * 8 + 8
    omega

/-- The gated-output array after the run. -/
theorem arr21 (c : Dev nD) : (dats (F := Ideal) m 0 c).arrAt 21 cfg0.N = fun i : S262144x8.Idx =>
    oOut (row2 (V m c main_v32 : S1x8.Idx → EReal) 0) (row2 (V m c main_v33 : S1x8.Idx → EReal) 0)
      (mat2 (V m c main_v29 : S64x8.Idx → EReal))
      (row2 (V m c main_arg3 : S262144x8.Idx → EReal) (i 0)) (row2 (V m c main_arg2 : S262144x64.Idx → EReal) (i 0)) (i 1) :=
  (dats (F := Ideal) m 0 c).arrAt_eq_of_cover 21 (oOutArr m c) (fun t _ => flushed21_eq m c t) cover21

/-! ## The action tanh E_out -/

/-- The action of every batch row, from the arrays as the region finds them. -/
def actionArr (c : Dev nD) : S262144x8.Idx → EReal := fun i =>
  action (row2 (V m c main_v33 : S1x8.Idx → EReal) 0) (mat2 (V m c main_v29 : S64x8.Idx → EReal))
      (row2 (V m c main_arg3 : S262144x8.Idx → EReal) (i 0)) (row2 (V m c main_arg2 : S262144x64.Idx → EReal) (i 0)) (i 1)

/-- Row `p`, output `q` of the action block at point `t` is `actionArr` at batch row `2048 t + p`. -/
theorem out15_apply (c : Dev nD) (t : Fin cfg0.N) (p : Fin 2048) (q : Fin 8) (i : S262144x8.Idx)
    (h0 : (i 0).val = 2048 * t.val + p.val) (h1 : (i 1).val = q.val) :
    k0_pay10 (F := Ideal) (iblk m c 3 t) (iblk m c 4 t) (k0_pay2 (iblk m c 8 t)) (iblk m c 14 t) (ix2 p q) = actionArr m c i := by
  refine (pay10_apply (iblk m c 3 t) (iblk m c 4 t) (k0_pay2 (iblk m c 8 t)) (iblk m c 14 t) p q).trans ?_
  obtain ⟨e8, e4, e3⟩ := out_args m c t p (i 0) h0
  have eq : q = i 1 := Fin.ext h1.symm
  unfold actionArr
  rw [e8, e4, e3, blk14_eq, eq]

/-- Block contents `X` written back at point `t` are block `t` of a whole-array function `G` as soon as row `p` of
    `X` is `G` at batch row `2048 t + p`, entry by entry. -/
theorem rows15_eq (t : Fin cfg0.N) (X : S2048x8.Idx → EReal) (G : S262144x8.Idx → EReal)
    (h : ∀ (p : Fin 2048) (q : Fin 8) (i : S262144x8.Idx), (i 0).val = 2048 * t.val + p.val → (i 1).val = q.val → X (ix2 p q) = G i) :
    (cfg0.win 15).cut (grid0.coords t) X = ((cfg0.win 15).blk t).view.read (Elt Ideal) G := by
  obtain ⟨e0, e1⟩ := idx_15 t
  funext j
  obtain ⟨p, q, rfl⟩ : ∃ (p : Fin 2048) (q : Fin 8), j = ix2 p q := ⟨j 0, j 1, eq_ix2 j⟩
  show X (ix2 p q) = G (((cfg0.win 15).blk t).view.emb (ix2 p q))
  refine h p q _ ?_ ?_
  · show win0_15.index t (0 : Fin 2) * 2048 + 1 * p.val = 2048 * t.val + p.val
    omega
  · show win0_15.index t (1 : Fin 2) * 8 + 1 * q.val = q.val
    omega

/-- What point `t` writes back to the action array is block `t` of `actionArr`. -/
theorem flushed15_eq (c : Dev nD) (t : Fin cfg0.N) :
    (dats (F := Ideal) m 0 c).flushed 15 t = ((cfg0.win 15).blk t).view.read (Elt Ideal) (actionArr m c) := by
  show (cfg0.win 15).cut (grid0.coords t) ((dats (F := Ideal) m 0 c).after 15 t) = _
  rw [after0_15]
  unfold out0_15
  rw [View.canon_unit_zero hz]
  simp only [View.ld_unit_zero (S := S2048x64) hz, View.ld_unit_zero (S := S2048x8) hz, View.ld_unit_zero (S := S64x8) hz, View.ld_unit_zero (S := S1x8) hz]
  exact rows15_eq t (k0_pay10 (F := Ideal) (iblk m c 3 t) (iblk m c 4 t) (k0_pay2 (iblk m c 8 t)) (iblk m c 14 t)) (actionArr m c)
    fun p q i h0 h1 => out15_apply m c t p q i h0 h1

/-- An index of the array is in point `t`'s block iff each coordinate is in the block's range on its axis. -/
theorem mem_blk15 (t : Fin cfg0.N) (i : S262144x8.Idx) :
    i ∈ ((cfg0.win 15).blk t).view.set ↔ ∀ a : Fin 2, win0_15.index t a * S2048x8.size a ≤ (i a).val ∧ (i a).val < win0_15.index t a * S2048x8.size a + S2048x8.size a := by
  show i ∈ ((View.whole main_v44_0).slice (win0_15.rect t)).set ↔ _
  rw [View.set_slice_whole, Rect.mem_set_unit]
  exact Iff.rfl

/-- Batch row `r` lies in the block of point `r / 2048`, which is written back. -/
theorem cover15 (i : S262144x8.Idx) :
    ∃ t : Fin cfg0.N, (cfg0.win 15).flush t = true ∧ i ∈ ((cfg0.win 15).blk t).view.set := by
  have hi0 : (i 0).val < 262144 := (i 0).isLt
  have hi1 : (i 1).val < 8 := (i 1).isLt
  have hN : cfg0.N = 128 := N_0
  obtain ⟨t, ht⟩ : ∃ t : Fin cfg0.N, t.val = (i 0).val / 2048 := ⟨⟨(i 0).val / 2048, by rw [hN]; omega⟩, rfl⟩
  obtain ⟨e0, e1⟩ := idx_15 t
  refine ⟨t, flush0_15 t, ?_⟩
  rw [mem_blk15]
  intro a
  match a with
  | ⟨0, _⟩ =>
    show win0_15.index t (0 : Fin 2) * 2048 ≤ (i 0).val ∧ (i 0).val < win0_15.index t (0 : Fin 2) * 2048 + 2048
    omega
  | ⟨1, _⟩ =>
    show win0_15.index t (1 : Fin 2) * 8 ≤ (i 1).val ∧ (i 1).val < win0_15.index t (1 : Fin 2) * 8 + 8
    omega

/-- The action array after the run. -/
theorem arr15 (c : Dev nD) : (dats (F := Ideal) m 0 c).arrAt 15 cfg0.N = fun i : S262144x8.Idx =>
    action (row2 (V m c main_v33 : S1x8.Idx → EReal) 0) (mat2 (V m c main_v29 : S64x8.Idx → EReal))
      (row2 (V m c main_arg3 : S262144x8.Idx → EReal) (i 0)) (row2 (V m c main_arg2 : S262144x64.Idx → EReal) (i 0)) (i 1) :=
  (dats (F := Ideal) m 0 c).arrAt_eq_of_cover 15 (actionArr m c) (fun t _ => flushed15_eq m c t) cover15

end Cert.KernelIdeal.BlockValue

end
-- ==== Proof.KernelHiddenPay.lean ====
/-
  The hidden layer's arithmetic inside one block of 2048 batch rows, read at one entry.

  The body of the kernel computes, for the rows of its block, the drive `x·W + O·C` (two matrix products
  accumulated onto zero and added), the decay factor `a = dec − deg` (two one-row blocks subtracted and broadcast
  over the rows), and four times `E ← a·E + drive`; the hidden output is that state where it reaches the threshold row,
  else zero. Read at row `p` and feature `q` these are the folded hidden-layer formulas of the specification, over row
  `p` of the three row blocks and the whole of the two matrices and the one-row blocks.
-/
import proofs.«173613_j2894807958278_2_alg».proof.Proof.Gen.KernelIdeal.Skeleton
import proofs.«173613_j2894807958278_2_alg».proof.Proof.Neuron
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockValue

open Cert.KernelIdeal Cert.KernelIdeal.Gen Cert.Neuron Idealize.ShloMosaic Idealize.ShloMosaic.ValueIdx

theorem hid_matmul_x_lhs0 (i : S2048x64.Idx) (r : dot_S2048x4_S4x64_S2048x64_1_0_0_1_n_n.contr.Idx) :
    (dot_S2048x4_S4x64_S2048x64_1_0_0_1_n_n.lhsIdx i r 0).val = (i 0).val := by
  unfold DotDims.lhsIdx
  rw [dif_neg (show ¬(0 : Fin S2048x4.rank) ∈ dot_S2048x4_S4x64_S2048x64_1_0_0_1_n_n.lhsBatch by decide), dif_pos (show (0 : Fin S2048x4.rank) ∈ dot_S2048x4_S4x64_S2048x64_1_0_0_1_n_n.lhsNonContracting by decide)]
  rfl
theorem hid_matmul_x_lhs1 (i : S2048x64.Idx) (r : dot_S2048x4_S4x64_S2048x64_1_0_0_1_n_n.contr.Idx) :
    (dot_S2048x4_S4x64_S2048x64_1_0_0_1_n_n.lhsIdx i r 1).val = (r ⟨0, by decide⟩).val :=
  dot_S2048x4_S4x64_S2048x64_1_0_0_1_n_n.lhsIdx_val_of_single rfl i r
theorem hid_matmul_x_rhs0 (i : S2048x64.Idx) (r : dot_S2048x4_S4x64_S2048x64_1_0_0_1_n_n.contr.Idx) :
    (dot_S2048x4_S4x64_S2048x64_1_0_0_1_n_n.rhsIdx i r 0).val = (r ⟨0, by decide⟩).val :=
  dot_S2048x4_S4x64_S2048x64_1_0_0_1_n_n.rhsIdx_val_of_single rfl i r
theorem hid_matmul_x_rhs1 (i : S2048x64.Idx) (r : dot_S2048x4_S4x64_S2048x64_1_0_0_1_n_n.contr.Idx) :
    (dot_S2048x4_S4x64_S2048x64_1_0_0_1_n_n.rhsIdx i r 1).val = (i 1).val := by
  unfold DotDims.rhsIdx
  rw [dif_neg (show ¬(1 : Fin S4x64.rank) ∈ dot_S2048x4_S4x64_S2048x64_1_0_0_1_n_n.rhsBatch by decide), dif_pos (show (1 : Fin S4x64.rank) ∈ dot_S2048x4_S4x64_S2048x64_1_0_0_1_n_n.rhsNonContracting by decide)]
  rfl

/-- The product of a block of 2048 rows of 4 entries with a 4 × 64 matrix, accumulated onto zero, read at row `p`
    and column `q`: the sum over the four contracted coordinates of the products of the entries. -/
theorem hid_matmul_x_apply (A : FVec Ideal S2048x4 .f32) (B : FVec Ideal S4x64 .f32) (p : Fin 2048) (q : Fin 64) :
    matmul (F := Ideal) dot_S2048x4_S4x64_S2048x64_1_0_0_1_n_n (some .fp32) A B (constant S2048x64 .f32 0x00000000#32) (ix2 p q)
      = ∑ k : Fin 4, A (ix2 p k) * B (ix2 k q) := by
  simp only [matmul]
  rw [Ideal.matmul_constant_zero_apply, ← Equiv.sum_comp (contrEquiv1 dot_S2048x4_S4x64_S2048x64_1_0_0_1_n_n 4 rfl rfl).symm]
  refine Finset.sum_congr rfl fun k _ => ?_
  have hk := contrEquiv1_symm_val dot_S2048x4_S4x64_S2048x64_1_0_0_1_n_n 4 rfl rfl k
  have el : dot_S2048x4_S4x64_S2048x64_1_0_0_1_n_n.lhsIdx (ix2 p q) ((contrEquiv1 dot_S2048x4_S4x64_S2048x64_1_0_0_1_n_n 4 rfl rfl).symm k) = ix2 p k := funext fun a => Fin.ext (by
    match a with
    | ⟨0, _⟩ => exact hid_matmul_x_lhs0 _ _
    | ⟨1, _⟩ => exact (hid_matmul_x_lhs1 _ _).trans hk)
  have er : dot_S2048x4_S4x64_S2048x64_1_0_0_1_n_n.rhsIdx (ix2 p q) ((contrEquiv1 dot_S2048x4_S4x64_S2048x64_1_0_0_1_n_n 4 rfl rfl).symm k) = ix2 k q := funext fun a => Fin.ext (by
    match a with
    | ⟨0, _⟩ => exact (hid_matmul_x_rhs0 _ _).trans hk
    | ⟨1, _⟩ => exact hid_matmul_x_rhs1 _ _)
  rw [el, er]

theorem hid_matmul_h_lhs0 (i : S2048x64.Idx) (r : dot_S2048x64_S64x64_S2048x64_1_0_0_1_n_n.contr.Idx) :
    (dot_S2048x64_S64x64_S2048x64_1_0_0_1_n_n.lhsIdx i r 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem hid_matmul_h_lhs1 (i : S2048x64.Idx) (r : dot_S2048x64_S64x64_S2048x64_1_0_0_1_n_n.contr.Idx) :
    (dot_S2048x64_S64x64_S2048x64_1_0_0_1_n_n.lhsIdx i r 1).val = (r ⟨0, by decide⟩).val :=
  dot_S2048x64_S64x64_S2048x64_1_0_0_1_n_n.lhsIdx_val_of_single rfl i r
theorem hid_matmul_h_rhs0 (i : S2048x64.Idx) (r : dot_S2048x64_S64x64_S2048x64_1_0_0_1_n_n.contr.Idx) :
    (dot_S2048x64_S64x64_S2048x64_1_0_0_1_n_n.rhsIdx i r 0).val = (r ⟨0, by decide⟩).val :=
  dot_S2048x64_S64x64_S2048x64_1_0_0_1_n_n.rhsIdx_val_of_single rfl i r
theorem hid_matmul_h_rhs1 (i : S2048x64.Idx) (r : dot_S2048x64_S64x64_S2048x64_1_0_0_1_n_n.contr.Idx) :
    (dot_S2048x64_S64x64_S2048x64_1_0_0_1_n_n.rhsIdx i r 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The product of a block of 2048 rows of 64 entries with a 64 × 64 matrix, accumulated onto zero, read at row `p`
    and column `q`: the sum over the 64 contracted coordinates of the products of the entries. -/
theorem hid_matmul_h_apply (A : FVec Ideal S2048x64 .f32) (B : FVec Ideal S64x64 .f32) (p : Fin 2048) (q : Fin 64) :
    matmul (F := Ideal) dot_S2048x64_S64x64_S2048x64_1_0_0_1_n_n (some .fp32) A B (constant S2048x64 .f32 0x00000000#32) (ix2 p q)
      = ∑ k : Fin 64, A (ix2 p k) * B (ix2 k q) := by
  simp only [matmul]
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 p q) ((contrEquiv1 dot_S2048x64_S64x64_S2048x64_1_0_0_1_n_n 64 rfl rfl).symm k) = ix2 p k := funext fun a => Fin.ext (by
    match a with
    | ⟨0, _⟩ => exact hid_matmul_h_lhs0 _ _
    | ⟨1, _⟩ => exact (hid_matmul_h_lhs1 _ _).trans hk)
  have er : dot_S2048x64_S64x64_S2048x64_1_0_0_1_n_n.rhsIdx (ix2 p q) ((contrEquiv1 dot_S2048x64_S64x64_S2048x64_1_0_0_1_n_n 64 rfl rfl).symm k) = ix2 k q := funext fun a => Fin.ext (by
    match a with
    | ⟨0, _⟩ => exact (hid_matmul_h_rhs0 _ _).trans hk
    | ⟨1, _⟩ => exact hid_matmul_h_rhs1 _ _)
  rw [el, er]

/-- THE HIDDEN STATE'S BLOCK AT AN ENTRY. Row `p`, feature `q` of what the body computes for the hidden state: the
    four folded steps of the neuron, with the decay factor the difference of the two one-row blocks, the drive the two
    matrix products added, all read off row `p` of the three row blocks. -/
theorem hid_pay3_apply (x0 : Vec Ideal S2048x4 .f32) (x2 x3 : Vec Ideal S2048x64 .f32) (x5 : Vec Ideal S4x64 .f32)
    (x6 : Vec Ideal S64x64 .f32) (x7 x12 : Vec Ideal S1x64 .f32) (p : Fin 2048) (q : Fin 64) :
    k0_pay3 (F := Ideal) x0 x2 x3 x5 x6 x7 x12 (ix2 p q)
      = eHidF (fun j => row2 (x12 : S1x64.Idx → EReal) 0 j - row2 (x7 : S1x64.Idx → EReal) 0 j)
          (mat2 (x5 : S4x64.Idx → EReal)) (mat2 (x6 : S64x64.Idx → EReal))
          (row2 (x0 : S2048x4.Idx → EReal) p) (row2 (x2 : S2048x64.Idx → EReal) p) (row2 (x3 : S2048x64.Idx → EReal) p) q := by
  unfold k0_pay3
  simp only [shapeCast_self]
  simp only [addf_apply, mulf_apply, broadcastTo_1b_ab_apply, subf_apply, hid_matmul_x_apply, hid_matmul_h_apply]
  rfl

/-- THE HIDDEN OUTPUT'S BLOCK AT AN ENTRY. Row `p`, feature `q` of what the body computes for the hidden output: the
    hidden state there where it reaches the feature's threshold (read off the one-row threshold block), else zero. -/
theorem hid_pay5_apply (x0 : Vec Ideal S2048x4 .f32) (x2 x3 : Vec Ideal S2048x64 .f32) (x5 : Vec Ideal S4x64 .f32)
    (x6 : Vec Ideal S64x64 .f32) (x7 x12 x11 : Vec Ideal S1x64 .f32) (p : Fin 2048) (q : Fin 64) :
    k0_pay5 (F := Ideal) (k0_pay3 x0 x2 x3 x5 x6 x7 x12) (k0_pay4 x0 x2 x3 x5 x6 x7 x12 x11) (ix2 p q)
      = oHidF (row2 (x11 : S1x64.Idx → EReal) 0)
          (fun j => row2 (x12 : S1x64.Idx → EReal) 0 j - row2 (x7 : S1x64.Idx → EReal) 0 j)
          (mat2 (x5 : S4x64.Idx → EReal)) (mat2 (x6 : S64x64.Idx → EReal))
          (row2 (x0 : S2048x4.Idx → EReal) p) (row2 (x2 : S2048x64.Idx → EReal) p) (row2 (x3 : S2048x64.Idx → EReal) p) q := by
  unfold k0_pay5 k0_pay4
  simp only [shapeCast_self]
  simp only [select_apply, cmpf_apply, broadcast_apply, broadcastTo_1b_ab_apply, hid_pay3_apply]
  rfl

end Cert.KernelIdeal.BlockValue

end
-- ==== Proof.KernelHiddenBlocks.lean ====
/-
  Where the hidden layer's windows sit, and what their blocks hold.

  The grid has 128 points; point `t` handles batch rows `2048·t … 2048·t + 2047`. The windows over the sensory rows
  and the two hidden-state arrays move with `t` along the rows, so their block at `t`, read at row `p`, is the array at
  row `2048·t + p`. The windows over the two matrices and the one-row parameter arrays stay at block `(0, 0)`, and that
  block is the whole array.
-/
import proofs.«173613_j2894807958278_2_alg».proof.Proof.Gen.KernelIdeal.Frame
import proofs.«173613_j2894807958278_2_alg».proof.Proof.Neuron
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Cert.Neuron Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (c : Dev nD)

theorem hid_hz : (![0, 0] : Fin 2 → Nat) = fun _ => 0 := funext fun a => by fin_cases a <;> rfl

/-- The index maps of the windows the hidden layer reads and writes, decided once over the 128 grid points: the
    batch-tiled windows (the sensory rows, the two hidden-state arrays, the two outputs) sit at block `(t, 0)` at
    point `t`; the parameter windows sit at block `(0, 0)` at every point. -/
theorem hid_idx : ∀ t : Fin cfg0.N,
    (win0_0.index t (0 : Fin 2) = t.val ∧ win0_0.index t (1 : Fin 2) = 0) ∧
    (win0_2.index t (0 : Fin 2) = t.val ∧ win0_2.index t (1 : Fin 2) = 0) ∧
    (win0_3.index t (0 : Fin 2) = t.val ∧ win0_3.index t (1 : Fin 2) = 0) ∧
    (win0_5.index t (0 : Fin 2) = 0 ∧ win0_5.index t (1 : Fin 2) = 0) ∧
    (win0_6.index t (0 : Fin 2) = 0 ∧ win0_6.index t (1 : Fin 2) = 0) ∧
    (win0_7.index t (0 : Fin 2) = 0 ∧ win0_7.index t (1 : Fin 2) = 0) ∧
    (win0_11.index t (0 : Fin 2) = 0 ∧ win0_11.index t (1 : Fin 2) = 0) ∧
    (win0_12.index t (0 : Fin 2) = 0 ∧ win0_12.index t (1 : Fin 2) = 0) ∧
    (win0_18.index t (0 : Fin 2) = t.val ∧ win0_18.index t (1 : Fin 2) = 0) ∧
    (win0_19.index t (0 : Fin 2) = t.val ∧ win0_19.index t (1 : Fin 2) = 0) :=
  (by decide +kernel : ∀ t : Fin grid0.N, _)

/-- Window 0's block at point `t` is rows `2048·t … 2048·t + 2047` of its array. -/
theorem hid_blk0 (t : Fin cfg0.N) (y : S2048x4.Idx) (i : S262144x4.Idx)
    (h0 : (i 0).val = t.val * 2048 + (y 0).val) (h1 : (i 1).val = (y 1).val) :
    (iblk m c 0 t : S2048x4.Idx → EReal) y = (V m c main_arg0 : S262144x4.Idx → EReal) i := by
  obtain ⟨e0, e1⟩ := (hid_idx t).1
  unfold iblk
  show V m c main_arg0 (((cfg0.win 0).blk t).view.emb y) = V m c main_arg0 i
  refine congrArg (V m c main_arg0) (funext fun a => Fin.ext ?_)
  match a with
  | ⟨0, _⟩ => show win0_0.index t (0 : Fin 2) * 2048 + 1 * (y 0).val = (i 0).val; rw [e0, h0]; omega
  | ⟨1, _⟩ => show win0_0.index t (1 : Fin 2) * 4 + 1 * (y 1).val = (i 1).val; rw [e1, h1]; omega

/-- Window 2's block at point `t` is rows `2048·t … 2048·t + 2047` of its array. -/
theorem hid_blk2 (t : Fin cfg0.N) (y : S2048x64.Idx) (i : S262144x64.Idx)
    (h0 : (i 0).val = t.val * 2048 + (y 0).val) (h1 : (i 1).val = (y 1).val) :
    (iblk m c 2 t : S2048x64.Idx → EReal) y = (V m c main_arg1 : S262144x64.Idx → EReal) i := by
  obtain ⟨e0, e1⟩ := (hid_idx t).2.1
  unfold iblk
  show V m c main_arg1 (((cfg0.win 2).blk t).view.emb y) = V m c main_arg1 i
  refine congrArg (V m c main_arg1) (funext fun a => Fin.ext ?_)
  match a with
  | ⟨0, _⟩ => show win0_2.index t (0 : Fin 2) * 2048 + 1 * (y 0).val = (i 0).val; rw [e0, h0]; omega
  | ⟨1, _⟩ => show win0_2.index t (1 : Fin 2) * 64 + 1 * (y 1).val = (i 1).val; rw [e1, h1]; omega

/-- Window 3's block at point `t` is rows `2048·t … 2048·t + 2047` of its array. -/
theorem hid_blk3 (t : Fin cfg0.N) (y : S2048x64.Idx) (i : S262144x64.Idx)
    (h0 : (i 0).val = t.val * 2048 + (y 0).val) (h1 : (i 1).val = (y 1).val) :
    (iblk m c 3 t : S2048x64.Idx → EReal) y = (V m c main_arg2 : S262144x64.Idx → EReal) i := by
  obtain ⟨e0, e1⟩ := (hid_idx t).2.2.1
  unfold iblk
  show V m c main_arg2 (((cfg0.win 3).blk t).view.emb y) = V m c main_arg2 i
  refine congrArg (V m c main_arg2) (funext fun a => Fin.ext ?_)
  match a with
  | ⟨0, _⟩ => show win0_3.index t (0 : Fin 2) * 2048 + 1 * (y 0).val = (i 0).val; rw [e0, h0]; omega
  | ⟨1, _⟩ => show win0_3.index t (1 : Fin 2) * 64 + 1 * (y 1).val = (i 1).val; rw [e1, h1]; omega

/-- Window 5's block is its whole array at every point. -/
theorem hid_blk5 (t : Fin cfg0.N) : (iblk m c 5 t : S4x64.Idx → EReal) = (V m c main_v28 : S4x64.Idx → EReal) := by
  obtain ⟨e0, e1⟩ := (hid_idx t).2.2.2.1
  funext y
  unfold iblk
  show V m c main_v28 (((cfg0.win 5).blk t).view.emb y) = V m c main_v28 y
  refine congrArg (V m c main_v28) (funext fun a => Fin.ext ?_)
  match a with
  | ⟨0, _⟩ => show win0_5.index t (0 : Fin 2) * 4 + 1 * (y 0).val = (y 0).val; rw [e0]; omega
  | ⟨1, _⟩ => show win0_5.index t (1 : Fin 2) * 64 + 1 * (y 1).val = (y 1).val; rw [e1]; omega

/-- Window 6's block is its whole array at every point. -/
theorem hid_blk6 (t : Fin cfg0.N) : (iblk m c 6 t : S64x64.Idx → EReal) = (V m c main_v3 : S64x64.Idx → EReal) := by
  obtain ⟨e0, e1⟩ := (hid_idx t).2.2.2.2.1
  funext y
  unfold iblk
  show V m c main_v3 (((cfg0.win 6).blk t).view.emb y) = V m c main_v3 y
  refine congrArg (V m c main_v3) (funext fun a => Fin.ext ?_)
  match a with
  | ⟨0, _⟩ => show win0_6.index t (0 : Fin 2) * 64 + 1 * (y 0).val = (y 0).val; rw [e0]; omega
  | ⟨1, _⟩ => show win0_6.index t (1 : Fin 2) * 64 + 1 * (y 1).val = (y 1).val; rw [e1]; omega

/-- Window 7's block is its whole array at every point. -/
theorem hid_blk7 (t : Fin cfg0.N) : (iblk m c 7 t : S1x64.Idx → EReal) = (V m c main_v34 : S1x64.Idx → EReal) := by
  obtain ⟨e0, e1⟩ := (hid_idx t).2.2.2.2.2.1
  funext y
  unfold iblk
  show V m c main_v34 (((cfg0.win 7).blk t).view.emb y) = V m c main_v34 y
  refine congrArg (V m c main_v34) (funext fun a => Fin.ext ?_)
  match a with
  | ⟨0, _⟩ => show win0_7.index t (0 : Fin 2) * 1 + 1 * (y 0).val = (y 0).val; rw [e0]; omega
  | ⟨1, _⟩ => show win0_7.index t (1 : Fin 2) * 64 + 1 * (y 1).val = (y 1).val; rw [e1]; omega

/-- Window 11's block is its whole array at every point. -/
theorem hid_blk11 (t : Fin cfg0.N) : (iblk m c 11 t : S1x64.Idx → EReal) = (V m c main_v30 : S1x64.Idx → EReal) := by
  obtain ⟨e0, e1⟩ := (hid_idx t).2.2.2.2.2.2.1
  funext y
  unfold iblk
  show V m c main_v30 (((cfg0.win 11).blk t).view.emb y) = V m c main_v30 y
  refine congrArg (V m c main_v30) (funext fun a => Fin.ext ?_)
  match a with
  | ⟨0, _⟩ => show win0_11.index t (0 : Fin 2) * 1 + 1 * (y 0).val = (y 0).val; rw [e0]; omega
  | ⟨1, _⟩ => show win0_11.index t (1 : Fin 2) * 64 + 1 * (y 1).val = (y 1).val; rw [e1]; omega

/-- Window 12's block is its whole array at every point. -/
theorem hid_blk12 (t : Fin cfg0.N) : (iblk m c 12 t : S1x64.Idx → EReal) = (V m c main_v31 : S1x64.Idx → EReal) := by
  obtain ⟨e0, e1⟩ := (hid_idx t).2.2.2.2.2.2.2.1
  funext y
  unfold iblk
  show V m c main_v31 (((cfg0.win 12).blk t).view.emb y) = V m c main_v31 y
  refine congrArg (V m c main_v31) (funext fun a => Fin.ext ?_)
  match a with
  | ⟨0, _⟩ => show win0_12.index t (0 : Fin 2) * 1 + 1 * (y 0).val = (y 0).val; rw [e0]; omega
  | ⟨1, _⟩ => show win0_12.index t (1 : Fin 2) * 64 + 1 * (y 1).val = (y 1).val; rw [e1]; omega

end Cert.KernelIdeal.BlockValue

end
-- ==== Proof.KernelHiddenState.lean ====
/-
  The hidden-state array after the run.

  At grid point `t` the body leaves, in the hidden-state output's block, the four folded steps of the neuron over the
  rows `2048·t … 2048·t + 2047`. Each entry of that block is the specification's folded hidden state of its batch row,
  read off the arrays the region finds; the 128 blocks tile the array along the rows, so the array ends holding that
  function of the arrays at every entry.
-/
import proofs.«173613_j2894807958278_2_alg».proof.Proof.Gen.KernelIdeal.Frame
import proofs.«173613_j2894807958278_2_alg».proof.Proof.Neuron
import proofs.«173613_j2894807958278_2_alg».proof.Proof.KernelHiddenPay
import proofs.«173613_j2894807958278_2_alg».proof.Proof.KernelHiddenBlocks
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Cert.Neuron Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (c : Dev nD)

/-- THE HIDDEN STATE after the four folded steps, as one function of the arrays the region finds: entry `(r, f)` is the
    specification's folded hidden state of batch row `r`, at feature `f`. -/
abbrev hidE : S262144x64.Idx → EReal := fun i : S262144x64.Idx =>
    eHidF (fun j => row2 (V m c main_v31 : S1x64.Idx → EReal) 0 j - row2 (V m c main_v34 : S1x64.Idx → EReal) 0 j)
      (mat2 (V m c main_v28 : S4x64.Idx → EReal)) (mat2 (V m c main_v3 : S64x64.Idx → EReal))
      (row2 (V m c main_arg0 : S262144x4.Idx → EReal) (i 0)) (row2 (V m c main_arg1 : S262144x64.Idx → EReal) (i 0))
      (row2 (V m c main_arg2 : S262144x64.Idx → EReal) (i 0)) (i 1)

/-- One entry: the specification's formula over the blocks at point `t`, at row `p` of the block, is the same formula
    over the arrays at row `2048·t + p`. -/
theorem hid_point18 (t : Fin cfg0.N) (p : Fin 2048) (q : Fin 64) (I : S262144x64.Idx)
    (h0 : (I 0).val = t.val * 2048 + p.val) (h1 : (I 1).val = q.val) :
    eHidF (fun j => row2 (iblk m c 12 t : S1x64.Idx → EReal) 0 j - row2 (iblk m c 7 t : S1x64.Idx → EReal) 0 j)
        (mat2 (iblk m c 5 t : S4x64.Idx → EReal)) (mat2 (iblk m c 6 t : S64x64.Idx → EReal))
        (row2 (iblk m c 0 t : S2048x4.Idx → EReal) p) (row2 (iblk m c 2 t : S2048x64.Idx → EReal) p)
        (row2 (iblk m c 3 t : S2048x64.Idx → EReal) p) q
      = hidE m c I := by
  obtain ⟨a, b, rfl⟩ : ∃ (a : Fin 262144) (b : Fin 64), I = ix2 a b := ⟨I 0, I 1, eq_ix2 I⟩
  obtain rfl : b = q := Fin.ext h1
  have r0 : row2 (iblk m c 0 t : S2048x4.Idx → EReal) p = row2 (V m c main_arg0 : S262144x4.Idx → EReal) a :=
    funext fun k => hid_blk0 m c t (ix2 p k) (ix2 a k) h0 rfl
  have r2 : row2 (iblk m c 2 t : S2048x64.Idx → EReal) p = row2 (V m c main_arg1 : S262144x64.Idx → EReal) a :=
    funext fun k => hid_blk2 m c t (ix2 p k) (ix2 a k) h0 rfl
  have r3 : row2 (iblk m c 3 t : S2048x64.Idx → EReal) p = row2 (V m c main_arg2 : S262144x64.Idx → EReal) a :=
    funext fun k => hid_blk3 m c t (ix2 p k) (ix2 a k) h0 rfl
  rw [r0, r2, r3, hid_blk5 m c t, hid_blk6 m c t, hid_blk7 m c t, hid_blk12 m c t]

/-- The block step, over any block contents `X` and any array function `G`: if entry `(p, q)` of `X` is `G` at row
    `2048·t + p`, column `q`, then what the window writes back at point `t` is block `t` of `G`. -/
theorem hid_rows18 (t : Fin cfg0.N) (X : S2048x64.Idx → EReal) (G : S262144x64.Idx → EReal)
    (h : ∀ (p : Fin 2048) (q : Fin 64) (i : S262144x64.Idx),
      (i 0).val = t.val * 2048 + p.val → (i 1).val = q.val → X (ix2 p q) = G i) :
    (cfg0.win 18).cut (grid0.coords t) X = ((cfg0.win 18).blk t).view.read (Elt Ideal) G := by
  obtain ⟨e0, e1⟩ := (hid_idx t).2.2.2.2.2.2.2.2.1
  funext j
  obtain ⟨p, q, rfl⟩ : ∃ (p : Fin 2048) (q : Fin 64), j = ix2 p q := ⟨j 0, j 1, eq_ix2 j⟩
  show X (ix2 p q) = G (((cfg0.win 18).blk t).view.emb (ix2 p q))
  refine h p q _ ?_ ?_
  · show win0_18.index t (0 : Fin 2) * 2048 + 1 * p.val = t.val * 2048 + p.val
    rw [e0]; omega
  · show win0_18.index t (1 : Fin 2) * 64 + 1 * q.val = q.val
    rw [e1]; omega

/-- WHAT POINT `t` WRITES BACK to window 18's array is block `t` of that function of the arrays. -/
theorem hid_flushed18 (t : Fin cfg0.N) :
    (dats (F := Ideal) m 0 c).flushed 18 t = ((cfg0.win 18).blk t).view.read (Elt Ideal) (hidE m c) := by
  show (cfg0.win 18).cut (grid0.coords t) ((dats m 0 c).after 18 t) = _
  rw [after0_18]
  unfold out0_18
  rw [View.canon_unit_zero hid_hz]
  simp only [View.ld_unit_zero (S := S2048x4) hid_hz, View.ld_unit_zero (S := S2048x64) hid_hz, View.ld_unit_zero (S := S4x64) hid_hz, View.ld_unit_zero (S := S64x64) hid_hz, View.ld_unit_zero (S := S1x64) hid_hz]
  exact hid_rows18 t
    (k0_pay3 (F := Ideal) (iblk m c 0 t) (iblk m c 2 t) (iblk m c 3 t) (iblk m c 5 t) (iblk m c 6 t) (iblk m c 7 t) (iblk m c 12 t))
    (hidE m c) fun p q i h0 h1 =>
      (hid_pay3_apply (iblk m c 0 t) (iblk m c 2 t) (iblk m c 3 t) (iblk m c 5 t) (iblk m c 6 t) (iblk m c 7 t) (iblk m c 12 t) p q).trans (hid_point18 m c t p q i h0 h1)

/-- Every entry of the array lies in the block of the point its row's 2048-row tile names. -/
theorem hid_cover18 (i : S262144x64.Idx) :
    ∃ t : Fin cfg0.N, (cfg0.win 18).flush t = true ∧ i ∈ ((cfg0.win 18).blk t).view.set := by
  have hN : cfg0.N = 128 := N_0
  have hi0 : (i 0).val < 262144 := (i 0).isLt
  have hi1 : (i 1).val < 64 := (i 1).isLt
  obtain ⟨t, ht⟩ : ∃ t : Fin cfg0.N, t.val = (i 0).val / 2048 := ⟨⟨(i 0).val / 2048, by rw [hN]; omega⟩, rfl⟩
  obtain ⟨e0, e1⟩ := (hid_idx t).2.2.2.2.2.2.2.2.1
  refine ⟨t, flush0_18 t, ?_⟩
  show i ∈ ((View.whole main_v44_3).slice (win0_18.rect t)).set
  rw [View.set_slice_whole, Rect.mem_set_unit]
  intro a
  match a with
  | ⟨0, _⟩ =>
    show win0_18.index t (0 : Fin 2) * 2048 ≤ (i 0).val ∧ (i 0).val < win0_18.index t (0 : Fin 2) * 2048 + 2048
    rw [e0, ht]; omega
  | ⟨1, _⟩ =>
    show win0_18.index t (1 : Fin 2) * 64 ≤ (i 1).val ∧ (i 1).val < win0_18.index t (1 : Fin 2) * 64 + 64
    rw [e1]; omega

/-- THE HIDDEN-STATE ARRAY after the run. -/
theorem arr18 : (dats (F := Ideal) m 0 c).arrAt 18 cfg0.N = fun i : S262144x64.Idx =>
    eHidF (fun j => row2 (V m c main_v31 : S1x64.Idx → EReal) 0 j - row2 (V m c main_v34 : S1x64.Idx → EReal) 0 j)
      (mat2 (V m c main_v28 : S4x64.Idx → EReal)) (mat2 (V m c main_v3 : S64x64.Idx → EReal))
      (row2 (V m c main_arg0 : S262144x4.Idx → EReal) (i 0)) (row2 (V m c main_arg1 : S262144x64.Idx → EReal) (i 0))
      (row2 (V m c main_arg2 : S262144x64.Idx → EReal) (i 0)) (i 1) :=
  (dats (F := Ideal) m 0 c).arrAt_eq_of_cover 18 (hidE m c) (fun t _ => hid_flushed18 m c t) (hid_cover18)

end Cert.KernelIdeal.BlockValue

end
-- ==== Proof.KernelHiddenOut.lean ====
/-
  The hidden-output array after the run.

  At grid point `t` the body leaves, in the hidden output's block, the hidden state of the rows
  `2048·t … 2048·t + 2047` where it reaches the feature's threshold, else zero. Each entry of that block is the
  specification's gated folded hidden state of its batch row, read off the arrays the region finds; the 128 blocks
  tile the array along the rows, so the array ends holding that function of the arrays at every entry.
-/
import proofs.«173613_j2894807958278_2_alg».proof.Proof.Gen.KernelIdeal.Frame
import proofs.«173613_j2894807958278_2_alg».proof.Proof.Neuron
import proofs.«173613_j2894807958278_2_alg».proof.Proof.KernelHiddenPay
import proofs.«173613_j2894807958278_2_alg».proof.Proof.KernelHiddenBlocks
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Cert.Neuron Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (c : Dev nD)

/-- THE HIDDEN OUTPUT, as one function of the arrays the region finds: entry `(r, f)` is the specification's gated
    folded hidden state of batch row `r`, at feature `f`. -/
abbrev hidO : S262144x64.Idx → EReal := fun i : S262144x64.Idx =>
    oHidF (row2 (V m c main_v30 : S1x64.Idx → EReal) 0) (fun j => row2 (V m c main_v31 : S1x64.Idx → EReal) 0 j - row2 (V m c main_v34 : S1x64.Idx → EReal) 0 j)
      (mat2 (V m c main_v28 : S4x64.Idx → EReal)) (mat2 (V m c main_v3 : S64x64.Idx → EReal))
      (row2 (V m c main_arg0 : S262144x4.Idx → EReal) (i 0)) (row2 (V m c main_arg1 : S262144x64.Idx → EReal) (i 0))
      (row2 (V m c main_arg2 : S262144x64.Idx → EReal) (i 0)) (i 1)

/-- One entry: the specification's formula over the blocks at point `t`, at row `p` of the block, is the same formula
    over the arrays at row `2048·t + p`. -/
theorem hid_point19 (t : Fin cfg0.N) (p : Fin 2048) (q : Fin 64) (I : S262144x64.Idx)
    (h0 : (I 0).val = t.val * 2048 + p.val) (h1 : (I 1).val = q.val) :
    oHidF (row2 (iblk m c 11 t : S1x64.Idx → EReal) 0) (fun j => row2 (iblk m c 12 t : S1x64.Idx → EReal) 0 j - row2 (iblk m c 7 t : S1x64.Idx → EReal) 0 j)
        (mat2 (iblk m c 5 t : S4x64.Idx → EReal)) (mat2 (iblk m c 6 t : S64x64.Idx → EReal))
        (row2 (iblk m c 0 t : S2048x4.Idx → EReal) p) (row2 (iblk m c 2 t : S2048x64.Idx → EReal) p)
        (row2 (iblk m c 3 t : S2048x64.Idx → EReal) p) q
      = hidO m c I := by
  obtain ⟨a, b, rfl⟩ : ∃ (a : Fin 262144) (b : Fin 64), I = ix2 a b := ⟨I 0, I 1, eq_ix2 I⟩
  obtain rfl : b = q := Fin.ext h1
  have r0 : row2 (iblk m c 0 t : S2048x4.Idx → EReal) p = row2 (V m c main_arg0 : S262144x4.Idx → EReal) a :=
    funext fun k => hid_blk0 m c t (ix2 p k) (ix2 a k) h0 rfl
  have r2 : row2 (iblk m c 2 t : S2048x64.Idx → EReal) p = row2 (V m c main_arg1 : S262144x64.Idx → EReal) a :=
    funext fun k => hid_blk2 m c t (ix2 p k) (ix2 a k) h0 rfl
  have r3 : row2 (iblk m c 3 t : S2048x64.Idx → EReal) p = row2 (V m c main_arg2 : S262144x64.Idx → EReal) a :=
    funext fun k => hid_blk3 m c t (ix2 p k) (ix2 a k) h0 rfl
  rw [r0, r2, r3, hid_blk5 m c t, hid_blk6 m c t, hid_blk7 m c t, hid_blk12 m c t, hid_blk11 m c t]

/-- The block step, over any block contents `X` and any array function `G`: if entry `(p, q)` of `X` is `G` at row
    `2048·t + p`, column `q`, then what the window writes back at point `t` is block `t` of `G`. -/
theorem hid_rows19 (t : Fin cfg0.N) (X : S2048x64.Idx → EReal) (G : S262144x64.Idx → EReal)
    (h : ∀ (p : Fin 2048) (q : Fin 64) (i : S262144x64.Idx),
      (i 0).val = t.val * 2048 + p.val → (i 1).val = q.val → X (ix2 p q) = G i) :
    (cfg0.win 19).cut (grid0.coords t) X = ((cfg0.win 19).blk t).view.read (Elt Ideal) G := by
  obtain ⟨e0, e1⟩ := (hid_idx t).2.2.2.2.2.2.2.2.2
  funext j
  obtain ⟨p, q, rfl⟩ : ∃ (p : Fin 2048) (q : Fin 64), j = ix2 p q := ⟨j 0, j 1, eq_ix2 j⟩
  show X (ix2 p q) = G (((cfg0.win 19).blk t).view.emb (ix2 p q))
  refine h p q _ ?_ ?_
  · show win0_19.index t (0 : Fin 2) * 2048 + 1 * p.val = t.val * 2048 + p.val
    rw [e0]; omega
  · show win0_19.index t (1 : Fin 2) * 64 + 1 * q.val = q.val
    rw [e1]; omega

/-- WHAT POINT `t` WRITES BACK to window 19's array is block `t` of that function of the arrays. -/
theorem hid_flushed19 (t : Fin cfg0.N) :
    (dats (F := Ideal) m 0 c).flushed 19 t = ((cfg0.win 19).blk t).view.read (Elt Ideal) (hidO m c) := by
  show (cfg0.win 19).cut (grid0.coords t) ((dats m 0 c).after 19 t) = _
  rw [after0_19]
  unfold out0_19
  rw [View.canon_unit_zero hid_hz]
  simp only [View.ld_unit_zero (S := S2048x4) hid_hz, View.ld_unit_zero (S := S2048x64) hid_hz, View.ld_unit_zero (S := S4x64) hid_hz, View.ld_unit_zero (S := S64x64) hid_hz, View.ld_unit_zero (S := S1x64) hid_hz]
  exact hid_rows19 t
    (k0_pay5 (F := Ideal) (k0_pay3 (iblk m c 0 t) (iblk m c 2 t) (iblk m c 3 t) (iblk m c 5 t) (iblk m c 6 t) (iblk m c 7 t) (iblk m c 12 t))
      (k0_pay4 (iblk m c 0 t) (iblk m c 2 t) (iblk m c 3 t) (iblk m c 5 t) (iblk m c 6 t) (iblk m c 7 t) (iblk m c 12 t) (iblk m c 11 t)))
    (hidO m c) fun p q i h0 h1 =>
      (hid_pay5_apply (iblk m c 0 t) (iblk m c 2 t) (iblk m c 3 t) (iblk m c 5 t) (iblk m c 6 t) (iblk m c 7 t) (iblk m c 12 t) (iblk m c 11 t) p q).trans (hid_point19 m c t p q i h0 h1)

/-- Every entry of the array lies in the block of the point its row's 2048-row tile names. -/
theorem hid_cover19 (i : S262144x64.Idx) :
    ∃ t : Fin cfg0.N, (cfg0.win 19).flush t = true ∧ i ∈ ((cfg0.win 19).blk t).view.set := by
  have hN : cfg0.N = 128 := N_0
  have hi0 : (i 0).val < 262144 := (i 0).isLt
  have hi1 : (i 1).val < 64 := (i 1).isLt
  obtain ⟨t, ht⟩ : ∃ t : Fin cfg0.N, t.val = (i 0).val / 2048 := ⟨⟨(i 0).val / 2048, by rw [hN]; omega⟩, rfl⟩
  obtain ⟨e0, e1⟩ := (hid_idx t).2.2.2.2.2.2.2.2.2
  refine ⟨t, flush0_19 t, ?_⟩
  show i ∈ ((View.whole main_v44_4).slice (win0_19.rect t)).set
  rw [View.set_slice_whole, Rect.mem_set_unit]
  intro a
  match a with
  | ⟨0, _⟩ =>
    show win0_19.index t (0 : Fin 2) * 2048 ≤ (i 0).val ∧ (i 0).val < win0_19.index t (0 : Fin 2) * 2048 + 2048
    rw [e0, ht]; omega
  | ⟨1, _⟩ =>
    show win0_19.index t (1 : Fin 2) * 64 ≤ (i 1).val ∧ (i 1).val < win0_19.index t (1 : Fin 2) * 64 + 64
    rw [e1]; omega

/-- THE HIDDEN-OUTPUT ARRAY after the run. -/
theorem arr19 : (dats (F := Ideal) m 0 c).arrAt 19 cfg0.N = fun i : S262144x64.Idx =>
    oHidF (row2 (V m c main_v30 : S1x64.Idx → EReal) 0) (fun j => row2 (V m c main_v31 : S1x64.Idx → EReal) 0 j - row2 (V m c main_v34 : S1x64.Idx → EReal) 0 j)
      (mat2 (V m c main_v28 : S4x64.Idx → EReal)) (mat2 (V m c main_v3 : S64x64.Idx → EReal))
      (row2 (V m c main_arg0 : S262144x4.Idx → EReal) (i 0)) (row2 (V m c main_arg1 : S262144x64.Idx → EReal) (i 0))
      (row2 (V m c main_arg2 : S262144x64.Idx → EReal) (i 0)) (i 1) :=
  (dats (F := Ideal) m 0 c).arrAt_eq_of_cover 19 (hidO m c) (fun t _ => hid_flushed19 m c t) (hid_cover19)

end Cert.KernelIdeal.BlockValue

end
-- ==== Proof.KernelInBlocks.lean ====
/-
  The input layer on the kernel side, first part: what the region leaves in the two packed arrays.

  The batch is packed 32 rows to a packed row: packed row r, lane l holds entry (128 r + l) of the row-major
  [262144, 4] input. Grid point t handles packed rows 64 t … 64 t + 63. At each entry the body multiplies the
  packed input by the decay tiled along the lanes (E_in), and passes that product where it reaches the tiled
  threshold, zero elsewhere (O_in). The two tiled parameter rows sit in one block, the same at every point, so a
  block of either result is the restriction of one function of the whole packed arrays; the 128 blocks tile the
  8192 packed rows, point r / 64 covering row r.
-/
import proofs.«173613_j2894807958278_2_alg».proof.Proof.Gen.KernelIdeal.Frame
import proofs.«173613_j2894807958278_2_alg».proof.Proof.Neuron
import Idealize.ShloMosaic.Lib.Pipeline.Value
import Idealize.ShloMosaic.Lib.ValueIdx
import Idealize.ShloMosaic.Lib.ValueLayout

noncomputable section

namespace Cert.KernelIdeal.InValue

open Cert.KernelIdeal Cert.KernelIdeal.Gen Cert.Neuron Idealize.ShloMosaic Idealize.ShloMosaic.ValueIdx
open Idealize.ShloMosaic.TcCoe Idealize.SL.Sem
open Idealize.ShloMosaic.Pipeline (Dat)

theorem hz : (![0, 0] : Fin 2 → Nat) = fun _ => 0 := funext fun a => by fin_cases a <;> rfl

/-- The decay-scaled packed block, entry by entry. -/
theorem pay6_apply (v1 : Vec Ideal S64x128 .f32) (v37 : Vec Ideal S1x128 .f32) (r : Fin 64) (l : Fin 128) :
    k0_pay6 (k0_pay1 v1) v37 (ix2 r l) = v37 (ix2 0 l) * v1 (ix2 r l) := by
  unfold k0_pay6 k0_pay1
  rw [shapeCast_self, shapeCast_self, mulf_apply]
  refine congrArg (· * v1 (ix2 r l)) ?_
  refine broadcastTo_apply v37 _ (ix2 r l) (ix2 0 l) fun a => ?_
  match a with
  | ⟨0, _⟩ => rfl
  | ⟨1, _⟩ => rfl

theorem idx_facts : ∀ t : Fin cfg0.N,
    win0_16.index t (0 : Fin 2) = t.val ∧ win0_16.index t (1 : Fin 2) = 0
    ∧ win0_17.index t (0 : Fin 2) = t.val ∧ win0_17.index t (1 : Fin 2) = 0
    ∧ win0_1.index t (0 : Fin 2) = t.val ∧ win0_1.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- The gated packed block, entry by entry. -/
theorem pay7_apply (v1 : Vec Ideal S64x128 .f32) (v37 v39 : Vec Ideal S1x128 .f32) (r : Fin 64) (l : Fin 128) :
    k0_pay7 (k0_pay1 v1) v37 v39 (ix2 r l) = gate (v37 (ix2 0 l) * v1 (ix2 r l)) (v39 (ix2 0 l)) := by
  have hb : broadcastTo S64x128 (shapeCast S1x128 v39 shapeCasts_S1x128_S1x128) broadcasts_S1x128_S64x128 (ix2 r l)
      = v39 (ix2 0 l) := by
    rw [shapeCast_self]
    refine broadcastTo_apply v39 _ (ix2 r l) (ix2 0 l) fun a => ?_
    match a with
    | ⟨0, _⟩ => rfl
    | ⟨1, _⟩ => rfl
  unfold k0_pay7
  rw [select_apply, cmpf_apply, broadcast_apply, pay6_apply, hb]
  rfl

/-! ## The two packed results as functions of the packed inputs -/

/-- Packed E_in: lane l of every packed row is scaled by the tiled decay. -/
def packedE (d : S1x128.Idx → EReal) (x : S8192x128.Idx → EReal) : S8192x128.Idx → EReal :=
  fun i => d (ix2 0 (i 1)) * x i

/-- Packed O_in: the scaled entry where it reaches the tiled threshold, else zero. -/
def packedO (th d : S1x128.Idx → EReal) (x : S8192x128.Idx → EReal) : S8192x128.Idx → EReal :=
  fun i => gate (d (ix2 0 (i 1)) * x i) (th (ix2 0 (i 1)))

variable (m : (ℓ : Loc nD τ sig) → Buf (Elt Ideal) ℓ) (c : Dev nD)

/-! ## The input blocks at a point, as entries of the arrays the region finds -/

/-- Point t's block of the packed input is packed rows 64 t … 64 t + 63. -/
theorem blk1_read (t : Fin cfg0.N) (p : Fin 64) (q : Fin 128) (i : S8192x128.Idx)
    (h0 : (i 0).val = 64 * t.val + p.val) (h1 : (i 1).val = q.val) :
    (iblk m c 1 t : S64x128.Idx → EReal) (ix2 p q) = (V m c main_v35 : S8192x128.Idx → EReal) i := by
  obtain ⟨-, -, -, -, e4, e5, -⟩ := idx_facts t
  show (V m c main_v35 : S8192x128.Idx → EReal) (((cfg0.win 1).blk t).view.emb (ix2 p q)) = _
  refine congrArg (V m c main_v35 : S8192x128.Idx → EReal) ?_
  funext a; apply Fin.ext
  match a with
  | ⟨0, _⟩ => show win0_1.index t (0 : Fin 2) * 64 + 1 * p.val = (i 0).val; omega
  | ⟨1, _⟩ => show win0_1.index t (1 : Fin 2) * 128 + 1 * q.val = (i 1).val; omega

/-- The tiled decay sits in one block, the same at every point. -/
theorem blk10_read (t : Fin cfg0.N) (q : Fin 128) (i : S1x128.Idx) (h1 : (i 1).val = q.val) :
    (iblk m c 10 t : S1x128.Idx → EReal) (ix2 0 q) = (V m c main_v43 : S1x128.Idx → EReal) i := by
  obtain ⟨-, -, -, -, -, -, -, -, e8, e9⟩ := idx_facts t
  have hi0 : (i 0).val < 1 := (i 0).isLt
  show (V m c main_v43 : S1x128.Idx → EReal) (((cfg0.win 10).blk t).view.emb (ix2 0 q)) = _
  refine congrArg (V m c main_v43 : S1x128.Idx → EReal) ?_
  funext a; apply Fin.ext
  match a with
  | ⟨0, _⟩ => show win0_10.index t (0 : Fin 2) * 1 + 1 * 0 = (i 0).val; omega
  | ⟨1, _⟩ => show win0_10.index t (1 : Fin 2) * 128 + 1 * q.val = (i 1).val; omega

/-- So does the tiled threshold. -/
theorem blk9_read (t : Fin cfg0.N) (q : Fin 128) (i : S1x128.Idx) (h1 : (i 1).val = q.val) :
    (iblk m c 9 t : S1x128.Idx → EReal) (ix2 0 q) = (V m c main_v39 : S1x128.Idx → EReal) i := by
  obtain ⟨-, -, -, -, -, -, e6, e7, -⟩ := idx_facts t
  have hi0 : (i 0).val < 1 := (i 0).isLt
  show (V m c main_v39 : S1x128.Idx → EReal) (((cfg0.win 9).blk t).view.emb (ix2 0 q)) = _
  refine congrArg (V m c main_v39 : S1x128.Idx → EReal) ?_
  funext a; apply Fin.ext
  match a with
  | ⟨0, _⟩ => show win0_9.index t (0 : Fin 2) * 1 + 1 * 0 = (i 0).val; omega
  | ⟨1, _⟩ => show win0_9.index t (1 : Fin 2) * 128 + 1 * q.val = (i 1).val; omega

/-- Where entry (p, q) of point t's block of either packed result sits in its array. -/
theorem emb16_val (t : Fin cfg0.N) (p : Fin 64) (q : Fin 128) :
    ((((cfg0.win 16).blk t).view.emb (ix2 p q) : S8192x128.Idx) 0).val = 64 * t.val + p.val
    ∧ ((((cfg0.win 16).blk t).view.emb (ix2 p q) : S8192x128.Idx) 1).val = q.val := by
  obtain ⟨e0, e1, -⟩ := idx_facts t
  constructor
  · show win0_16.index t (0 : Fin 2) * 64 + 1 * p.val = _; omega
  · show win0_16.index t (1 : Fin 2) * 128 + 1 * q.val = _; omega

theorem emb17_val (t : Fin cfg0.N) (p : Fin 64) (q : Fin 128) :
    ((((cfg0.win 17).blk t).view.emb (ix2 p q) : S8192x128.Idx) 0).val = 64 * t.val + p.val
    ∧ ((((cfg0.win 17).blk t).view.emb (ix2 p q) : S8192x128.Idx) 1).val = q.val := by
  obtain ⟨-, -, e2, e3, -⟩ := idx_facts t
  constructor
  · show win0_17.index t (0 : Fin 2) * 64 + 1 * p.val = _; omega
  · show win0_17.index t (1 : Fin 2) * 128 + 1 * q.val = _; omega

/-! ## What a point writes back is its block of the packed result -/

/-- The blocks of the two results are never clipped: writing one back writes all of it. -/
theorem cut16 (t : Fin cfg0.N) (X : S64x128.Idx → EReal) : (cfg0.win 16).cut (grid0.coords t) X = X := rfl
theorem cut17 (t : Fin cfg0.N) (X : S64x128.Idx → EReal) : (cfg0.win 17).cut (grid0.coords t) X = X := rfl

/-- A block of an array, read at an entry, is the array at the entry's place. -/
theorem read16 (t : Fin cfg0.N) (G : S8192x128.Idx → EReal) (j : S64x128.Idx) :
    ((cfg0.win 16).blk t).view.read (Elt Ideal) G j = G (((cfg0.win 16).blk t).view.emb j) := rfl
theorem read17 (t : Fin cfg0.N) (G : S8192x128.Idx → EReal) (j : S64x128.Idx) :
    ((cfg0.win 17).blk t).view.read (Elt Ideal) G j = G (((cfg0.win 17).blk t).view.emb j) := rfl

theorem flushed16_eq (t : Fin cfg0.N) :
    (dats (F := Ideal) m 0 c).flushed 16 t
      = ((cfg0.win 16).blk t).view.read (Elt Ideal) (packedE (V m c main_v43) (V m c main_v35)) := by
  show (cfg0.win 16).cut (grid0.coords t) ((dats m 0 c).after 16 t) = _
  rw [after0_16]
  refine (cut16 t _).trans ?_
  unfold out0_16
  rw [View.canon_unit_zero hz]
  simp only [View.ld_unit_zero (S := S64x128) hz, View.ld_unit_zero (S := S1x128) hz]
  refine funext fun (j : S64x128.Idx) => ?_
  obtain ⟨p, q, rfl⟩ : ∃ (p : Fin 64) (q : Fin 128), j = ix2 p q := ⟨j 0, j 1, eq_ix2 j⟩
  obtain ⟨h0, h1⟩ := emb16_val t p q
  refine ((pay6_apply (iblk m c 1 t) (iblk m c 10 t) p q).trans ?_).trans
    (read16 t (packedE (V m c main_v43) (V m c main_v35)) (ix2 p q)).symm
  rw [blk10_read m c t q (ix2 0 ((((cfg0.win 16).blk t).view.emb (ix2 p q) : S8192x128.Idx) 1)) h1,
    blk1_read m c t p q (((cfg0.win 16).blk t).view.emb (ix2 p q)) h0 h1]
  unfold packedE
  rfl

theorem flushed17_eq (t : Fin cfg0.N) :
    (dats (F := Ideal) m 0 c).flushed 17 t
      = ((cfg0.win 17).blk t).view.read (Elt Ideal) (packedO (V m c main_v39) (V m c main_v43) (V m c main_v35)) := by
  show (cfg0.win 17).cut (grid0.coords t) ((dats m 0 c).after 17 t) = _
  rw [after0_17]
  refine (cut17 t _).trans ?_
  unfold out0_17
  rw [View.canon_unit_zero hz]
  simp only [View.ld_unit_zero (S := S64x128) hz, View.ld_unit_zero (S := S1x128) hz]
  refine funext fun (j : S64x128.Idx) => ?_
  obtain ⟨p, q, rfl⟩ : ∃ (p : Fin 64) (q : Fin 128), j = ix2 p q := ⟨j 0, j 1, eq_ix2 j⟩
  obtain ⟨h0, h1⟩ := emb17_val t p q
  refine ((pay7_apply (iblk m c 1 t) (iblk m c 10 t) (iblk m c 9 t) p q).trans ?_).trans
    (read17 t (packedO (V m c main_v39) (V m c main_v43) (V m c main_v35)) (ix2 p q)).symm
  rw [blk10_read m c t q (ix2 0 ((((cfg0.win 17).blk t).view.emb (ix2 p q) : S8192x128.Idx) 1)) h1,
    blk9_read m c t q (ix2 0 ((((cfg0.win 17).blk t).view.emb (ix2 p q) : S8192x128.Idx) 1)) h1,
    blk1_read m c t p q (((cfg0.win 17).blk t).view.emb (ix2 p q)) h0 h1]
  unfold packedO
  rfl

/-! ## The blocks tile the packed arrays -/

theorem mem_blk16 (t : Fin cfg0.N) (i : S8192x128.Idx) :
    i ∈ ((cfg0.win 16).blk t).view.set ↔ ∀ a : Fin 2, win0_16.index t a * S64x128.size a ≤ (i a).val ∧ (i a).val < win0_16.index t a * S64x128.size a + S64x128.size a := by
  show i ∈ ((View.whole main_v44_1).slice (win0_16.rect t)).set ↔ _
  rw [View.set_slice_whole, Rect.mem_set_unit]
  exact Iff.rfl

theorem mem_blk17 (t : Fin cfg0.N) (i : S8192x128.Idx) :
    i ∈ ((cfg0.win 17).blk t).view.set ↔ ∀ a : Fin 2, win0_17.index t a * S64x128.size a ≤ (i a).val ∧ (i a).val < win0_17.index t a * S64x128.size a + S64x128.size a := by
  show i ∈ ((View.whole main_v44_2).slice (win0_17.rect t)).set ↔ _
  rw [View.set_slice_whole, Rect.mem_set_unit]
  exact Iff.rfl

/-- Packed row r lies in the block of point r / 64. -/
theorem cover16 (i : S8192x128.Idx) :
    ∃ t : Fin cfg0.N, (cfg0.win 16).flush t = true ∧ i ∈ ((cfg0.win 16).blk t).view.set := by
  have hi0 : (i 0).val < 8192 := (i 0).isLt
  have hi1 : (i 1).val < 128 := (i 1).isLt
  have hlt : (i 0).val / 64 < cfg0.N := by rw [show cfg0.N = 128 from N_0]; omega
  obtain ⟨e0, e1, -⟩ := idx_facts ⟨(i 0).val / 64, hlt⟩
  refine ⟨⟨(i 0).val / 64, hlt⟩, flush0_16 _, ?_⟩
  rw [mem_blk16]
  intro a
  match a with
  | ⟨0, _⟩ =>
    show win0_16.index ⟨(i 0).val / 64, hlt⟩ (0 : Fin 2) * 64 ≤ (i 0).val ∧ (i 0).val < win0_16.index ⟨(i 0).val / 64, hlt⟩ (0 : Fin 2) * 64 + 64
    rw [e0]; show (i 0).val / 64 * 64 ≤ (i 0).val ∧ (i 0).val < (i 0).val / 64 * 64 + 64; omega
  | ⟨1, _⟩ =>
    show win0_16.index ⟨(i 0).val / 64, hlt⟩ (1 : Fin 2) * 128 ≤ (i 1).val ∧ (i 1).val < win0_16.index ⟨(i 0).val / 64, hlt⟩ (1 : Fin 2) * 128 + 128
    rw [e1]; omega

theorem cover17 (i : S8192x128.Idx) :
    ∃ t : Fin cfg0.N, (cfg0.win 17).flush t = true ∧ i ∈ ((cfg0.win 17).blk t).view.set := by
  have hi0 : (i 0).val < 8192 := (i 0).isLt
  have hi1 : (i 1).val < 128 := (i 1).isLt
  have hlt : (i 0).val / 64 < cfg0.N := by rw [show cfg0.N = 128 from N_0]; omega
  obtain ⟨-, -, e2, e3, -⟩ := idx_facts ⟨(i 0).val / 64, hlt⟩
  refine ⟨⟨(i 0).val / 64, hlt⟩, flush0_17 _, ?_⟩
  rw [mem_blk17]
  intro a
  match a with
  | ⟨0, _⟩ =>
    show win0_17.index ⟨(i 0).val / 64, hlt⟩ (0 : Fin 2) * 64 ≤ (i 0).val ∧ (i 0).val < win0_17.index ⟨(i 0).val / 64, hlt⟩ (0 : Fin 2) * 64 + 64
    rw [e2]; show (i 0).val / 64 * 64 ≤ (i 0).val ∧ (i 0).val < (i 0).val / 64 * 64 + 64; omega
  | ⟨1, _⟩ =>
    show win0_17.index ⟨(i 0).val / 64, hlt⟩ (1 : Fin 2) * 128 ≤ (i 1).val ∧ (i 1).val < win0_17.index ⟨(i 0).val / 64, hlt⟩ (1 : Fin 2) * 128 + 128
    rw [e3]; omega

/-! ## The packed arrays after the run -/

/-- After the run the packed E_in array is the packed input scaled lane by lane. -/
theorem arr16 : (dats (F := Ideal) m 0 c).arrAt 16 cfg0.N = packedE (V m c main_v43) (V m c main_v35) :=
  (dats (F := Ideal) m 0 c).arrAt_eq_of_cover 16 (packedE (V m c main_v43) (V m c main_v35))
    (fun t _ => flushed16_eq m c t) cover16

/-- And the packed O_in array is the gated scaled packed input. -/
theorem arr17 : (dats (F := Ideal) m 0 c).arrAt 17 cfg0.N = packedO (V m c main_v39) (V m c main_v43) (V m c main_v35) :=
  (dats (F := Ideal) m 0 c).arrAt_eq_of_cover 17 (packedO (V m c main_v39) (V m c main_v43) (V m c main_v35))
    (fun t _ => flushed17_eq m c t) cover17

end Cert.KernelIdeal.InValue

end
-- ==== Proof.KernelInTail.lean ====
/-
  The input layer on the kernel side, third part: the lines after the region.

  After the region the host lays each packed [8192, 128] result back out as [262144, 4], keeping the row-major
  order. What those two lines read is what the region left in the packed arrays, so each final result is that
  layout change of the packed function of the previous part.
-/
import proofs.«173613_j2894807958278_2_alg».proof.Proof.KernelInBlocks

noncomputable section

namespace Cert.KernelIdeal.InValue

open Cert.KernelIdeal Cert.KernelIdeal.Gen Cert.Neuron Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (c : Dev nD)

/-- What the region leaves in the packed E_in array, as the lines after the region find it. -/
theorem with16 :
    Pipeline.withArrays (cfgs 0).spec c (V0 m c) (fun w => (dats (F := Ideal) m 0 c).arrAt w (cfgs 0).N) (Proc.devRef .tc main_v44_1)
      = packedE (V m c main_v43) (V m c main_v35) :=
  (Pipeline.withArrays_arr spec0 launch0.win.arr_inj c _ _ 16).trans (arr16 m c)

/-- And in the packed O_in array. -/
theorem with17 :
    Pipeline.withArrays (cfgs 0).spec c (V0 m c) (fun w => (dats (F := Ideal) m 0 c).arrAt w (cfgs 0).N) (Proc.devRef .tc main_v44_2)
      = packedO (V m c main_v39) (V m c main_v43) (V m c main_v35) :=
  (Pipeline.withArrays_arr spec0 launch0.win.arr_inj c _ _ 17).trans (arr17 m c)

/-- E_in after the whole program: the packed result laid back out as [262144, 4]. -/
theorem tailE_raw :
    (Pipeline.afterTail₀ cfgs (dats (F := Ideal) m) 0 (V0 m) [hostOps1] c main_v45 : S262144x4.Idx → EReal)
      = shapeCast S262144x4 (packedE (V m c main_v43) (V m c main_v35)) shapeCasts_S8192x128_S262144x4 := by
  unfold Pipeline.afterTail₀
  show StableHlo.after hostOps1 _ (Proc.devRef .tc main_v45) = _
  after_results
  rw [with16]
  rfl

/-- O_in after the whole program. -/
theorem tailO_raw :
    (Pipeline.afterTail₀ cfgs (dats (F := Ideal) m) 0 (V0 m) [hostOps1] c main_v46 : S262144x4.Idx → EReal)
      = shapeCast S262144x4 (packedO (V m c main_v39) (V m c main_v43) (V m c main_v35)) shapeCasts_S8192x128_S262144x4 := by
  unfold Pipeline.afterTail₀
  show StableHlo.after hostOps1 _ (Proc.devRef .tc main_v46) = _
  after_results
  rw [with17]
  rfl

/-- The layout change [8192, 128] → [262144, 4] read at batch row b, feature f: entry 4 b + f in row-major order,
    that is packed row (4 b + f) / 128, lane (4 b + f) mod 128. -/
theorem unpack_apply (G : S8192x128.Idx → EReal) (b : Fin 262144) (f : Fin 4) :
    shapeCast S262144x4 G shapeCasts_S8192x128_S262144x4 (ix2 b f)
      = G (ix2 (⟨(4 * b.val + f.val) / 128, by have := b.isLt; have := f.isLt; omega⟩ : Fin 8192)
            (⟨(4 * b.val + f.val) % 128, Nat.mod_lt _ (by decide)⟩ : Fin 128)) := by
  have hb : b.val < 262144 := b.isLt
  have hf : f.val < 4 := f.isLt
  refine shapeCast_apply _ _ (ix2 b f) _ ?_
  rw [Shape.rowMajor_val_two, Shape.rowMajor_val_two]
  show (4 * b.val + f.val) / 128 * 128 + (4 * b.val + f.val) % 128 = b.val * 4 + f.val
  omega

end Cert.KernelIdeal.InValue

end
-- ==== Proof.KernelInHost.lean ====
/-
  How the host packs the sensory input and the input layer's parameters for the region.

  The region reads the sensory array `x` (262144 rows of 4 entries) as 8192 rows of 128 lanes: the same entries in
  the same row-major order, so lane `l` of packed row `r` is entry `(128 r + l) mod 4` of batch row
  `(128 r + l) / 4` — a packed row holds 32 consecutive batch rows side by side. To act on such a row lane by
  lane, the input layer's thresholds and decays (4 entries each) are repeated 32 times along a row of 128 lanes:
  lane `l` holds entry `l mod 4`.
-/
import proofs.«173613_j2894807958278_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal
import proofs.«173613_j2894807958278_2_alg».proof.Proof.Neuron

set_option maxRecDepth 16384

noncomputable section

namespace Cert.KernelIdeal.InValue

open Idealize.ShloMosaic Idealize.ShloMosaic.TcCoe Idealize.ShloMosaic.ValueIdx
open Idealize.SL.Sem
open Cert.Neuron (row2 mat2 vec1)

/-! ## The layout terms at coordinates -/

/-- A vector of 4 entries repeated along a row of 128 lanes: as one row of 4, copied to 32 rows, the 32 rows laid
    end to end, the result as one row. -/
def tiled (x : S4.Idx → EReal) : S1x128.Idx → EReal :=
  shapeCast S1x128
    (shapeCast S128
      (broadcastInDim S32x4 ![0, 1] Gen.bcast_S1x4_S32x4_0_1 (shapeCast S1x4 x Gen.shapeCasts_S4_S1x4))
      Gen.shapeCasts_S32x4_S128)
    Gen.shapeCasts_S128_S1x128

/-- Lane `l` of the repeated vector is its entry `l mod 4`. -/
theorem tiled_apply (x : S4.Idx → EReal) (l : Fin 128) :
    row2 (tiled x) 0 l = vec1 x ⟨l.val % 4, by omega⟩ := by
  show tiled x (ix2 (0 : Fin 1) l) = x (ix1 (⟨l.val % 4, by omega⟩ : Fin 4))
  unfold tiled
  refine (shapeCast_a_1a_apply _ Gen.shapeCasts_S128_S1x128 0 l).trans ?_
  refine (shapeCast_apply _ Gen.shapeCasts_S32x4_S128 (ix1 l)
    (ix2 (⟨l.val / 4, by omega⟩ : Fin 32) (⟨l.val % 4, by omega⟩ : Fin 4)) (by
      rw [Shape.rowMajor_val_two, Shape.rowMajor_val_one]
      show l.val / 4 * 4 + l.val % 4 = l.val
      omega)).trans ?_
  refine (broadcastInDim_apply ![0, 1] Gen.bcast_S1x4_S32x4_0_1 _
    (ix2 (⟨l.val / 4, by omega⟩ : Fin 32) (⟨l.val % 4, by omega⟩ : Fin 4))
    (ix2 (0 : Fin 1) (⟨l.val % 4, by omega⟩ : Fin 4)) (fun a => match a with
      | ⟨0, _⟩ => by show (0 : Nat) = if (1 : Nat) = 1 then 0 else l.val / 4; rw [if_pos rfl]
      | ⟨1, _⟩ => by show l.val % 4 = if (4 : Nat) = 1 then 0 else l.val % 4; rw [if_neg (by decide)])).trans ?_
  exact shapeCast_a_1a_apply x Gen.shapeCasts_S4_S1x4 0 (⟨l.val % 4, by omega⟩ : Fin 4)

/-- An array of 262144 rows of 4 read as 8192 rows of 128: lane `l` of row `r` is the entry at row-major position
    `128 r + l`, which is entry `(128 r + l) mod 4` of row `(128 r + l) / 4`. -/
theorem packed_apply (x : S262144x4.Idx → EReal) (r : Fin 8192) (l : Fin 128) :
    mat2 (shapeCast S8192x128 x Gen.shapeCasts_S262144x4_S8192x128) r l
      = mat2 x ⟨(128 * r.val + l.val) / 4, by omega⟩ ⟨(128 * r.val + l.val) % 4, by omega⟩ := by
  show shapeCast S8192x128 x Gen.shapeCasts_S262144x4_S8192x128 (ix2 r l)
    = x (ix2 (⟨(128 * r.val + l.val) / 4, by omega⟩ : Fin 262144) (⟨(128 * r.val + l.val) % 4, by omega⟩ : Fin 4))
  exact shapeCast_apply x Gen.shapeCasts_S262144x4_S8192x128 (ix2 r l)
    (ix2 (⟨(128 * r.val + l.val) / 4, by omega⟩ : Fin 262144) (⟨(128 * r.val + l.val) % 4, by omega⟩ : Fin 4)) (by
      rw [Shape.rowMajor_val_two, Shape.rowMajor_val_two]
      show (128 * r.val + l.val) / 4 * 4 + (128 * r.val + l.val) % 4 = r.val * 128 + l.val
      omega)

/-! ## What the region finds -/

variable (m : (ℓ : Loc nD τ sig) → Buf (Elt Ideal) ℓ) (c : Dev nD)

/-- Opens the fold of the host lines before the region at one buffer, down to the argument arrays. -/
local macro "read_host" : tactic =>
  `(tactic| (dsimp only [Gen.V, Gen.V0]
             simp only [Gen.hostOps0, Gen.hostOps0_1, Gen.hostOps0_2, Gen.hostOps0_3, Gen.hostOps0_4, Gen.hostOps0_5,
               Gen.hostOps0_6, Gen.hostOps0_7, List.flatten_cons, List.flatten_nil, List.append_nil, List.cons_append,
               List.nil_append]
             after_results_simp))

/-- The packed sensory array is the sensory array, reshaped. -/
theorem V_v35_term : (Gen.V m c main_v35 : S8192x128.Idx → EReal)
    = shapeCast S8192x128 (m ((c : Thread nD τ).loc main_arg0) : S262144x4.Idx → EReal)
        Gen.shapeCasts_S262144x4_S8192x128 := by
  read_host; rfl
/-- The lane row of input thresholds is the input thresholds, repeated. -/
theorem V_v39_term : (Gen.V m c main_v39 : S1x128.Idx → EReal)
    = tiled (m ((c : Thread nD τ).loc main_arg10) : S4.Idx → EReal) := by
  read_host; rfl
/-- The lane row of input decays is the input decays, repeated. -/
theorem V_v43_term : (Gen.V m c main_v43 : S1x128.Idx → EReal)
    = tiled (m ((c : Thread nD τ).loc main_arg11) : S4.Idx → EReal) := by
  read_host; rfl

/-- Lane `l` of packed row `r` of the sensory array. -/
theorem V_v35 (r : Fin 8192) (l : Fin 128) :
    mat2 (Gen.V m c main_v35 : S8192x128.Idx → EReal) r l
      = mat2 (m ((c : Thread nD τ).loc main_arg0) : S262144x4.Idx → EReal)
          ⟨(128 * r.val + l.val) / 4, by omega⟩ ⟨(128 * r.val + l.val) % 4, by omega⟩ := by
  rw [V_v35_term]; exact packed_apply _ r l

/-- Lane `l` of the row of input thresholds. -/
theorem V_v39 (l : Fin 128) : row2 (Gen.V m c main_v39 : S1x128.Idx → EReal) 0 l
    = vec1 (m ((c : Thread nD τ).loc main_arg10) : S4.Idx → EReal) ⟨l.val % 4, by omega⟩ := by
  rw [V_v39_term]; exact tiled_apply _ l

/-- Lane `l` of the row of input decays. -/
theorem V_v43 (l : Fin 128) : row2 (Gen.V m c main_v43 : S1x128.Idx → EReal) 0 l
    = vec1 (m ((c : Thread nD τ).loc main_arg11) : S4.Idx → EReal) ⟨l.val % 4, by omega⟩ := by
  rw [V_v43_term]; exact tiled_apply _ l

end Cert.KernelIdeal.InValue

end
-- ==== Proof.KernelIn.lean ====
/-
  The input layer on the kernel side, end to end: the two results as functions of the argument arrays.

  E_in (b, f) = dec_in f · x (b, f) and O_in (b, f) = that product where it reaches th_in f, else zero. The
  program computes them on the input packed 32 batch rows to a packed row; the packing, the tiling of the
  parameters and the unpacking all keep the row-major order, so the only thing to check is the arithmetic of
  places: entry (b, f) is place 4 b + f, lane (4 b + f) mod 128 carries parameter ((4 b + f) mod 128) mod 4 = f,
  and place 128 · ((4 b + f) / 128) + (4 b + f) mod 128 = 4 b + f unpacks to batch row b, feature f.
-/
import proofs.«173613_j2894807958278_2_alg».proof.Proof.KernelInTail
import proofs.«173613_j2894807958278_2_alg».proof.Proof.KernelInHost

noncomputable section

namespace Cert.KernelIdeal.InValue

open Cert.KernelIdeal Cert.KernelIdeal.Gen Cert.Neuron Idealize.ShloMosaic Idealize.ShloMosaic.ValueIdx
open Idealize.ShloMosaic.TcCoe Idealize.SL.Sem
open Idealize.ShloMosaic.Pipeline (Dat)

/-! ## The packed results and the specification, over arbitrary arrays -/

theorem packedE_apply (d : S1x128.Idx → EReal) (x : S8192x128.Idx → EReal) (r : Fin 8192) (l : Fin 128) :
    packedE d x (ix2 r l) = d (ix2 0 l) * x (ix2 r l) := rfl

theorem packedO_apply (th d : S1x128.Idx → EReal) (x : S8192x128.Idx → EReal) (r : Fin 8192) (l : Fin 128) :
    packedO th d x (ix2 r l) = gate (d (ix2 0 l) * x (ix2 r l)) (th (ix2 0 l)) := rfl

/-- The specification's E_in at entry i, from any spelling of the two places it reads. -/
theorem eIn_of_places (d : S4.Idx → EReal) (x : S262144x4.Idx → EReal) (i : S262144x4.Idx)
    (k : S4.Idx) (j : S262144x4.Idx) (hk : (k 0).val = (i 1).val) (h0 : (j 0).val = (i 0).val) (h1 : (j 1).val = (i 1).val) :
    d k * x j = eIn (vec1 d) (row2 x (i 0)) (i 1) := by
  obtain rfl : k = ix1 (i 1) := by
    funext a; apply Fin.ext
    match a with
    | ⟨0, _⟩ => exact hk
  obtain rfl : j = ix2 (i 0) (i 1) := by
    funext a; apply Fin.ext
    match a with
    | ⟨0, _⟩ => exact h0
    | ⟨1, _⟩ => exact h1
  rfl

/-- The specification's O_in at entry i, likewise. -/
theorem oIn_of_places (th d : S4.Idx → EReal) (x : S262144x4.Idx → EReal) (i : S262144x4.Idx)
    (k k' : S4.Idx) (j : S262144x4.Idx) (hk : (k 0).val = (i 1).val) (hk' : (k' 0).val = (i 1).val)
    (h0 : (j 0).val = (i 0).val) (h1 : (j 1).val = (i 1).val) :
    gate (d k * x j) (th k') = oIn (vec1 th) (vec1 d) (row2 x (i 0)) (i 1) := by
  obtain rfl : k = ix1 (i 1) := by
    funext a; apply Fin.ext
    match a with
    | ⟨0, _⟩ => exact hk
  obtain rfl : k' = ix1 (i 1) := by
    funext a; apply Fin.ext
    match a with
    | ⟨0, _⟩ => exact hk'
  obtain rfl : j = ix2 (i 0) (i 1) := by
    funext a; apply Fin.ext
    match a with
    | ⟨0, _⟩ => exact h0
    | ⟨1, _⟩ => exact h1
  rfl

variable (m : (ℓ : Loc nD τ sig) → Buf (Elt Ideal) ℓ) (c : Dev nD)

/-! ## The arrays the host prepares, at an entry -/

theorem v43_at (l : Fin 128) :
    (V m c main_v43 : S1x128.Idx → EReal) (ix2 0 l)
      = (m ((c : Thread nD τ).loc main_arg11) : S4.Idx → EReal) (ix1 ⟨l.val % 4, Nat.mod_lt _ (by decide)⟩) := by
  have h := V_v43 m c l
  unfold row2 vec1 at h
  exact h

theorem v39_at (l : Fin 128) :
    (V m c main_v39 : S1x128.Idx → EReal) (ix2 0 l)
      = (m ((c : Thread nD τ).loc main_arg10) : S4.Idx → EReal) (ix1 ⟨l.val % 4, Nat.mod_lt _ (by decide)⟩) := by
  have h := V_v39 m c l
  unfold row2 vec1 at h
  exact h

theorem v35_at (r : Fin 8192) (l : Fin 128) :
    (V m c main_v35 : S8192x128.Idx → EReal) (ix2 r l)
      = (m ((c : Thread nD τ).loc main_arg0) : S262144x4.Idx → EReal)
          (ix2 (⟨(128 * r.val + l.val) / 4, by have := r.isLt; have := l.isLt; omega⟩ : Fin 262144)
            (⟨(128 * r.val + l.val) % 4, Nat.mod_lt _ (by decide)⟩ : Fin 4)) := by
  have h := V_v35 m c r l
  unfold mat2 at h
  exact h

/-! ## The two results -/

/-- E_in after the whole program, entry by entry: the decay of the feature times the input. -/
theorem tail_eIn :
    (Pipeline.afterTail₀ cfgs (dats (F := Ideal) m) 0 (V0 m) [hostOps1] c main_v45 : S262144x4.Idx → EReal)
      = fun i => eIn (vec1 (m ((c : Thread nD τ).loc main_arg11) : S4.Idx → EReal))
          (row2 (m ((c : Thread nD τ).loc main_arg0) : S262144x4.Idx → EReal) (i 0)) (i 1) := by
  rw [tailE_raw]
  funext i
  obtain ⟨b, f, rfl⟩ : ∃ (b : Fin 262144) (f : Fin 4), i = ix2 b f := ⟨i 0, i 1, eq_ix2 i⟩
  have hb : b.val < 262144 := b.isLt
  have hf : f.val < 4 := f.isLt
  rw [unpack_apply, packedE_apply, v43_at, v35_at]
  refine eIn_of_places (m ((c : Thread nD τ).loc main_arg11) : S4.Idx → EReal)
    (m ((c : Thread nD τ).loc main_arg0) : S262144x4.Idx → EReal) (ix2 b f) _ _ ?_ ?_ ?_
  · show (4 * b.val + f.val) % 128 % 4 = f.val; omega
  · show (128 * ((4 * b.val + f.val) / 128) + (4 * b.val + f.val) % 128) / 4 = b.val; omega
  · show (128 * ((4 * b.val + f.val) / 128) + (4 * b.val + f.val) % 128) % 4 = f.val; omega

/-- O_in after the whole program, entry by entry: E_in where it reaches the feature's threshold, else zero. -/
theorem tail_oIn :
    (Pipeline.afterTail₀ cfgs (dats (F := Ideal) m) 0 (V0 m) [hostOps1] c main_v46 : S262144x4.Idx → EReal)
      = fun i => oIn (vec1 (m ((c : Thread nD τ).loc main_arg10) : S4.Idx → EReal))
          (vec1 (m ((c : Thread nD τ).loc main_arg11) : S4.Idx → EReal))
          (row2 (m ((c : Thread nD τ).loc main_arg0) : S262144x4.Idx → EReal) (i 0)) (i 1) := by
  rw [tailO_raw]
  funext i
  obtain ⟨b, f, rfl⟩ : ∃ (b : Fin 262144) (f : Fin 4), i = ix2 b f := ⟨i 0, i 1, eq_ix2 i⟩
  have hb : b.val < 262144 := b.isLt
  have hf : f.val < 4 := f.isLt
  rw [unpack_apply, packedO_apply, v43_at, v35_at, v39_at]
  refine oIn_of_places (m ((c : Thread nD τ).loc main_arg10) : S4.Idx → EReal)
    (m ((c : Thread nD τ).loc main_arg11) : S4.Idx → EReal)
    (m ((c : Thread nD τ).loc main_arg0) : S262144x4.Idx → EReal) (ix2 b f) _ _ _ ?_ ?_ ?_ ?_
  · show (4 * b.val + f.val) % 128 % 4 = f.val; omega
  · show (4 * b.val + f.val) % 128 % 4 = f.val; omega
  · show (128 * ((4 * b.val + f.val) / 128) + (4 * b.val + f.val) % 128) / 4 = b.val; omega
  · show (128 * ((4 * b.val + f.val) / 128) + (4 * b.val + f.val) % 128) % 4 = f.val; omega

end Cert.KernelIdeal.InValue

end
-- ==== Proof.RefValueOuter.lean ====
/-
  The reference program's input-layer and output-layer results, read at an index, are the network's
  formulas: every broadcast of a per-feature vector reads that vector at the feature coordinate, the
  contraction with the output weights is the sum over the 64 hidden units, and each `where` is one select
  between the internal state and the zero.
-/
import proofs.«173613_j2894807958278_2_alg».proof.Proof.Gen.ReferenceIdeal.Read
import proofs.«173613_j2894807958278_2_alg».proof.Proof.Neuron

noncomputable section

open scoped BigOperators

namespace Cert.ReferenceIdeal.RefValue

open Cert.ReferenceIdeal Cert.ReferenceIdeal.Read Cert.Neuron Idealize.ShloMosaic Idealize.ShloMosaic.ValueIdx

/-! ## Input layer -/

/-- The internal state of the input layer: the decay factor of the feature times the sensory entry. -/
theorem eIn_eq (x0 : (⟨S262144x4, .f32⟩ : BufTy).Contents (Elt Ideal))
    (x11 : (⟨S4, .f32⟩ : BufTy).Contents (Elt Ideal)) (i : S262144x4.Idx) :
    val_main_v2 (F := Ideal) x0 x11 i = eIn (vec1 x11) (row2 x0 (i 0)) (i 1) := by
  have e1 : idx_main_v0 (idx_main_v1 i) = ix1 (i 1) :=
    funext fun a => Fin.ext (by match a with | ⟨0, _⟩ => rfl)
  rw [val_main_v2_apply, val_main_v1_apply, val_main_v0_apply]
  simp only [e1, Ideal.mulf_def]
  conv_lhs => rw [eq_ix2 i]
  rfl

/-- The output of the input layer: the internal state where it reaches the feature's threshold, else zero. -/
theorem oIn_eq (x0 : (⟨S262144x4, .f32⟩ : BufTy).Contents (Elt Ideal))
    (x10 x11 : (⟨S4, .f32⟩ : BufTy).Contents (Elt Ideal)) (i : S262144x4.Idx) :
    val_main_v7 (F := Ideal) x0 x10 x11 i = oIn (vec1 x10) (vec1 x11) (row2 x0 (i 0)) (i 1) := by
  have e1 : idx_main_v3 (idx_main_v4 i) = ix1 (i 1) :=
    funext fun a => Fin.ext (by match a with | ⟨0, _⟩ => rfl)
  rw [val_main_v7_apply, val_main_v5_apply, val_main_v6_apply, val_main_cst_apply, val_main_v4_apply,
    val_main_v3_apply, eIn_eq]
  simp only [e1]
  rfl

/-! ## Output layer -/

/-- The internal state of the output layer: the decayed previous state plus the weighted hidden outputs. -/
theorem eOut_eq (x2 : (⟨S262144x64, .f32⟩ : BufTy).Contents (Elt Ideal))
    (x3 : (⟨S262144x8, .f32⟩ : BufTy).Contents (Elt Ideal))
    (x8 : (⟨S64x8, .f32⟩ : BufTy).Contents (Elt Ideal))
    (x15 : (⟨S8, .f32⟩ : BufTy).Contents (Elt Ideal)) (i : S262144x8.Idx) :
    val_main_v99 (F := Ideal) x2 x3 x8 x15 i
      = eOut (vec1 x15) (mat2 (val_main_v94 (F := Ideal) x8)) (row2 x3 (i 0)) (row2 x2 (i 0)) (i 1) := by
  have e1 : idx_main_v96 (idx_main_v97 i) = ix1 (i 1) :=
    funext fun a => Fin.ext (by match a with | ⟨0, _⟩ => rfl)
  have e2 : ∀ k : Fin 64, lidx_main_v95 i k = ix2 (i 0) k := fun k =>
    funext fun a => Fin.ext (by match a with | ⟨0, _⟩ => rfl | ⟨1, _⟩ => rfl)
  have e3 : ∀ k : Fin 64, ridx_main_v95 i k = ix2 k (i 1) := fun k =>
    funext fun a => Fin.ext (by match a with | ⟨0, _⟩ => rfl | ⟨1, _⟩ => rfl)
  rw [val_main_v99_apply, val_main_v98_apply, val_main_v97_apply, val_main_v96_apply, val_main_v95_apply]
  simp only [e1, e2, e3, Ideal.addf_def, Ideal.mulf_def]
  conv_lhs => rw [eq_ix2 i]
  rfl

/-- The output of the output layer: the internal state where it reaches the unit's threshold, else zero. -/
theorem oOut_eq (x2 : (⟨S262144x64, .f32⟩ : BufTy).Contents (Elt Ideal))
    (x3 : (⟨S262144x8, .f32⟩ : BufTy).Contents (Elt Ideal))
    (x8 : (⟨S64x8, .f32⟩ : BufTy).Contents (Elt Ideal))
    (x14 x15 : (⟨S8, .f32⟩ : BufTy).Contents (Elt Ideal)) (i : S262144x8.Idx) :
    val_main_v104 (F := Ideal) x2 x3 x8 x14 x15 i
      = oOut (vec1 x14) (vec1 x15) (mat2 (val_main_v94 (F := Ideal) x8)) (row2 x3 (i 0)) (row2 x2 (i 0)) (i 1) := by
  have e1 : idx_main_v100 (idx_main_v101 i) = ix1 (i 1) :=
    funext fun a => Fin.ext (by match a with | ⟨0, _⟩ => rfl)
  rw [val_main_v104_apply, val_main_v102_apply, val_main_v103_apply, val_main_cst_11_apply, val_main_v101_apply,
    val_main_v100_apply, eOut_eq]
  simp only [e1]
  rfl

/-- The action: the hyperbolic tangent of the output layer's internal state. -/
theorem action_eq (x2 : (⟨S262144x64, .f32⟩ : BufTy).Contents (Elt Ideal))
    (x3 : (⟨S262144x8, .f32⟩ : BufTy).Contents (Elt Ideal))
    (x8 : (⟨S64x8, .f32⟩ : BufTy).Contents (Elt Ideal))
    (x15 : (⟨S8, .f32⟩ : BufTy).Contents (Elt Ideal)) (i : S262144x8.Idx) :
    val_main_v105 (F := Ideal) x2 x3 x8 x15 i
      = action (vec1 x15) (mat2 (val_main_v94 (F := Ideal) x8)) (row2 x3 (i 0)) (row2 x2 (i 0)) (i 1) := by
  rw [val_main_v105_apply, eOut_eq, Ideal.hostUnary_tanh_def]
  rfl

end Cert.ReferenceIdeal.RefValue

end
-- ==== Proof.RefValueHidden.lean ====
/-
  The reference program's hidden-layer results, read at an index, are the four steps of the leaky
  threshold neuron of `Neuron`. The drive is computed once: minus the sensory row against the inhibitory
  matrix, plus the previous hidden outputs against the recurrent matrix, plus the sensory row against the
  gap-junction matrix, each a sum over the contracted coordinate. Each step multiplies the previous state
  by the decay vector, adds the drive, and subtracts the previous state times the degree vector; all three
  terms are read in the entry's own batch row, so a row of the state after a step is `step` of the row before.
  The matrices and the degree vector stay as the program's own stages.
-/
import proofs.«173613_j2894807958278_2_alg».proof.Proof.Gen.ReferenceIdeal.Read
import proofs.«173613_j2894807958278_2_alg».proof.Proof.Neuron

noncomputable section

open scoped BigOperators

namespace Cert.ReferenceIdeal.RefValue

open Cert.ReferenceIdeal Cert.ReferenceIdeal.Read Cert.Neuron Idealize.ShloMosaic Idealize.ShloMosaic.ValueIdx

/-! ## The drive -/

/-- The drive at an index: the three contractions, each over the row of its left operand. -/
theorem drive_eq (x0 : (⟨S262144x4, .f32⟩ : BufTy).Contents (Elt Ideal)) (x2 : (⟨S262144x64, .f32⟩ : BufTy).Contents (Elt Ideal))
    (x5 : (⟨S4x64, .f32⟩ : BufTy).Contents (Elt Ideal)) (x6 x7 : (⟨S64x64, .f32⟩ : BufTy).Contents (Elt Ideal))
    (x9 : (⟨S128, .f32⟩ : BufTy).Contents (Elt Ideal)) (x16 x17 : (⟨S128, .i32⟩ : BufTy).Contents (Elt Ideal)) (i : S262144x64.Idx) :
    val_main_v41 (F := Ideal) x0 x2 x5 x6 x7 x9 x16 x17 i
      = drive (mat2 (val_main_v8 (F := Ideal) x5)) (mat2 (val_main_v30 (F := Ideal) x9 x16 x17))
          (mat2 (val_main_v13 (F := Ideal) x6 x7))
          (row2 x0 (i 0)) (row2 x2 (i 0)) (i 1) := by
  have l9 : ∀ k : Fin 4, lidx_main_v9 i k = ix2 (i 0) k := fun k =>
    funext fun a => Fin.ext (by match a with | ⟨0, _⟩ => rfl | ⟨1, _⟩ => rfl)
  have r9 : ∀ k : Fin 4, ridx_main_v9 i k = ix2 k (i 1) := fun k =>
    funext fun a => Fin.ext (by match a with | ⟨0, _⟩ => rfl | ⟨1, _⟩ => rfl)
  have l14 : ∀ k : Fin 64, lidx_main_v14 i k = ix2 (i 0) k := fun k =>
    funext fun a => Fin.ext (by match a with | ⟨0, _⟩ => rfl | ⟨1, _⟩ => rfl)
  have r14 : ∀ k : Fin 64, ridx_main_v14 i k = ix2 k (i 1) := fun k =>
    funext fun a => Fin.ext (by match a with | ⟨0, _⟩ => rfl | ⟨1, _⟩ => rfl)
  have l39 : ∀ k : Fin 4, lidx_main_v39 i k = ix2 (i 0) k := fun k =>
    funext fun a => Fin.ext (by match a with | ⟨0, _⟩ => rfl | ⟨1, _⟩ => rfl)
  have r39 : ∀ k : Fin 4, ridx_main_v39 i k = ix2 k (i 1) := fun k =>
    funext fun a => Fin.ext (by match a with | ⟨0, _⟩ => rfl | ⟨1, _⟩ => rfl)
  rw [val_main_v41_apply, val_main_v40_apply, val_main_v10_apply, val_main_v9_apply, val_main_v14_apply,
    val_main_v39_apply]
  simp only [l9, r9, l14, r14, l39, r39, Ideal.addf_def, Ideal.hostNegf_def, Ideal.negf_def]
  rfl

/-- Row `b` of the drive. -/
theorem drive_row (x0 : (⟨S262144x4, .f32⟩ : BufTy).Contents (Elt Ideal)) (x2 : (⟨S262144x64, .f32⟩ : BufTy).Contents (Elt Ideal))
    (x5 : (⟨S4x64, .f32⟩ : BufTy).Contents (Elt Ideal)) (x6 x7 : (⟨S64x64, .f32⟩ : BufTy).Contents (Elt Ideal))
    (x9 : (⟨S128, .f32⟩ : BufTy).Contents (Elt Ideal)) (x16 x17 : (⟨S128, .i32⟩ : BufTy).Contents (Elt Ideal)) (b : Fin 262144) :
    row2 (val_main_v41 (F := Ideal) x0 x2 x5 x6 x7 x9 x16 x17) b
      = drive (mat2 (val_main_v8 (F := Ideal) x5)) (mat2 (val_main_v30 (F := Ideal) x9 x16 x17))
          (mat2 (val_main_v13 (F := Ideal) x6 x7))
          (row2 x0 b) (row2 x2 b) :=
  funext fun f => drive_eq x0 x2 x5 x6 x7 x9 x16 x17 (ix2 b f)

/-! ## The four steps -/

/-- The first step at an index: the decayed state plus the drive minus the gap-junction leak, all read in
the entry's own batch row. -/
theorem step1_eq (x0 : (⟨S262144x4, .f32⟩ : BufTy).Contents (Elt Ideal)) (x1 x2 : (⟨S262144x64, .f32⟩ : BufTy).Contents (Elt Ideal))
    (x5 : (⟨S4x64, .f32⟩ : BufTy).Contents (Elt Ideal)) (x6 x7 : (⟨S64x64, .f32⟩ : BufTy).Contents (Elt Ideal))
    (x9 : (⟨S128, .f32⟩ : BufTy).Contents (Elt Ideal)) (x13 : (⟨S64, .f32⟩ : BufTy).Contents (Elt Ideal))
    (x16 x17 : (⟨S128, .i32⟩ : BufTy).Contents (Elt Ideal)) (i : S262144x64.Idx) :
    val_main_v49 (F := Ideal) x0 x1 x2 x5 x6 x7 x9 x13 x16 x17 i
      = step (vec1 x13) (vec1 (val_main_v38 (F := Ideal) x9 x17))
          (row2 (val_main_v41 (F := Ideal) x0 x2 x5 x6 x7 x9 x16 x17) (i 0)) (row2 x1 (i 0)) (i 1) := by
  have e1 : idx_main_v42 (idx_main_v43 i) = ix1 (i 1) :=
    funext fun a => Fin.ext (by match a with | ⟨0, _⟩ => rfl)
  have e2 : idx_main_v46 (idx_main_v47 i) = ix1 (i 1) :=
    funext fun a => Fin.ext (by match a with | ⟨0, _⟩ => rfl)
  rw [val_main_v49_apply, val_main_v45_apply, val_main_v44_apply, val_main_v43_apply, val_main_v42_apply,
    val_main_v48_apply, val_main_v47_apply, val_main_v46_apply]
  simp only [e1, e2, Ideal.addf_def, Ideal.mulf_def, Ideal.subf_def]
  conv_lhs => rw [eq_ix2 i]
  rfl

/-- Row `b` of the state after the first step. -/
theorem step1_row (x0 : (⟨S262144x4, .f32⟩ : BufTy).Contents (Elt Ideal)) (x1 x2 : (⟨S262144x64, .f32⟩ : BufTy).Contents (Elt Ideal))
    (x5 : (⟨S4x64, .f32⟩ : BufTy).Contents (Elt Ideal)) (x6 x7 : (⟨S64x64, .f32⟩ : BufTy).Contents (Elt Ideal))
    (x9 : (⟨S128, .f32⟩ : BufTy).Contents (Elt Ideal)) (x13 : (⟨S64, .f32⟩ : BufTy).Contents (Elt Ideal))
    (x16 x17 : (⟨S128, .i32⟩ : BufTy).Contents (Elt Ideal)) (b : Fin 262144) :
    row2 (val_main_v49 (F := Ideal) x0 x1 x2 x5 x6 x7 x9 x13 x16 x17) b
      = step (vec1 x13) (vec1 (val_main_v38 (F := Ideal) x9 x17))
          (row2 (val_main_v41 (F := Ideal) x0 x2 x5 x6 x7 x9 x16 x17) b) (row2 x1 b) :=
  funext fun f => step1_eq x0 x1 x2 x5 x6 x7 x9 x13 x16 x17 (ix2 b f)

/-- The second step at an index: the decayed state plus the drive minus the gap-junction leak, all read in
the entry's own batch row. -/
theorem step2_eq (x0 : (⟨S262144x4, .f32⟩ : BufTy).Contents (Elt Ideal)) (x1 x2 : (⟨S262144x64, .f32⟩ : BufTy).Contents (Elt Ideal))
    (x5 : (⟨S4x64, .f32⟩ : BufTy).Contents (Elt Ideal)) (x6 x7 : (⟨S64x64, .f32⟩ : BufTy).Contents (Elt Ideal))
    (x9 : (⟨S128, .f32⟩ : BufTy).Contents (Elt Ideal)) (x13 : (⟨S64, .f32⟩ : BufTy).Contents (Elt Ideal))
    (x16 x17 : (⟨S128, .i32⟩ : BufTy).Contents (Elt Ideal)) (i : S262144x64.Idx) :
    val_main_v62 (F := Ideal) x0 x1 x2 x5 x6 x7 x9 x13 x16 x17 i
      = step (vec1 x13) (vec1 (val_main_v38 (F := Ideal) x9 x17))
          (row2 (val_main_v41 (F := Ideal) x0 x2 x5 x6 x7 x9 x16 x17) (i 0)) (row2 (val_main_v49 (F := Ideal) x0 x1 x2 x5 x6 x7 x9 x13 x16 x17) (i 0)) (i 1) := by
  have e1 : idx_main_v55 (idx_main_v56 i) = ix1 (i 1) :=
    funext fun a => Fin.ext (by match a with | ⟨0, _⟩ => rfl)
  have e2 : idx_main_v59 (idx_main_v60 i) = ix1 (i 1) :=
    funext fun a => Fin.ext (by match a with | ⟨0, _⟩ => rfl)
  rw [val_main_v62_apply, val_main_v58_apply, val_main_v57_apply, val_main_v56_apply, val_main_v55_apply,
    val_main_v61_apply, val_main_v60_apply, val_main_v59_apply]
  simp only [e1, e2, Ideal.addf_def, Ideal.mulf_def, Ideal.subf_def]
  conv_lhs => rw [eq_ix2 i]
  rfl

/-- Row `b` of the state after the second step. -/
theorem step2_row (x0 : (⟨S262144x4, .f32⟩ : BufTy).Contents (Elt Ideal)) (x1 x2 : (⟨S262144x64, .f32⟩ : BufTy).Contents (Elt Ideal))
    (x5 : (⟨S4x64, .f32⟩ : BufTy).Contents (Elt Ideal)) (x6 x7 : (⟨S64x64, .f32⟩ : BufTy).Contents (Elt Ideal))
    (x9 : (⟨S128, .f32⟩ : BufTy).Contents (Elt Ideal)) (x13 : (⟨S64, .f32⟩ : BufTy).Contents (Elt Ideal))
    (x16 x17 : (⟨S128, .i32⟩ : BufTy).Contents (Elt Ideal)) (b : Fin 262144) :
    row2 (val_main_v62 (F := Ideal) x0 x1 x2 x5 x6 x7 x9 x13 x16 x17) b
      = step (vec1 x13) (vec1 (val_main_v38 (F := Ideal) x9 x17))
          (row2 (val_main_v41 (F := Ideal) x0 x2 x5 x6 x7 x9 x16 x17) b) (row2 (val_main_v49 (F := Ideal) x0 x1 x2 x5 x6 x7 x9 x13 x16 x17) b) :=
  funext fun f => step2_eq x0 x1 x2 x5 x6 x7 x9 x13 x16 x17 (ix2 b f)

/-- The third step at an index: the decayed state plus the drive minus the gap-junction leak, all read in
the entry's own batch row. -/
theorem step3_eq (x0 : (⟨S262144x4, .f32⟩ : BufTy).Contents (Elt Ideal)) (x1 x2 : (⟨S262144x64, .f32⟩ : BufTy).Contents (Elt Ideal))
    (x5 : (⟨S4x64, .f32⟩ : BufTy).Contents (Elt Ideal)) (x6 x7 : (⟨S64x64, .f32⟩ : BufTy).Contents (Elt Ideal))
    (x9 : (⟨S128, .f32⟩ : BufTy).Contents (Elt Ideal)) (x13 : (⟨S64, .f32⟩ : BufTy).Contents (Elt Ideal))
    (x16 x17 : (⟨S128, .i32⟩ : BufTy).Contents (Elt Ideal)) (i : S262144x64.Idx) :
    val_main_v75 (F := Ideal) x0 x1 x2 x5 x6 x7 x9 x13 x16 x17 i
      = step (vec1 x13) (vec1 (val_main_v38 (F := Ideal) x9 x17))
          (row2 (val_main_v41 (F := Ideal) x0 x2 x5 x6 x7 x9 x16 x17) (i 0)) (row2 (val_main_v62 (F := Ideal) x0 x1 x2 x5 x6 x7 x9 x13 x16 x17) (i 0)) (i 1) := by
  have e1 : idx_main_v68 (idx_main_v69 i) = ix1 (i 1) :=
    funext fun a => Fin.ext (by match a with | ⟨0, _⟩ => rfl)
  have e2 : idx_main_v72 (idx_main_v73 i) = ix1 (i 1) :=
    funext fun a => Fin.ext (by match a with | ⟨0, _⟩ => rfl)
  rw [val_main_v75_apply, val_main_v71_apply, val_main_v70_apply, val_main_v69_apply, val_main_v68_apply,
    val_main_v74_apply, val_main_v73_apply, val_main_v72_apply]
  simp only [e1, e2, Ideal.addf_def, Ideal.mulf_def, Ideal.subf_def]
  conv_lhs => rw [eq_ix2 i]
  rfl

/-- Row `b` of the state after the third step. -/
theorem step3_row (x0 : (⟨S262144x4, .f32⟩ : BufTy).Contents (Elt Ideal)) (x1 x2 : (⟨S262144x64, .f32⟩ : BufTy).Contents (Elt Ideal))
    (x5 : (⟨S4x64, .f32⟩ : BufTy).Contents (Elt Ideal)) (x6 x7 : (⟨S64x64, .f32⟩ : BufTy).Contents (Elt Ideal))
    (x9 : (⟨S128, .f32⟩ : BufTy).Contents (Elt Ideal)) (x13 : (⟨S64, .f32⟩ : BufTy).Contents (Elt Ideal))
    (x16 x17 : (⟨S128, .i32⟩ : BufTy).Contents (Elt Ideal)) (b : Fin 262144) :
    row2 (val_main_v75 (F := Ideal) x0 x1 x2 x5 x6 x7 x9 x13 x16 x17) b
      = step (vec1 x13) (vec1 (val_main_v38 (F := Ideal) x9 x17))
          (row2 (val_main_v41 (F := Ideal) x0 x2 x5 x6 x7 x9 x16 x17) b) (row2 (val_main_v62 (F := Ideal) x0 x1 x2 x5 x6 x7 x9 x13 x16 x17) b) :=
  funext fun f => step3_eq x0 x1 x2 x5 x6 x7 x9 x13 x16 x17 (ix2 b f)

/-- The fourth step at an index: the decayed state plus the drive minus the gap-junction leak, all read in
the entry's own batch row. -/
theorem step4_eq (x0 : (⟨S262144x4, .f32⟩ : BufTy).Contents (Elt Ideal)) (x1 x2 : (⟨S262144x64, .f32⟩ : BufTy).Contents (Elt Ideal))
    (x5 : (⟨S4x64, .f32⟩ : BufTy).Contents (Elt Ideal)) (x6 x7 : (⟨S64x64, .f32⟩ : BufTy).Contents (Elt Ideal))
    (x9 : (⟨S128, .f32⟩ : BufTy).Contents (Elt Ideal)) (x13 : (⟨S64, .f32⟩ : BufTy).Contents (Elt Ideal))
    (x16 x17 : (⟨S128, .i32⟩ : BufTy).Contents (Elt Ideal)) (i : S262144x64.Idx) :
    val_main_v88 (F := Ideal) x0 x1 x2 x5 x6 x7 x9 x13 x16 x17 i
      = step (vec1 x13) (vec1 (val_main_v38 (F := Ideal) x9 x17))
          (row2 (val_main_v41 (F := Ideal) x0 x2 x5 x6 x7 x9 x16 x17) (i 0)) (row2 (val_main_v75 (F := Ideal) x0 x1 x2 x5 x6 x7 x9 x13 x16 x17) (i 0)) (i 1) := by
  have e1 : idx_main_v81 (idx_main_v82 i) = ix1 (i 1) :=
    funext fun a => Fin.ext (by match a with | ⟨0, _⟩ => rfl)
  have e2 : idx_main_v85 (idx_main_v86 i) = ix1 (i 1) :=
    funext fun a => Fin.ext (by match a with | ⟨0, _⟩ => rfl)
  rw [val_main_v88_apply, val_main_v84_apply, val_main_v83_apply, val_main_v82_apply, val_main_v81_apply,
    val_main_v87_apply, val_main_v86_apply, val_main_v85_apply]
  simp only [e1, e2, Ideal.addf_def, Ideal.mulf_def, Ideal.subf_def]
  conv_lhs => rw [eq_ix2 i]
  rfl

/-- Row `b` of the state after the fourth step. -/
theorem step4_row (x0 : (⟨S262144x4, .f32⟩ : BufTy).Contents (Elt Ideal)) (x1 x2 : (⟨S262144x64, .f32⟩ : BufTy).Contents (Elt Ideal))
    (x5 : (⟨S4x64, .f32⟩ : BufTy).Contents (Elt Ideal)) (x6 x7 : (⟨S64x64, .f32⟩ : BufTy).Contents (Elt Ideal))
    (x9 : (⟨S128, .f32⟩ : BufTy).Contents (Elt Ideal)) (x13 : (⟨S64, .f32⟩ : BufTy).Contents (Elt Ideal))
    (x16 x17 : (⟨S128, .i32⟩ : BufTy).Contents (Elt Ideal)) (b : Fin 262144) :
    row2 (val_main_v88 (F := Ideal) x0 x1 x2 x5 x6 x7 x9 x13 x16 x17) b
      = step (vec1 x13) (vec1 (val_main_v38 (F := Ideal) x9 x17))
          (row2 (val_main_v41 (F := Ideal) x0 x2 x5 x6 x7 x9 x16 x17) b) (row2 (val_main_v75 (F := Ideal) x0 x1 x2 x5 x6 x7 x9 x13 x16 x17) b) :=
  funext fun f => step4_eq x0 x1 x2 x5 x6 x7 x9 x13 x16 x17 (ix2 b f)

/-! ## The hidden layer -/

/-- The hidden state after the four steps. -/
theorem eHid_eq (x0 : (⟨S262144x4, .f32⟩ : BufTy).Contents (Elt Ideal)) (x1 x2 : (⟨S262144x64, .f32⟩ : BufTy).Contents (Elt Ideal))
    (x5 : (⟨S4x64, .f32⟩ : BufTy).Contents (Elt Ideal)) (x6 x7 : (⟨S64x64, .f32⟩ : BufTy).Contents (Elt Ideal))
    (x9 : (⟨S128, .f32⟩ : BufTy).Contents (Elt Ideal)) (x13 : (⟨S64, .f32⟩ : BufTy).Contents (Elt Ideal))
    (x16 x17 : (⟨S128, .i32⟩ : BufTy).Contents (Elt Ideal)) (i : S262144x64.Idx) :
    val_main_v88 (F := Ideal) x0 x1 x2 x5 x6 x7 x9 x13 x16 x17 i
      = eHid (vec1 x13) (vec1 (val_main_v38 (F := Ideal) x9 x17))
          (mat2 (val_main_v8 (F := Ideal) x5)) (mat2 (val_main_v30 (F := Ideal) x9 x16 x17))
          (mat2 (val_main_v13 (F := Ideal) x6 x7))
          (row2 x0 (i 0)) (row2 x1 (i 0)) (row2 x2 (i 0)) (i 1) := by
  rw [step4_eq, step3_row x0 x1 x2 x5 x6 x7 x9 x13 x16 x17 (i 0), step2_row x0 x1 x2 x5 x6 x7 x9 x13 x16 x17 (i 0),
    step1_row x0 x1 x2 x5 x6 x7 x9 x13 x16 x17 (i 0), drive_row x0 x2 x5 x6 x7 x9 x16 x17 (i 0)]
  rfl

/-- The hidden output: the state after the four steps where it reaches the unit's threshold, else zero. -/
theorem oHid_eq (x0 : (⟨S262144x4, .f32⟩ : BufTy).Contents (Elt Ideal)) (x1 x2 : (⟨S262144x64, .f32⟩ : BufTy).Contents (Elt Ideal))
    (x5 : (⟨S4x64, .f32⟩ : BufTy).Contents (Elt Ideal)) (x6 x7 : (⟨S64x64, .f32⟩ : BufTy).Contents (Elt Ideal))
    (x9 : (⟨S128, .f32⟩ : BufTy).Contents (Elt Ideal)) (x12 x13 : (⟨S64, .f32⟩ : BufTy).Contents (Elt Ideal))
    (x16 x17 : (⟨S128, .i32⟩ : BufTy).Contents (Elt Ideal)) (i : S262144x64.Idx) :
    val_main_v93 (F := Ideal) x0 x1 x2 x5 x6 x7 x9 x12 x13 x16 x17 i
      = oHid (vec1 x12) (vec1 x13) (vec1 (val_main_v38 (F := Ideal) x9 x17))
          (mat2 (val_main_v8 (F := Ideal) x5)) (mat2 (val_main_v30 (F := Ideal) x9 x16 x17))
          (mat2 (val_main_v13 (F := Ideal) x6 x7))
          (row2 x0 (i 0)) (row2 x1 (i 0)) (row2 x2 (i 0)) (i 1) := by
  have e1 : idx_main_v89 (idx_main_v90 i) = ix1 (i 1) :=
    funext fun a => Fin.ext (by match a with | ⟨0, _⟩ => rfl)
  rw [val_main_v93_apply, val_main_v91_apply, val_main_v92_apply, val_main_cst_10_apply, val_main_v90_apply,
    val_main_v89_apply, eHid_eq]
  simp only [e1]
  rfl

end Cert.ReferenceIdeal.RefValue

end
-- ==== Proof.Assemble.lean ====
/-
  The two idealized programs end at the same seven arrays.

  The seven results are stated once, as functions of the argument arrays over Proof/Neuron.lean's per-row
  mathematics (`gAction`, `gEin`, `gOin`, `gEhid`, `gOhid`, `gEout`, `gOout`); the parameter arrays both
  programs compute on the host (softplus of the weight matrices, the two scatter-added sums) enter as the
  reference's own stages, which the kernel's host lines reproduce term for term.

  Kernel side: each output window's array after the run is the function its blocks tile (the block modules);
  what the region finds in its parameter windows is read off the host lines before it; for the hidden layer the
  kernel's folded arrangement is turned into the reference's by `hidden_fold`, whose realness hypotheses come
  from the precondition. The two input-layer results additionally pass through the host's unpacking after the
  region. Reference side: the generated run's terms are the generated stages, read at an index in
  Proof/RefValueOuter.lean and Proof/RefValueHidden.lean, and the memories agree on the arguments.
-/
import proofs.«173613_j2894807958278_2_alg».proof.Defs
import proofs.«173613_j2894807958278_2_alg».proof.Proof.Gen.KernelIdeal.Frame
import proofs.«173613_j2894807958278_2_alg».proof.Proof.Gen.ReferenceIdeal.Read
import proofs.«173613_j2894807958278_2_alg».proof.Proof.Gen.Pre_finite_inputs
import proofs.«173613_j2894807958278_2_alg».proof.Proof.Gen.KernelIdeal
import proofs.«173613_j2894807958278_2_alg».proof.Proof.Gen.ReferenceIdeal
import proofs.«173613_j2894807958278_2_alg».proof.Proof.NeuronFold
import proofs.«173613_j2894807958278_2_alg».proof.Proof.PreReal
import proofs.«173613_j2894807958278_2_alg».proof.Proof.ParamsReal
import proofs.«173613_j2894807958278_2_alg».proof.Proof.HostParams
import proofs.«173613_j2894807958278_2_alg».proof.Proof.KernelOut
import proofs.«173613_j2894807958278_2_alg».proof.Proof.KernelHiddenState
import proofs.«173613_j2894807958278_2_alg».proof.Proof.KernelHiddenOut
import proofs.«173613_j2894807958278_2_alg».proof.Proof.KernelIn
import proofs.«173613_j2894807958278_2_alg».proof.Proof.RefValueOuter
import proofs.«173613_j2894807958278_2_alg».proof.Proof.RefValueHidden

set_option maxRecDepth 16384

noncomputable section

open Idealize.ShloMosaic Idealize.ShloMosaic.TcCoe Idealize.SL.Sem Idealize.ShloMosaic.ValueIdx

/-! ## The argument arrays and the seven results as functions of them -/

namespace Cert.Assemble

open Cert.KernelIdeal Cert.KernelIdeal.Gen Cert.Neuron

abbrev R8 := @Cert.ReferenceIdeal.Read.val_main_v8 Ideal _
abbrev R13 := @Cert.ReferenceIdeal.Read.val_main_v13 Ideal _
abbrev R30 := @Cert.ReferenceIdeal.Read.val_main_v30 Ideal _
abbrev R38 := @Cert.ReferenceIdeal.Read.val_main_v38 Ideal _
abbrev R94 := @Cert.ReferenceIdeal.Read.val_main_v94 Ideal _

variable (m : (ℓ : Loc nD τ sig) → Buf (Elt Ideal) ℓ) (c : Dev nD)

abbrev a0 : S262144x4.Idx → EReal := (m ((c : Thread nD τ).loc main_arg0))
abbrev a1 : S262144x64.Idx → EReal := (m ((c : Thread nD τ).loc main_arg1))
abbrev a2 : S262144x64.Idx → EReal := (m ((c : Thread nD τ).loc main_arg2))
abbrev a3 : S262144x8.Idx → EReal := (m ((c : Thread nD τ).loc main_arg3))
abbrev a5 : S4x64.Idx → EReal := (m ((c : Thread nD τ).loc main_arg5))
abbrev a6 : S64x64.Idx → EReal := (m ((c : Thread nD τ).loc main_arg6))
abbrev a7 : S64x64.Idx → EReal := (m ((c : Thread nD τ).loc main_arg7))
abbrev a8 : S64x8.Idx → EReal := (m ((c : Thread nD τ).loc main_arg8))
abbrev a9 : S128.Idx → EReal := (m ((c : Thread nD τ).loc main_arg9))
abbrev a10 : S4.Idx → EReal := (m ((c : Thread nD τ).loc main_arg10))
abbrev a11 : S4.Idx → EReal := (m ((c : Thread nD τ).loc main_arg11))
abbrev a12 : S64.Idx → EReal := (m ((c : Thread nD τ).loc main_arg12))
abbrev a13 : S64.Idx → EReal := (m ((c : Thread nD τ).loc main_arg13))
abbrev a14 : S8.Idx → EReal := (m ((c : Thread nD τ).loc main_arg14))
abbrev a15 : S8.Idx → EReal := (m ((c : Thread nD τ).loc main_arg15))
abbrev a16 : S128.Idx → BitVec 32 := (m ((c : Thread nD τ).loc main_arg16))
abbrev a17 : S128.Idx → BitVec 32 := (m ((c : Thread nD τ).loc main_arg17))

/-- The motor command: tanh of the output layer's internal state. -/
def gAction : S262144x8.Idx → EReal := fun i =>
  action (vec1 (a15 m c)) (mat2 (R94 (a8 m c))) (row2 (a3 m c) (i 0)) (row2 (a2 m c) (i 0)) (i 1)
/-- The input layer's internal state and output. -/
def gEin : S262144x4.Idx → EReal := fun i => eIn (vec1 (a11 m c)) (row2 (a0 m c) (i 0)) (i 1)
def gOin : S262144x4.Idx → EReal := fun i => oIn (vec1 (a10 m c)) (vec1 (a11 m c)) (row2 (a0 m c) (i 0)) (i 1)
/-- The hidden layer's internal state after the four steps, and its output. -/
def gEhid : S262144x64.Idx → EReal := fun i =>
  eHid (vec1 (a13 m c)) (vec1 (R38 (a9 m c) (a17 m c))) (mat2 (R8 (a5 m c))) (mat2 (R30 (a9 m c) (a16 m c) (a17 m c)))
    (mat2 (R13 (a6 m c) (a7 m c))) (row2 (a0 m c) (i 0)) (row2 (a1 m c) (i 0)) (row2 (a2 m c) (i 0)) (i 1)
def gOhid : S262144x64.Idx → EReal := fun i =>
  oHid (vec1 (a12 m c)) (vec1 (a13 m c)) (vec1 (R38 (a9 m c) (a17 m c))) (mat2 (R8 (a5 m c))) (mat2 (R30 (a9 m c) (a16 m c) (a17 m c)))
    (mat2 (R13 (a6 m c) (a7 m c))) (row2 (a0 m c) (i 0)) (row2 (a1 m c) (i 0)) (row2 (a2 m c) (i 0)) (i 1)
/-- The output layer's internal state and output. -/
def gEout : S262144x8.Idx → EReal := fun i =>
  eOut (vec1 (a15 m c)) (mat2 (R94 (a8 m c))) (row2 (a3 m c) (i 0)) (row2 (a2 m c) (i 0)) (i 1)
def gOout : S262144x8.Idx → EReal := fun i =>
  oOut (vec1 (a14 m c)) (vec1 (a15 m c)) (mat2 (R94 (a8 m c))) (row2 (a3 m c) (i 0)) (row2 (a2 m c) (i 0)) (i 1)

/-! ## The kernel's arrays after the run -/

open Cert.KernelIdeal.BlockValue Cert.KernelIdeal.HostValue Cert.KernelIdeal.InValue

theorem dec_out_eq : row2 (V m c main_v33 : S1x8.Idx → EReal) 0 = vec1 (a15 m c) := funext fun o => V_dec_out m c o
theorem th_out_eq : row2 (V m c main_v32 : S1x8.Idx → EReal) 0 = vec1 (a14 m c) := funext fun o => V_th_out m c o
theorem th_hid_eq : row2 (V m c main_v30 : S1x64.Idx → EReal) 0 = vec1 (a12 m c) := funext fun j => V_th_hid m c j

theorem k20 : (dats (F := Ideal) m 0 c).arrAt 20 cfg0.N = gEout m c := by
  rw [arr20]; unfold gEout; funext i
  rw [dec_out_eq, V_h2o_ref, V_main_arg3, V_main_arg2]
theorem k21 : (dats (F := Ideal) m 0 c).arrAt 21 cfg0.N = gOout m c := by
  rw [arr21]; unfold gOout; funext i
  rw [dec_out_eq, th_out_eq, V_h2o_ref, V_main_arg3, V_main_arg2]
theorem k15 : (dats (F := Ideal) m 0 c).arrAt 15 cfg0.N = gAction m c := by
  rw [arr15]; unfold gAction; funext i
  rw [dec_out_eq, V_h2o_ref, V_main_arg3, V_main_arg2]

/-- The folded decay factor and input matrix the region finds are the differences of the reference's stages. -/
theorem factor_eq : (fun j => row2 (V m c main_v31 : S1x64.Idx → EReal) 0 j - row2 (V m c main_v34 : S1x64.Idx → EReal) 0 j)
    = fun j => vec1 (a13 m c) j - vec1 (R38 (a9 m c) (a17 m c)) j :=
  funext fun j => by rw [V_deg_ref, V_dec_hid]
theorem inw_eq : mat2 (V m c main_v28 : S4x64.Idx → EReal)
    = fun k j => mat2 (R30 (a9 m c) (a16 m c) (a17 m c)) k j - mat2 (R8 (a5 m c)) k j := by
  rw [V_inw_ref]; rfl

section Real
variable (hpre : Cert.Pre_KernelIdeal (hPre_finite_inputs := Cert.Pre_finite_inputs.Gen.facts) m)
include hpre

theorem k18 : (dats (F := Ideal) m 0 c).arrAt 18 cfg0.N = gEhid m c := by
  rw [arr18]; unfold gEhid; funext i
  rw [factor_eq, inw_eq, V_comb_ref, V_main_arg0, V_main_arg1, V_main_arg2]
  exact congrFun (hidden_fold (fun j => Cert.PreReal.real_arg13 m hpre c _)
    (fun j => Cert.ReferenceIdeal.ParamsReal.real_deg _ _ (Cert.PreReal.real_arg9 m hpre c) _)
    (fun k j => Cert.ReferenceIdeal.ParamsReal.real_P _ (Cert.PreReal.real_arg5 m hpre c) _)
    (fun k j => Cert.ReferenceIdeal.ParamsReal.real_M _ _ _ (Cert.PreReal.real_arg9 m hpre c) _)
    (fun k j => Cert.ReferenceIdeal.ParamsReal.real_C _ _ (Cert.PreReal.real_arg6 m hpre c) (Cert.PreReal.real_arg7 m hpre c) _)
    (fun k => Cert.PreReal.real_arg0 m hpre c _) (fun j => Cert.PreReal.real_arg1 m hpre c _) (fun j => Cert.PreReal.real_arg2 m hpre c _)) (i 1)
theorem k19 : (dats (F := Ideal) m 0 c).arrAt 19 cfg0.N = gOhid m c := by
  rw [arr19]; unfold gOhid; funext i
  rw [th_hid_eq, factor_eq, inw_eq, V_comb_ref, V_main_arg0, V_main_arg1, V_main_arg2]
  exact congrFun (hidden_fold_gate (fun j => Cert.PreReal.real_arg13 m hpre c _)
    (fun j => Cert.ReferenceIdeal.ParamsReal.real_deg _ _ (Cert.PreReal.real_arg9 m hpre c) _)
    (fun k j => Cert.ReferenceIdeal.ParamsReal.real_P _ (Cert.PreReal.real_arg5 m hpre c) _)
    (fun k j => Cert.ReferenceIdeal.ParamsReal.real_M _ _ _ (Cert.PreReal.real_arg9 m hpre c) _)
    (fun k j => Cert.ReferenceIdeal.ParamsReal.real_C _ _ (Cert.PreReal.real_arg6 m hpre c) (Cert.PreReal.real_arg7 m hpre c) _)
    (fun k => Cert.PreReal.real_arg0 m hpre c _) (fun j => Cert.PreReal.real_arg1 m hpre c _) (fun j => Cert.PreReal.real_arg2 m hpre c _)) (i 1)

/-- The kernel's run: the seven results at the specification's functions of the arguments, the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v44_0) = gAction m c
      ∧ r.2.mem ((c.tc : Thread nD τ).loc main_v45) = gEin m c
      ∧ r.2.mem ((c.tc : Thread nD τ).loc main_v46) = gOin m c
      ∧ r.2.mem ((c.tc : Thread nD τ).loc main_v44_3) = gEhid m c
      ∧ r.2.mem ((c.tc : Thread nD τ).loc main_v44_4) = gOhid m c
      ∧ r.2.mem ((c.tc : Thread nD τ).loc main_v44_5) = gEout m c
      ∧ r.2.mem ((c.tc : Thread nD τ).loc main_v44_6) = gOout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 15).trans (k15 m c),
      ((h c).2 main_v45 (Pipeline.mem_restRefs_of main_v45 (by decide) (by decide))).trans (tail_eIn m c),
      ((h c).2 main_v46 (Pipeline.mem_restRefs_of main_v46 (by decide) (by decide))).trans (tail_oIn m c),
      ((h c).1 18).trans (k18 m c hpre), ((h c).1 19).trans (k19 m c hpre), ((h c).1 20).trans (k20 m c), ((h c).1 21).trans (k21 m c),
      ((h c).1 0).trans ((((dats m) 0 c).arrAt_in 0 rfl _).trans ((A_eq m c 0).trans (V_main_arg0 m c))),
      ((h c).1 2).trans ((((dats m) 0 c).arrAt_in 2 rfl _).trans ((A_eq m c 2).trans (V_main_arg1 m c))),
      ((h c).1 3).trans ((((dats m) 0 c).arrAt_in 3 rfl _).trans ((A_eq m c 3).trans (V_main_arg2 m c))),
      ((h c).1 4).trans ((((dats m) 0 c).arrAt_in 4 rfl _).trans ((A_eq m c 4).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c))⟩)
    (run_main m ρ)

end Real

end Cert.Assemble

/-! ## The claim between the two idealized programs -/

namespace Cert.Assemble
open Cert.Neuron Cert.ReferenceIdeal.RefValue

/-- From memories agreeing on the arguments both programs end at the specification's seven functions of the
    arguments: the kernel by its blocks (and, for the hidden layer, the folding law over the reals the
    precondition grants), the reference stage by stage. -/
theorem algebraic : Cert.algebraic_KernelIdeal_ReferenceIdeal := by
  intro m ρ m' ρ' hpre hagree
  refine ⟨gAction m, gEin m, gOin m, gEhid m, gOhid m, gEout m, gOout m, kernel_run m hpre ρ, ?_⟩
  refine (θ_run Cert.ReferenceIdeal.defs _ _).mono (fun r h c => ?_) (Cert.ReferenceIdeal.Value.run (F := Ideal) m' ρ')
  obtain ⟨h0, h1, h2, h3, h4, h5, h6, h7, h8, h9, h10, h11, h12, h13, h14, h15, h16, h17⟩ := hagree c
  obtain ⟨r105, r2, r7, r88, r93, r99, r104, rargs⟩ := h c
  refine ⟨r105.trans ((Cert.ReferenceIdeal.Read.val_main_v105_eq _ _ _ _).trans ?_),
    r2.trans ((Cert.ReferenceIdeal.Read.val_main_v2_eq _ _).trans ?_),
    r7.trans ((Cert.ReferenceIdeal.Read.val_main_v7_eq _ _ _).trans ?_),
    r88.trans ((Cert.ReferenceIdeal.Read.val_main_v88_eq m' c).trans ?_),
    r93.trans ((Cert.ReferenceIdeal.Read.val_main_v93_eq m' c).trans ?_),
    r99.trans ((Cert.ReferenceIdeal.Read.val_main_v99_eq _ _ _ _).trans ?_),
    r104.trans ((Cert.ReferenceIdeal.Read.val_main_v104_eq _ _ _ _ _).trans ?_), rargs⟩
  · rw [h2, h3, h8, h15]; funext i; exact action_eq _ _ _ _ i
  · rw [h0, h11]; funext i; exact eIn_eq _ _ i
  · rw [h0, h10, h11]; funext i; exact oIn_eq _ _ _ i
  · rw [h0, h1, h2, h5, h6, h7, h9, h13, h16, h17]; funext i; exact eHid_eq _ _ _ _ _ _ _ _ _ _ i
  · rw [h0, h1, h2, h5, h6, h7, h9, h12, h13, h16, h17]; funext i; exact oHid_eq _ _ _ _ _ _ _ _ _ _ _ i
  · rw [h2, h3, h8, h15]; funext i; exact eOut_eq _ _ _ _ i
  · rw [h2, h3, h8, h14, h15]; funext i; exact oOut_eq _ _ _ _ _ i

end Cert.Assemble

end
-- ==== Proof.lean ====
/-
  A batched three-layer network of leaky threshold neurons — 4 sensory, 64 hidden and 8 output neurons, 262144
  independent rows — computed by one tiled kernel and by a plain array program. Per row: the input layer is
  E_in = dec_in · x gated at th_in; the output layer is E_out = dec_out · E⁰_out + O⁰_hid · softplus(W_out) gated
  at th_out, the action tanh E_out; the hidden layer runs four steps of E ← dec · E + I − deg · E with the
  loop-invariant drive I = −(x · softplus(W_in)) + O⁰_hid · (softplus(W_ex) − softplus(W_inh)) + x · M, where M
  and deg are scatter-added sums of softplus(gap-junction weights) (Proof/Neuron.lean states all of it).

  The kernel folds the two input matrices into W = M − softplus(W_in) and the two decay terms into a = dec − deg
  on the host, reads the narrow input layer through a [8192,128] repacking of the [262144,4] array, and handles
  2048 rows per grid point. On the extended reals the two programs therefore agree entry by entry once
  x · (M − P) = x · M − x · P and (dec − deg) · E = dec · E − deg · E hold, that is, over real numbers: the
  precondition (every float input finite) makes every quantity involved real — the inputs directly, the
  softplus and scatter-add parameters because those operations keep realness (Proof/LibRealOps.lean,
  Proof/PreReal.lean, Proof/ParamsReal.lean) — and Proof/NeuronFold.lean proves the folding law over ℝ.

  The three frames are the generated ones (the reference's is its generated run with the results dropped); the
  idealization rewrote nothing, so `preserves` is trivial; `algebraic` is Proof/Assemble.lean: the kernel's
  seven arrays read block by block off its frame run (Proof/KernelOut.lean, Proof/KernelHidden*.lean,
  Proof/KernelIn*.lean, the host lines before the region in Proof/KernelHost.lean and Proof/HostParams.lean),
  the reference's seven results read stage by stage (Proof/RefValueOuter.lean, Proof/RefValueHidden.lean), both
  equal to the same seven functions of the argument arrays.
-/
import proofs.«173613_j2894807958278_2_alg».proof.Defs
import proofs.«173613_j2894807958278_2_alg».proof.Proof.Gen.Kernel
import proofs.«173613_j2894807958278_2_alg».proof.Proof.Gen.Kernel.Skeleton
import proofs.«173613_j2894807958278_2_alg».proof.Proof.Gen.Kernel.Launch
import proofs.«173613_j2894807958278_2_alg».proof.Proof.Gen.Kernel.Points
import proofs.«173613_j2894807958278_2_alg».proof.Proof.Gen.Kernel.Frame
import proofs.«173613_j2894807958278_2_alg».proof.Proof.Gen.KernelIdeal
import proofs.«173613_j2894807958278_2_alg».proof.Proof.Gen.KernelIdeal.Skeleton
import proofs.«173613_j2894807958278_2_alg».proof.Proof.Gen.KernelIdeal.Launch
import proofs.«173613_j2894807958278_2_alg».proof.Proof.Gen.KernelIdeal.Points
import proofs.«173613_j2894807958278_2_alg».proof.Proof.Gen.KernelIdeal.Frame
import proofs.«173613_j2894807958278_2_alg».proof.Proof.Gen.ReferenceIdeal
import proofs.«173613_j2894807958278_2_alg».proof.Proof.Gen.ReferenceIdeal.Run
import proofs.«173613_j2894807958278_2_alg».proof.Proof.Gen.Pre_finite_inputs
import proofs.«173613_j2894807958278_2_alg».proof.Proof.Assemble
import Idealize.ShloMosaic.Adequacy
import Idealize.ShloMosaic.Init

noncomputable section

namespace Cert.Proof

open Idealize.ShloMosaic Idealize.SL.Sem Cert.Kernel

/-- The five claims: three generated frames, the empty ledger, and the two idealized programs' equal results. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2.2.2.2.2)
    (Cert.ReferenceIdeal.Value.run (F := Ideal) m ρ),
  trivial,
  Cert.Assemble.algebraic⟩

end Cert.Proof

end
